-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S128x64 : S_.BroadcastsInDim S128x64 (![] : Fin 0 → Fin S128x64.rank)
  reducesTo_S128x64_S_d0_1 : S128x64.ReducesTo [0, 1] S_

variable [Facts]

def fn_part4 {F : FTy → Type} [FloatOps F] (main_arg15 : FVec F S128x64 .f32) (main_arg16 : FVec F S64 .f32) (main_v63 : IVec S_ 1) (main_v67 : IVec S_ 1) : IVec S_ 1 :=
  let main_v68 : IVec S_ 1 := andi main_v63 main_v67
  let main_v69 : FVec F S128x64 .f32 := Host.absf main_arg15
  let main_cst_26 : FVec F S_ .f32 := constant S_ .f32 0x7F800000#32
  let main_v70 : FVec F S128x64 .f32 := broadcastInDim S128x64 ![] bcast_S_S128x64 main_cst_26
  let main_v71 : IVec S128x64 1 := cmpf .olt main_v69 main_v70
  let main_c_27 : IVec S_ 1 := constantI S_ 1 1#1
  let main_v72 : IVec S_ 1 := (fun x v => Host.reduce IntOp.andi x v reducesTo_S128x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg12 : FVec F S64 .f32) (main_arg13 : FVec F S64x64 .f32) (main_arg14 : FVec F S64 .f32) (main_arg15 : FVec F S128x64 .f32) (main_arg16 : FVec F S64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x64 .f32 := Host.absf main_arg13
  let main_cst_22 : FVec F S_ .f32 := constant S_ .f32 0x7F800000#32
  let main_v60 : FVec F S64x64 .f32 := broadcastInDim S64x64 ![] bcast_S_S64x64 main_cst_22
  let main_v61 : IVec S64x64 1 := cmpf .olt main_v59 main_v60
  let main_c_23 : IVec S_ 1 := constantI S_ 1 1#1
  let main_v62 : IVec S_ 1 := (fun x v => Host.reduce IntOp.andi x v reducesTo_S64x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_v63 main_v67

def fn_part2 {F : FTy → Type} [FloatOps F] (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S128x64 .f32) (main_arg16 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg12 main_arg13 main_arg14 main_arg15 main_arg16 main_v48 main_v49 main_v50

def fn_part1 {F : FTy → Type} [FloatOps F] (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S128x64 .f32) (main_arg16 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_arg10 main_arg11 main_arg12 main_arg13 main_arg14 main_arg15 main_arg16 main_v33

def fn {F : FTy → Type} [FloatOps F] (main_arg0 : FVec F S100000x64 .f32) (main_arg1 : IVec S2x1600000 32) (main_arg2 : FVec F S100000x64 .f32) (main_arg3 : FVec F S64x64 .f32) (main_arg4 : FVec F S64 .f32) (main_arg5 : FVec F S64 .f32) (main_arg6 : FVec F S64 .f32) (main_arg7 : FVec F S64x64 .f32) (main_arg8 : FVec F S64 .f32) (main_arg9 : FVec F S64x64 .f32) (main_arg10 : FVec F S64 .f32) (main_arg11 : FVec F S64 .f32) (main_arg12 : FVec F S64 .f32) (main_arg13 : FVec F S64x64 .f32) (main_arg14 : FVec F S64 .f32) (main_arg15 : FVec F S128x64 .f32) (main_arg16 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg2
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S10000x64 : Shape := ⟨2, ![10000, 64]⟩

abbrev nBuf : Space → Nat
  | .hbm => 83
  | .vmem => 49
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S100000x64, .f32⟩
  | .hbm, ⟨3, _⟩ => ⟨S64x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S128x64, .f32⟩
  | .hbm, ⟨16, _⟩ => ⟨S64, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x64, .f32⟩
  | .hbm, ⟨30, _⟩ => ⟨S_, .f32⟩
  | .hbm, ⟨31, _⟩ => ⟨S100000x64, .f32⟩
  | .hbm, ⟨32, _⟩ => ⟨S1600000x1, .i32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S1x64, .f32⟩
  | .hbm, ⟨37, _⟩ => ⟨S1x64, .f32⟩
  | .hbm, ⟨38, _⟩ => ⟨S_, .f32⟩
  | .hbm, ⟨39, _⟩ => ⟨S1x64, .f32⟩
  | .hbm, ⟨40, _⟩ => ⟨S1x64, .f32⟩
  | .hbm, ⟨41, _⟩ => ⟨S_, .f32⟩
  | .hbm, ⟨42, _⟩ => ⟨S1x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x64, .f32⟩
  | .hbm, ⟨49, _⟩ => ⟨S100000x64, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000x64, .f32⟩
  | .hbm, ⟨59, _⟩ => ⟨S_, .f32⟩
  | .hbm, ⟨60, _⟩ => ⟨S100000x64, .f32⟩
  | .hbm, ⟨61, _⟩ => ⟨S1600000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S1x64, .f32⟩
  | .hbm, ⟨66, _⟩ => ⟨S1x64, .f32⟩
  | .hbm, ⟨67, _⟩ => ⟨S_, .f32⟩
  | .hbm, ⟨68, _⟩ => ⟨S1x64, .f32⟩
  | .hbm, ⟨69, _⟩ => ⟨S1x64, .f32⟩
  | .hbm, ⟨70, _⟩ => ⟨S_, .f32⟩
  | .hbm, ⟨71, _⟩ => ⟨S1x64, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x64, .f32⟩
  | .hbm, ⟨79, _⟩ => ⟨S64x64, .f32⟩
  | .hbm, ⟨80, _⟩ => ⟨S64x64, .f32⟩
  | .hbm, ⟨81, _⟩ => ⟨S1x64, .f32⟩
  | .hbm, ⟨82, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S1x64, .f32⟩
  | .local _ .vmem, ⟨6, _⟩ => ⟨S10000x64, .f32⟩
  | .local _ .vmem, ⟨7, _⟩ => ⟨S10000x64, .f32⟩
  | .local _ .vmem, ⟨8, _⟩ => ⟨S1x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | .local _ .vmem, ⟨12, _⟩ => ⟨S1x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S64x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S10000x64, .f32⟩
  | .local _ .vmem, ⟨23, _⟩ => ⟨S10000x64, .f32⟩
  | .local _ .vmem, ⟨24, _⟩ => ⟨S64x64, .f32⟩
  | .local _ .vmem, ⟨25, _⟩ => ⟨S1x64, .f32⟩
  | .local _ .vmem, ⟨26, _⟩ => ⟨S10000x64, .f32⟩
  | .local _ .vmem, ⟨27, _⟩ => ⟨S10000x64, .f32⟩
  | .local _ .vmem, ⟨28, _⟩ => ⟨S1x64, .f32⟩
  | .local _ .vmem, ⟨29, _⟩ => ⟨S1x64, .f32⟩
  | .local _ .vmem, ⟨30, _⟩ => ⟨S10000x64, .f32⟩
  | .local _ .vmem, ⟨31, _⟩ => ⟨S10000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S64x64, .f32⟩
  | .local _ .vmem, ⟨37, _⟩ => ⟨S1x64, .f32⟩
  | .local _ .vmem, ⟨38, _⟩ => ⟨S10000x64, .f32⟩
  | .local _ .vmem, ⟨39, _⟩ => ⟨S10000x64, .f32⟩
  | .local _ .vmem, ⟨40, _⟩ => ⟨S10000x64, .f32⟩
  | .local _ .vmem, ⟨41, _⟩ => ⟨S10000x64, .f32⟩
  | .local _ .vmem, ⟨42, _⟩ => ⟨S10000x64, .f32⟩
  | .local _ .vmem, ⟨43, _⟩ => ⟨S10000x64, .f32⟩
  | .local _ .vmem, ⟨44, _⟩ => ⟨S64x64, .f32⟩
  | .local _ .vmem, ⟨45, _⟩ => ⟨S64x64, .f32⟩
  | .local _ .vmem, ⟨46, _⟩ => ⟨S1x64, .f32⟩
  | .local _ .vmem, ⟨47, _⟩ => ⟨S10000x64, .f32⟩
  | .local _ .vmem, ⟨48, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15_0 : Ref sig .tc := ⟨.hbm, 35, rfl⟩
abbrev main_v15_1 : Ref sig .tc := ⟨.hbm, 36, rfl⟩
abbrev main_v15_2 : Ref sig .tc := ⟨.hbm, 37, rfl⟩
abbrev main_cst_1 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_c_3 : Ref sig .tc := ⟨.hbm, 50, rfl⟩
abbrev main_v26 : Ref sig .tc := ⟨.hbm, 51, rfl⟩
abbrev main_v27 : Ref sig .tc := ⟨.hbm, 52, rfl⟩
abbrev main_c_4 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37_0 : Ref sig .tc := ⟨.hbm, 64, rfl⟩
abbrev main_v37_1 : Ref sig .tc := ⟨.hbm, 65, rfl⟩
abbrev main_v37_2 : Ref sig .tc := ⟨.hbm, 66, rfl⟩
abbrev main_cst_6 : Ref sig .tc := ⟨.hbm, 67, rfl⟩
abbrev main_v38 : Ref sig .tc := ⟨.hbm, 68, rfl⟩
abbrev main_v39 : Ref sig .tc := ⟨.hbm, 69, rfl⟩
abbrev main_cst_7 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc2_stg5_0 : Ref sig .tc := ⟨.vmem, 28, rfl⟩
abbrev cc2_stg6_0 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg6_0 : Ref sig .tc := ⟨.vmem, 37, rfl⟩
abbrev cc3_stg7_0 : Ref sig .tc := ⟨.vmem, 38, rfl⟩
abbrev cc3_stg7_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg5_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27
abbrev cc2_sem5_0 : DmaSem sig := 28
abbrev cc2_sem6_0 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem6_0 : DmaSem sig := 37
abbrev cc3_sem7_0 : DmaSem sig := 38
abbrev cc3_sem7_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem5_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S10000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S64x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S10000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S1x64_S1x64 : S1x64.ShapeCasts S1x64
  broadcasts_S1x64_S10000x64 : S1x64.Broadcasts S10000x64
  reduces_S10000x64_S64 : S10000x64.Reduces [0] S64
  bcast_S_S1x64 : S_.BroadcastsInDim S1x64 (![] : Fin 0 → Fin S1x64.rank)
  slices_S128x64_S64x64_0_0 : S128x64.Slices ![0, 0] S64x64
  slices_S128x64_S64x64_64_0 : S128x64.Slices ![64, 0] S64x64
  shapeCasts_S64x64_S64x64 : S64x64.ShapeCasts S64x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x64.size a ≤ S100000x64.size a
  hwx0_4 : ∀ i : grid0.Coords, EltTy.bits .f32 = 32 ∨ (Rect.block (s := S100000x64) S10000x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S100000x64.size a
  hwx1_7 : ∀ i : grid1.Coords, EltTy.bits .f32 = 32 ∨ (Rect.block (s := S100000x64) S10000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S100000x64.size a
  hwx2_1 : ∀ i : grid2.Coords, EltTy.bits .f32 = 32 ∨ (Rect.block (s := S100000x64) S10000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x64.size a ≤ S100000x64.size a
  hwx2_4 : ∀ i : grid2.Coords, EltTy.bits .f32 = 32 ∨ (Rect.block (s := S100000x64) S10000x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S64x64.size a ≤ S64x64.size a
  hwx3_5 : ∀ i : grid3.Coords, EltTy.bits .f32 = 32 ∨ (Rect.block (s := S64x64) S64x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S10000x64.size a ≤ S100000x64.size a
  hwx3_7 : ∀ i : grid3.Coords, EltTy.bits .f32 = 32 ∨ (Rect.block (s := S100000x64) S10000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x64.size a ≤ S100000x64.size a
  hwx4_1 : ∀ i : grid4.Coords, EltTy.bits .f32 = 32 ∨ (Rect.block (s := S100000x64) S10000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x64.size a ≤ S100000x64.size a
  hwx4_5 : ∀ i : grid4.Coords, EltTy.bits .f32 = 32 ∨ (Rect.block (s := S100000x64) S10000x64.size (cc4_transform_5 i) (hinb4_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15_0) S10000x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v15_1) S1x64.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15_2) S1x64.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v15_0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v21) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v23) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v24) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v25) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v25) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S10000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v37_0) S10000x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v37_1) S1x64.size cc2_transform_5 reads2_5 true true 1 stage2_5 sem2_5
    hrank2 hreads2_5 hinb2_5 nbuf2_5 (Memref.isWhole_whole _) hwx2_5 hstage2_5

abbrev win2_6 : Pipeline.Window sig grid2 :=
  Pipeline.Window.ofSpec (Memref.whole main_v37_2) S1x64.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v37_0) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v39) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v43) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v44) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v45) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg13) S64x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v46) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v47) S10000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v47) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S10000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v48) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v49) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v50) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v51) S10000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S128x64 : Shape := ⟨2, ![128, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S100000x128 : Shape := ⟨2, ![100000, 128]⟩

abbrev nBuf : Space → Nat
  | .hbm => 139
  | .vmem => 0
  | .smem => 0
  | _ => 0

abbrev hbmTy0_0 (i : Nat) : BufTy := match i % 128 with
  | 0 => ⟨S100000x64, .f32⟩
  | 1 => ⟨S2x1600000, .i32⟩
  | 2 => ⟨S100000x64, .f32⟩
  | 3 => ⟨S64x64, .f32⟩
  | 4 => ⟨S64, .f32⟩
  | 5 => ⟨S64, .f32⟩
  | 6 => ⟨S64, .f32⟩
  | 7 => ⟨S64x64, .f32⟩
  | 8 => ⟨S64, .f32⟩
  | 9 => ⟨S64x64, .f32⟩
  | 10 => ⟨S64, .f32⟩
  | 11 => ⟨S64, .f32⟩
  | 12 => ⟨S64, .f32⟩
  | 13 => ⟨S64x64, .f32⟩
  | 14 => ⟨S64, .f32⟩
  | 15 => ⟨S128x64, .f32⟩
  | 16 => ⟨S64, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x64, .f32⟩
  | 30 => ⟨S_, .f32⟩
  | 31 => ⟨S100000x64, .f32⟩
  | 32 => ⟨S1600000x1, .i32⟩
  | 33 => ⟨S100000x64, .f32⟩
  | 34 => ⟨S100000x64, .f32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S64, .f32⟩
  | 41 => ⟨S_, .f32⟩
  | 42 => ⟨S64, .f32⟩
  | 43 => ⟨S64, .f32⟩
  | 44 => ⟨S1x64, .f32⟩
  | 45 => ⟨S100000x64, .f32⟩
  | 46 => ⟨S100000x64, .f32⟩
  | 47 => ⟨S100000x64, .f32⟩
  | 48 => ⟨S_, .f32⟩
  | 49 => ⟨S64, .f32⟩
  | 50 => ⟨S_, .f32⟩
  | 51 => ⟨S64, .f32⟩
  | 52 => ⟨S64, .f32⟩
  | 53 => ⟨S1x64, .f32⟩
  | 54 => ⟨S100000x64, .f32⟩
  | 55 => ⟨S100000x64, .f32⟩
  | 56 => ⟨S_, .f32⟩
  | 57 => ⟨S64, .f32⟩
  | 58 => ⟨S64, .f32⟩
  | 59 => ⟨S64, .f32⟩
  | 60 => ⟨S1x64, .f32⟩
  | 61 => ⟨S100000x64, .f32⟩
  | 62 => ⟨S100000x64, .f32⟩
  | 63 => ⟨S1x64, .f32⟩
  | 64 => ⟨S100000x64, .f32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S_, .i32⟩
  | 80 => ⟨S1600000, .i32⟩
  | 81 => ⟨S1600000, .i1⟩
  | 82 => ⟨S_, .i32⟩
  | 83 => ⟨S1600000, .i32⟩
  | 84 => ⟨S1600000, .i32⟩
  | 85 => ⟨S1600000, .i32⟩
  | 86 => ⟨S1600000x1, .i32⟩
  | 87 => ⟨S1600000x64, .f32⟩
  | 88 => ⟨S_, .f32⟩
  | 89 => ⟨S100000x64, .f32⟩
  | 90 => ⟨S1600000x1, .i32⟩
  | 91 => ⟨S100000x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S_, .f32⟩
  | 98 => ⟨S64, .f32⟩
  | 99 => ⟨S_, .f32⟩
  | 100 => ⟨S64, .f32⟩
  | 101 => ⟨S64, .f32⟩
  | 102 => ⟨S1x64, .f32⟩
  | 103 => ⟨S100000x64, .f32⟩
  | 104 => ⟨S100000x64, .f32⟩
  | 105 => ⟨S100000x64, .f32⟩
  | 106 => ⟨S_, .f32⟩
  | 107 => ⟨S64, .f32⟩
  | 108 => ⟨S_, .f32⟩
  | 109 => ⟨S64, .f32⟩
  | 110 => ⟨S64, .f32⟩
  | 111 => ⟨S1x64, .f32⟩
  | 112 => ⟨S100000x64, .f32⟩
  | 113 => ⟨S100000x64, .f32⟩
  | 114 => ⟨S_, .f32⟩
  | 115 => ⟨S64, .f32⟩
  | 116 => ⟨S64, .f32⟩
  | 117 => ⟨S64, .f32⟩
  | 118 => ⟨S1x64, .f32⟩
  | 119 => ⟨S100000x64, .f32⟩
  | 120 => ⟨S100000x64, .f32⟩
  | 121 => ⟨S1x64, .f32⟩
  | 122 => ⟨S100000x64, .f32⟩
  | 123 => ⟨S100000x64, .f32⟩
  | 124 => ⟨S1x64, .f32⟩
  | 125 => ⟨S100000x64, .f32⟩
  | 126 => ⟨S100000x64, .f32⟩
  | 127 => ⟨S_, .f32⟩
  | _ => ⟨S100000x64, .f32⟩

abbrev hbmTy0_1 (i : Nat) : BufTy := match i % 128 with
  | 0 => ⟨S100000x64, .f32⟩
  | 1 => ⟨S100000x64, .f32⟩
  | 2 => ⟨S100000x64, .f32⟩
  | 3 => ⟨S1x64, .f32⟩
  | 4 => ⟨S100000x64, .f32⟩
  | 5 => ⟨S100000x64, .f32⟩
  | 6 => ⟨S100000x128, .f32⟩
  | 7 => ⟨S100000x64, .f32⟩
  | 8 => ⟨S1x64, .f32⟩
  | 9 => ⟨S100000x64, .f32⟩
  | 10 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_c : Ref sig .tc := ⟨.hbm, 21, rfl⟩
abbrev main_v4 : Ref sig .tc := ⟨.hbm, 22, rfl⟩
abbrev main_v5 : Ref sig .tc := ⟨.hbm, 23, rfl⟩
abbrev main_c_0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_1 : Ref sig .tc := ⟨.hbm, 39, rfl⟩
abbrev main_v19 : Ref sig .tc := ⟨.hbm, 40, rfl⟩
abbrev main_cst_2 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_cst_3 : Ref sig .tc := ⟨.hbm, 48, rfl⟩
abbrev main_v26 : Ref sig .tc := ⟨.hbm, 49, rfl⟩
abbrev main_cst_4 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_5 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call0_cst : Ref sig .tc := ⟨.hbm, 69, rfl⟩
abbrev main_call0_v0 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_call1_cst : Ref sig .tc := ⟨.hbm, 76, rfl⟩
abbrev main_call1_v0 : Ref sig .tc := ⟨.hbm, 77, rfl⟩
abbrev main_v49 : Ref sig .tc := ⟨.hbm, 78, rfl⟩
abbrev main_c_6 : Ref sig .tc := ⟨.hbm, 79, rfl⟩
abbrev main_v50 : Ref sig .tc := ⟨.hbm, 80, rfl⟩
abbrev main_v51 : Ref sig .tc := ⟨.hbm, 81, rfl⟩
abbrev main_c_7 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_cst_8 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_9 : Ref sig .tc := ⟨.hbm, 97, rfl⟩
abbrev main_v65 : Ref sig .tc := ⟨.hbm, 98, rfl⟩
abbrev main_cst_10 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_cst_11 : Ref sig .tc := ⟨.hbm, 106, rfl⟩
abbrev main_v72 : Ref sig .tc := ⟨.hbm, 107, rfl⟩
abbrev main_cst_12 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_13 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_call2_cst : Ref sig .tc := ⟨.hbm, 127, rfl⟩
abbrev main_call2_v0 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  concatenates_S100000x64_S100000x64_S100000x128_d1 : Shape.Concatenates [S100000x64, S100000x64] S100000x128 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []
  dot_S100000x128_S128x64_S100000x64_1_0_0_1_n_n_wf : DotDims.WF S100000x128 S128x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KRun.lean ====
/-
  The idealized kernel program run from any memory, with its result array named. The program is five kernel regions
  among stretches of host operations; its contents at each boundary are a fold from the launch memory, and the last
  boundary's contents hold at every buffer of the final state. So the result buffer ends at the fold's last contents,
  read at that buffer, and every argument ends as launched.
-/
import proofs.«123288_j69320772157914_1_alg».proof.Proof.KernelIdealFrameP

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last boundary's
    contents and the arguments as launched. -/
theorem run : θ_run defs (onTc (τ := τ) (main (F := F))) ⟨m, fun _ => 0, ρ⟩ (fun r => ∀ c : Dev nD,
      r.2.mem ((c.tc : Thread nD τ).loc main_v51) = W10 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v51 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c),
       (h c _ (mem_uc main_arg12 (by decide))).trans (W10_main_arg12 m ρ c),
       (h c _ (mem_uc main_arg13 (by decide))).trans (W10_main_arg13 m ρ c),
       (h c _ (mem_uc main_arg14 (by decide))).trans (W10_main_arg14 m ρ c),
       (h c _ (mem_uc main_arg15 (by decide))).trans (W10_main_arg15 m ρ c),
       (h c _ (mem_uc main_arg16 (by decide))).trans (W10_main_arg16 m ρ c)⟩)

end Cert.KernelIdeal.RunValue

end
-- ==== Proof.LibVariance.lean ====
/-
  The variance of finitely many real numbers, in one pass and in two.

  For real numbers h_p over a finite index set of N ≠ 0 elements with mean μ = (Σ_p h_p)/N,
      Σ_p (h_p − μ)² = Σ_p h_p² − 2μ·Σ_p h_p + N·μ² = Σ_p h_p² − N·μ²,
  so the mean of the squared deviations is the mean of the squares less the squared mean. On the extended reals, with
  the exact quotient by a word that denotes the real N and every entry the image of a real, both spellings are the image
  of that one real number. The hypothesis is needed: at an infinite entry the one-pass form subtracts ⊤ from ⊤ while the
  two-pass form squares ⊤ − ⊤, and the two junk values differ.
-/
import Idealize.ShloMosaic.PureOps.Ideal
import Mathlib.Tactic

open scoped BigOperators

namespace Idealize.ShloMosaic.Variance

/-- On real numbers: the mean of the squared deviations from the mean is the mean of the squares less the squared
    mean, the quotients written as products with 1/N. -/
theorem var_real {ι : Type*} [Fintype ι] (h : ι → ℝ) (N : ℝ) (hcard : (Fintype.card ι : ℝ) = N) (hN : N ≠ 0) :
    (∑ p, (h p - (∑ p, h p) * (1 / N)) * (h p - (∑ p, h p) * (1 / N))) * (1 / N)
      = (∑ p, h p * h p) * (1 / N) - ((∑ p, h p) * (1 / N)) * ((∑ p, h p) * (1 / N)) := by
  set S : ℝ := ∑ p, h p with hS
  have hsq : ∀ p, (h p - S * (1 / N)) * (h p - S * (1 / N))
      = h p * h p - 2 * (S * (1 / N)) * h p + (S * (1 / N)) * (S * (1 / N)) := fun p => by ring
  simp only [hsq, Finset.sum_add_distrib, Finset.sum_sub_distrib, ← Finset.mul_sum, Finset.sum_const, Finset.card_univ,
    nsmul_eq_mul, ← hS, hcard]
  field_simp
  ring

/-- The coercion of the reals into the extended reals commutes with a sum over a finite type. -/
theorem coe_sum {ι : Type*} [Fintype ι] (f : ι → ℝ) : ((∑ p, f p : ℝ) : EReal) = ∑ p, ((f p : ℝ) : EReal) := by
  classical
  refine Finset.induction_on (Finset.univ : Finset ι) (by simp) ?_
  intro a s ha ih
  rw [Finset.sum_insert ha, Finset.sum_insert ha, EReal.coe_add, ih]

/-- On the extended reals, at the ideal instance's exact quotient by a value that is the real N = the number of entries:
    for real entries the two-pass variance is the one-pass variance. -/
theorem var_two_pass_eq_one_pass {ι : Type*} [Fintype ι] (h : ι → ℝ) (cnt : EReal) (N : ℝ) (hcnt : cnt = (N : EReal))
    (hcard : (Fintype.card ι : ℝ) = N) (hN : N ≠ 0) :
    Ideal.div (∑ p, (((h p : ℝ) : EReal) - Ideal.div (∑ p, ((h p : ℝ) : EReal)) cnt)
        * (((h p : ℝ) : EReal) - Ideal.div (∑ p, ((h p : ℝ) : EReal)) cnt)) cnt
      = Ideal.div (∑ p, ((h p : ℝ) : EReal) * ((h p : ℝ) : EReal)) cnt
        - Ideal.div (∑ p, ((h p : ℝ) : EReal)) cnt * Ideal.div (∑ p, ((h p : ℝ) : EReal)) cnt := by
  subst hcnt
  have hm : Ideal.div (∑ p, ((h p : ℝ) : EReal)) (N : EReal) = (((∑ p, h p) * (1 / N) : ℝ) : EReal) := by
    rw [← coe_sum, Ideal.div_coe hN, ← EReal.coe_mul]
  rw [hm]
  simp only [← EReal.coe_sub, ← EReal.coe_mul, ← coe_sum]
  rw [Ideal.div_coe hN, Ideal.div_coe hN, ← EReal.coe_mul, ← EReal.coe_mul, ← EReal.coe_sub, var_real h N hcard hN]

end Idealize.ShloMosaic.Variance
-- ==== Proof.Spec.lean ====
/-
  The computation both programs perform, written once over the extended reals.

  A graph-isomorphism layer takes node features X : [A, K] and their neighbour sums AG : [A, K] and forms
      H(r, j)   = Σ_k (X(r,k) + AG(r,k)) · W1(k, j) + b1(j)                       (first linear map)
      μ(j)      = (Σ_r H(r, j)) / n                                               (column mean, n the word of the row count)
      σ²(j)     = the column variance of H                                         (in one of two spellings, below)
      Y(r, j)   = max (((H(r,j) − μ(j)) · rsqrt(σ²(j) + ε)) · g(j) + β(j)) 0        (normalise, scale, shift, rectify)
      out(r, q) = Σ_j Y(r, j) · W2(j, q) + b2(q)                                   (second linear map).
  The one-pass variance is (Σ_r H²)/n − μ², the two-pass variance (Σ_r (H − μ)²)/n. On real entries, with n the real
  number of rows, they are the same number; on the extended reals they differ at infinite entries, so the equality is
  stated under the hypothesis that H is real. The closing step multiplies two row blocks by the two halves of one weight
  matrix, which is the product of the rows laid side by side with the whole matrix: a finite sum cut in two.
-/
import Idealize.ShloMosaic.PureOps.Ideal.Laws
import Idealize.ShloMosaic.Lib.ValueIdx
import proofs.«123288_j69320772157914_1_alg».proof.Proof.LibVariance

noncomputable section

namespace Cert.Gin

open Idealize.ShloMosaic Idealize.ShloMosaic.ValueIdx
open scoped BigOperators

variable {A K C M : Nat}

/-- The three float words the programs share: the variance's guard ε, zero, and the row count 100000. They are never
    evaluated: each side carries the same word. -/
abbrev epsW : EReal := Ideal.ofBits .f32 0x3727C5AC#32
abbrev zeroW : EReal := Ideal.ofBits .f32 0x00000000#32
abbrev cntW : EReal := Ideal.ofBits .f32 0x47C35000#32

/-- An [a, b] array of extended reals. -/
abbrev Mat (a b : Nat) : Type := FVec Ideal ⟨2, ![a, b]⟩ .f32

/-- A vector [c] read as a function of its coordinate. -/
def vec {c : Nat} (v : FVec Ideal ⟨1, ![c]⟩ .f32) : Fin c → EReal := fun q => v (ix1 q)

/-- A one-row array [1, c] read as a function of its column. -/
def row {c : Nat} (v : Mat 1 c) : Fin c → EReal := fun q => v (ix2 (0 : Fin 1) q)

/-- Entry by entry sum of two arrays. -/
def add2 (X Y : Mat A K) : Mat A K := fun i => X i + Y i

/-- Rows times weights plus a bias: entry (r, q) is Σ_k X(r,k)·W(k,q) + b(q). -/
def lin (X : Mat A K) (W : Mat K M) (b : Fin M → EReal) : Mat A M :=
  fun i => (∑ k : Fin K, X (ix2 ⟨(i 0).val, idx2_lt0 i⟩ k) * W (ix2 k ⟨(i 1).val, idx2_lt1 i⟩)) + b ⟨(i 1).val, idx2_lt1 i⟩

theorem lin_ix2 (X : Mat A K) (W : Mat K M) (b : Fin M → EReal) (p : Fin A) (q : Fin M) :
    lin X W b (ix2 p q) = (∑ k : Fin K, X (ix2 p k) * W (ix2 k q)) + b q := rfl

/-- The sum down column j. -/
def colSum (H : Mat A C) (j : Fin C) : EReal := ∑ r : Fin A, H (ix2 r j)

/-- The sum of squares down column j. -/
def colSumSq (H : Mat A C) (j : Fin C) : EReal := ∑ r : Fin A, H (ix2 r j) * H (ix2 r j)

/-- The column mean: the column sum over the count word. -/
def mean (cnt : EReal) (H : Mat A C) (j : Fin C) : EReal := Ideal.div (colSum H j) cnt

/-- The variance in one pass: the mean of the squares less the squared mean. -/
def var1 (cnt : EReal) (H : Mat A C) (j : Fin C) : EReal :=
  Ideal.div (colSumSq H j) cnt - mean cnt H j * mean cnt H j

/-- The variance in two passes: the mean of the squared deviations from the mean. -/
def var2 (cnt : EReal) (H : Mat A C) (j : Fin C) : EReal :=
  Ideal.div (∑ r : Fin A, (H (ix2 r j) - mean cnt H j) * (H (ix2 r j) - mean cnt H j)) cnt

/-- Normalise, scale, shift and rectify, column by column. -/
def bnRelu (e z : EReal) (H : Mat A C) (mu var g be : Fin C → EReal) : Mat A C :=
  fun i => max (((H i - mu ⟨(i 1).val, idx2_lt1 i⟩) * Ideal.rsqrt (var ⟨(i 1).val, idx2_lt1 i⟩ + e)) * g ⟨(i 1).val, idx2_lt1 i⟩
    + be ⟨(i 1).val, idx2_lt1 i⟩) z

theorem bnRelu_ix2 (e z : EReal) (H : Mat A C) (mu var g be : Fin C → EReal) (p : Fin A) (q : Fin C) :
    bnRelu e z H mu var g be (ix2 p q) = max (((H (ix2 p q) - mu q) * Ideal.rsqrt (var q + e)) * g q + be q) z := rfl

/-- The rectifier. -/
def relu (z : EReal) (X : Mat A M) : Mat A M := fun i => max (X i) z

/-- The layer from its hidden values H on, with the column statistics given. -/
def tail (e z : EReal) (H : Mat A C) (mu var g be : Fin C → EReal) (W2 : Mat C M) (b2 : Fin M → EReal) : Mat A M :=
  lin (bnRelu e z H mu var g be) W2 b2

/-- The hidden values of a layer. -/
def hidden (X AG : Mat A K) (W1 : Mat K C) (b1 : Fin C → EReal) : Mat A C := lin (add2 X AG) W1 b1

/-- A layer with the one-pass variance. -/
def layer1 (e z cnt : EReal) (X AG : Mat A K) (W1 : Mat K C) (b1 g be : Fin C → EReal) (W2 : Mat C M) (b2 : Fin M → EReal) :
    Mat A M :=
  tail e z (hidden X AG W1 b1) (mean cnt (hidden X AG W1 b1)) (var1 cnt (hidden X AG W1 b1)) g be W2 b2

/-- A layer with the two-pass variance. -/
def layer2 (e z cnt : EReal) (X AG : Mat A K) (W1 : Mat K C) (b1 g be : Fin C → EReal) (W2 : Mat C M) (b2 : Fin M → EReal) :
    Mat A M :=
  tail e z (hidden X AG W1 b1) (mean cnt (hidden X AG W1 b1)) (var2 cnt (hidden X AG W1 b1)) g be W2 b2

/-- The closing step: two row blocks X, G : [A, K] against the upper and lower K rows of one weight matrix W : [K + K, M]. -/
def fin (X G : Mat A K) (W : Mat (K + K) M) (b : Fin M → EReal) : Mat A M :=
  fun i => ((∑ k : Fin K, X (ix2 ⟨(i 0).val, idx2_lt0 i⟩ k) * W (ix2 (Fin.castAdd K k) ⟨(i 1).val, idx2_lt1 i⟩))
    + ∑ k : Fin K, G (ix2 ⟨(i 0).val, idx2_lt0 i⟩ k) * W (ix2 (Fin.natAdd K k) ⟨(i 1).val, idx2_lt1 i⟩))
    + b ⟨(i 1).val, idx2_lt1 i⟩

theorem fin_ix2 (X G : Mat A K) (W : Mat (K + K) M) (b : Fin M → EReal) (p : Fin A) (q : Fin M) :
    fin X G W b (ix2 p q) = ((∑ k : Fin K, X (ix2 p k) * W (ix2 (Fin.castAdd K k) q))
      + ∑ k : Fin K, G (ix2 p k) * W (ix2 (Fin.natAdd K k) q)) + b q := rfl

/-- The closing step with the two halves of the weight matrix given apart. -/
def fin2 (X G : Mat A K) (Wx Wg : Mat K M) (b : Fin M → EReal) : Mat A M :=
  fun i => ((∑ k : Fin K, X (ix2 ⟨(i 0).val, idx2_lt0 i⟩ k) * Wx (ix2 k ⟨(i 1).val, idx2_lt1 i⟩))
    + ∑ k : Fin K, G (ix2 ⟨(i 0).val, idx2_lt0 i⟩ k) * Wg (ix2 k ⟨(i 1).val, idx2_lt1 i⟩))
    + b ⟨(i 1).val, idx2_lt1 i⟩

theorem fin2_ix2 (X G : Mat A K) (Wx Wg : Mat K M) (b : Fin M → EReal) (p : Fin A) (q : Fin M) :
    fin2 X G Wx Wg b (ix2 p q) = ((∑ k : Fin K, X (ix2 p k) * Wx (ix2 k q)) + ∑ k : Fin K, G (ix2 p k) * Wg (ix2 k q)) + b q := rfl

/-- With real hidden values and the count word the real number of rows, the two variances are one number. -/
theorem var1_eq_var2 (cnt : EReal) (hcnt : cnt = ((A : ℝ) : EReal)) (hA : (A : ℝ) ≠ 0) (H : Mat A C)
    (hH : ∀ i, ∃ r : ℝ, H i = (r : EReal)) (j : Fin C) : var1 cnt H j = var2 cnt H j := by
  choose h hh using fun r : Fin A => hH (ix2 r j)
  unfold var1 var2 mean colSum colSumSq
  simp only [hh]
  exact (Variance.var_two_pass_eq_one_pass h cnt (A : ℝ) hcnt (by simp) hA).symm

/-- So with real hidden values the two layers are one function. -/
theorem layer1_eq_layer2 (e z cnt : EReal) (hcnt : cnt = ((A : ℝ) : EReal)) (hA : (A : ℝ) ≠ 0) (X AG : Mat A K) (W1 : Mat K C)
    (b1 g be : Fin C → EReal) (W2 : Mat C M) (b2 : Fin M → EReal)
    (hH : ∀ i, ∃ r : ℝ, hidden X AG W1 b1 i = (r : EReal)) :
    layer1 e z cnt X AG W1 b1 g be W2 b2 = layer2 e z cnt X AG W1 b1 g be W2 b2 := by
  unfold layer1 layer2
  rw [show var1 cnt (hidden X AG W1 b1) = var2 cnt (hidden X AG W1 b1) from
    funext fun j => var1_eq_var2 cnt hcnt hA _ hH j]

end Cert.Gin

end
-- ==== Proof.LibPlainDot.lean ====
/-
  A plain two-dimensional matrix product — `M × K` by `K × N`, contracting the left operand's columns with the right operand's
  rows, no batch axis (`DotDims.plain M K N`, the dimension numbers `<[1], [0], [0], [1]>`) — read at an output index over the
  extended reals: both a kernel's `tpu.matmul` into a zero accumulator and the host's `dot_general` are the finite sum
  `Σ_{k < K} lhs (r, k) · rhs (k, j)`, with the contraction index a plain `Fin K` and the operand indices built from coordinates.
  A printed record `dot_S…_1_0_0_1_n_n` of these dimension numbers IS `DotDims.plain M K N` (`rfl`: the lists coincide and the
  well-formedness field is a proposition), so one `rw` with that equation brings a printed product under these lemmas.
-/
import Idealize.ShloMosaic.PureOps.Ideal.Laws
import Idealize.ShloMosaic.Lib.ValueIdx

namespace Idealize.ShloMosaic.PlainDot

open Idealize.ShloMosaic.ValueIdx

variable {M K N : Nat}

theorem contr_rank : (DotDims.plain M K N).contr.rank = 1 := rfl
theorem contr_size : (DotDims.plain M K N).contr.size ⟨0, by rw [contr_rank]; exact Nat.one_pos⟩ = K := rfl

/-- The left operand's row coordinate is the output's. -/
theorem lhsIdx_val0 (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction position. -/
theorem lhsIdx_val1 (j : (⟨2, ![M, N]⟩ : Shape).Idx) (q : (DotDims.plain M K N).contr.Idx) :
    ((DotDims.plain M K N).lhsIdx j q 1).val = (q ⟨0, by rw [contr_rank]; exact Nat.one_pos⟩).val :=
  (DotDims.plain M K N).lhsIdx_val_of_single (cl := (1 : Fin 2)) rfl j q

/-- The right operand's row coordinate is the contraction position. -/
theorem rhsIdx_val0 (j : (⟨2, ![M, N]⟩ : Shape).Idx) (q : (DotDims.plain M K N).contr.Idx) :
    ((DotDims.plain M K N).rhsIdx j q 0).val = (q ⟨0, by rw [contr_rank]; exact Nat.one_pos⟩).val :=
  (DotDims.plain M K N).rhsIdx_val_of_single (cr := (0 : Fin 2)) rfl j q

/-- The right operand's column coordinate is the output's. -/
theorem rhsIdx_val1 (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The left operand's index at output index `j` and contraction position `k` is `(j₀, k)`. -/
theorem lhsIdx_eq (j : (⟨2, ![M, N]⟩ : Shape).Idx) (k : Fin K) :
    (DotDims.plain M K N).lhsIdx j ((contrEquiv1 (DotDims.plain M K N) K contr_rank contr_size).symm k)
      = ix2 ⟨(j 0).val, idx2_lt0 j⟩ k := by
  have hk := contrEquiv1_symm_val (DotDims.plain M K N) K contr_rank contr_size k
  funext a
  apply Fin.ext
  match a with
  | ⟨0, _⟩ => exact lhsIdx_val0 j _
  | ⟨1, _⟩ => exact (lhsIdx_val1 j _).trans hk

/-- The right operand's index there is `(k, j₁)`. -/
theorem rhsIdx_eq (j : (⟨2, ![M, N]⟩ : Shape).Idx) (k : Fin K) :
    (DotDims.plain M K N).rhsIdx j ((contrEquiv1 (DotDims.plain M K N) K contr_rank contr_size).symm k)
      = ix2 k ⟨(j 1).val, idx2_lt1 j⟩ := by
  have hk := contrEquiv1_symm_val (DotDims.plain M K N) K contr_rank contr_size k
  funext a
  apply Fin.ext
  match a with
  | ⟨0, _⟩ => exact (rhsIdx_val0 j _).trans hk
  | ⟨1, _⟩ => exact rhsIdx_val1 j _

/-- A kernel's plain matrix product into the zero accumulator, at an output index: the sum over the contracted coordinate. -/
theorem matmul_apply {φ₁ φ₂ : FTy} (prec : Option ContractPrecision) (lhs : FVec Ideal ⟨2, ![M, K]⟩ φ₁)
    (rhs : FVec Ideal ⟨2, ![K, N]⟩ φ₂) (j : (⟨2, ![M, N]⟩ : Shape).Idx) :
    FloatOps.matmul (DotDims.plain M K N) prec lhs rhs (constant ⟨2, ![M, N]⟩ .f32 0x00000000#32) j
      = ∑ k : Fin K, lhs (ix2 ⟨(j 0).val, idx2_lt0 j⟩ k) * rhs (ix2 k ⟨(j 1).val, idx2_lt1 j⟩) := by
  rw [Ideal.matmul_constant_zero_apply,
    ← Equiv.sum_comp (contrEquiv1 (DotDims.plain M K N) K contr_rank contr_size).symm]
  refine Finset.sum_congr rfl fun k _ => ?_
  rw [lhsIdx_eq, rhsIdx_eq]

/-- The host's plain `dot_general` at an output index: the same sum. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (j : (⟨2, ![M, N]⟩ : Shape).Idx) :
    FloatOps.dotGeneral (DotDims.plain M K N) prec sched lhs rhs j
      = ∑ k : Fin K, lhs (ix2 ⟨(j 0).val, idx2_lt0 j⟩ k) * rhs (ix2 k ⟨(j 1).val, idx2_lt1 j⟩) := by
  rw [Ideal.dotGeneral_apply,
    ← Equiv.sum_comp (contrEquiv1 (DotDims.plain M K N) K contr_rank contr_size).symm]
  refine Finset.sum_congr rfl fun k _ => ?_
  rw [lhsIdx_eq, rhsIdx_eq]

/-- At an index given by coordinates. -/
theorem matmul_apply_ix2 {φ₁ φ₂ : FTy} (prec : Option ContractPrecision) (lhs : FVec Ideal ⟨2, ![M, K]⟩ φ₁)
    (rhs : FVec Ideal ⟨2, ![K, N]⟩ φ₂) (r : Fin M) (c : Fin N) :
    FloatOps.matmul (DotDims.plain M K N) prec lhs rhs (constant ⟨2, ![M, N]⟩ .f32 0x00000000#32) (ix2 r c)
      = ∑ k : Fin K, lhs (ix2 r k) * rhs (ix2 k c) :=
  matmul_apply prec lhs rhs (ix2 r c)

theorem dotGeneral_apply_ix2 {φ₁ φ₂ : FTy} (prec : Option ContractPrecision) (sched : HostSchedule)
    (lhs : FVec Ideal ⟨2, ![M, K]⟩ φ₁) (rhs : FVec Ideal ⟨2, ![K, N]⟩ φ₂) (r : Fin M) (c : Fin N) :
    FloatOps.dotGeneral (DotDims.plain M K N) prec sched lhs rhs (ix2 r c)
      = ∑ k : Fin K, lhs (ix2 r k) * rhs (ix2 k c) :=
  dotGeneral_apply prec sched lhs rhs (ix2 r c)

end Idealize.ShloMosaic.PlainDot
-- ==== Proof.LibAffine.lean ====
/-
  Rows times weights plus a bias row, over the extended reals, in its two spellings. A row-tiled kernel computes, for a block
  `x` of rows, `matmul (bf16 x) w 0 + broadcast b`: the rounding of the left operand to bf16 is the identity on the extended
  reals, the matrix unit's product into a zero accumulator is the finite sum over the contracted coordinate, and the bias row
  `[1, M]` is repeated down the rows. The host computes `dot_general X W + broadcast (broadcast b)` with `b` of shape `[M]`
  lifted to `[1, M]` and then to `[A, M]`. Entry `(r, j)` of either is `Σ_k X(r,k)·W(k,j) + b(j)`.
-/
import Idealize.ShloMosaic.PureOps.Ideal.Laws
import Idealize.ShloMosaic.Lib.ValueIdx
import Idealize.ShloMosaic.Lib.ValueLayout
import Idealize.ShloMosaic.Lib.Pipeline.Value
import proofs.«123288_j69320772157914_1_alg».proof.Proof.LibPlainDot

namespace Idealize.ShloMosaic.Affine

open Idealize.ShloMosaic.ValueIdx

variable {A K M : Nat}

/-- Rows times weights plus the bias row: entry `(r, j)` is `Σ_k X(r,k)·W(k,j) + b(0,j)`. -/
noncomputable def affine {φw : FTy} (X : FVec Ideal ⟨2, ![A, K]⟩ .f32) (W : FVec Ideal ⟨2, ![K, M]⟩ φw) (b : FVec Ideal ⟨2, ![1, M]⟩ .f32) :
    FVec Ideal ⟨2, ![A, M]⟩ .f32 :=
  fun i => (∑ k : Fin K, X (ix2 ⟨(i 0).val, idx2_lt0 i⟩ k) * W (ix2 k ⟨(i 1).val, idx2_lt1 i⟩))
    + b (ix2 (0 : Fin 1) ⟨(i 1).val, idx2_lt1 i⟩)

theorem affine_ix2 {φw : FTy} (X : FVec Ideal ⟨2, ![A, K]⟩ .f32) (W : FVec Ideal ⟨2, ![K, M]⟩ φw) (b : FVec Ideal ⟨2, ![1, M]⟩ .f32)
    (p : Fin A) (q : Fin M) :
    affine X W b (ix2 p q) = (∑ k : Fin K, X (ix2 p k) * W (ix2 k q)) + b (ix2 (0 : Fin 1) q) := rfl

/-- The kernel body's value at row `p`, column `q` of its block. -/
theorem body_apply {φw : FTy} (prec : Option ContractPrecision) (x0 : FVec Ideal ⟨2, ![A, K]⟩ .f32) (x1 : FVec Ideal ⟨2, ![K, M]⟩ φw)
    (x2 : FVec Ideal ⟨2, ![1, M]⟩ .f32) (ht : FTy.bf16.bits < FTy.f32.bits)
    (hb : (⟨2, ![1, M]⟩ : Shape).Broadcasts ⟨2, ![A, M]⟩) (p : Fin A) (q : Fin M) :
    addf (FloatOps.matmul (DotDims.plain A K M) prec (truncf .bf16 x0 ht) x1 (constant ⟨2, ![A, M]⟩ .f32 0x00000000#32))
        (broadcastTo ⟨2, ![A, M]⟩ x2 hb) (ix2 p q)
      = affine x0 x1 x2 (ix2 p q) := by
  rw [affine_ix2]
  refine (addf_apply _ _ _).trans ?_
  refine congrArg₂ (· + ·) ?_ ?_
  · exact PlainDot.matmul_apply_ix2 prec (truncf .bf16 x0 ht) x1 p q
  · exact broadcastTo_1b_ab_apply x2 hb p q

/-- A bias `[M]` lifted to `[1, M]` and then to `[A, M]`, at `(p, q)`: its entry `q`. -/
theorem bias_rows_apply (b : FVec Ideal ⟨1, ![M]⟩ .f32) (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    broadcastInDim ⟨2, ![A, M]⟩ ![0, 1] h2 (broadcastInDim ⟨2, ![1, M]⟩ ![1] h1 b) (ix2 p q) = b (ix1 q) := by
  have hq := q.isLt
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if M = 1 then 0 else q.val
      split
      · omega
      · rfl
  · match a with
    | ⟨0, _⟩ =>
      show q.val = if M = 1 then 0 else q.val
      split
      · omega
      · rfl

/-- The host's spelling at `(p, q)`. -/
theorem host_apply (prec : Option ContractPrecision) (sched : HostSchedule) (X : FVec Ideal ⟨2, ![A, K]⟩ .f32)
    (W : FVec Ideal ⟨2, ![K, M]⟩ .f32) (b : FVec Ideal ⟨1, ![M]⟩ .f32)
    (h1 : (⟨1, ![M]⟩ : Shape).BroadcastsInDim ⟨2, ![1, M]⟩ ![1])
    (h2 : (⟨2, ![1, M]⟩ : Shape).BroadcastsInDim ⟨2, ![A, M]⟩ ![0, 1]) (p : Fin A) (q : Fin M) :
    addf (FloatOps.dotGeneral (DotDims.plain A K M) prec sched X W)
        (broadcastInDim ⟨2, ![A, M]⟩ ![0, 1] h2 (broadcastInDim ⟨2, ![1, M]⟩ ![1] h1 b)) (ix2 p q)
      = (∑ k : Fin K, X (ix2 p k) * W (ix2 k q)) + b (ix1 q) := by
  refine (addf_apply _ _ _).trans ?_
  refine congrArg₂ (· + ·) ?_ ?_
  · exact PlainDot.dotGeneral_apply_ix2 prec sched X W p q
  · exact bias_rows_apply b h1 h2 p q

/-- The two spellings agree: the kernel's weights are the host's rounded to bf16 (the identity here) and its bias row the
    host's bias recast to `[1, M]`. -/
theorem affine_eq_host (prec : Option ContractPrecision) (sched : HostSchedule) (X : FVec Ideal ⟨2, ![A, K]⟩ .f32)
    (W : FVec Ideal ⟨2, ![K, M]⟩ .f32) (b : FVec Ideal ⟨1, ![M]⟩ .f32) (ht : FTy.bf16.bits < FTy.f32.bits)
    (hc : (⟨1, ![M]⟩ : Shape).ShapeCasts ⟨2, ![1, M]⟩)
    (h1 : (⟨1, ![M]⟩ : Shape).BroadcastsInDim ⟨2, ![1, M]⟩ ![1])
    (h2 : (⟨2, ![1, M]⟩ : Shape).BroadcastsInDim ⟨2, ![A, M]⟩ ![0, 1]) :
    affine X (truncf .bf16 W ht) (shapeCast ⟨2, ![1, M]⟩ b hc)
      = addf (FloatOps.dotGeneral (DotDims.plain A K M) prec sched X W)
          (broadcastInDim ⟨2, ![A, M]⟩ ![0, 1] h2 (broadcastInDim ⟨2, ![1, M]⟩ ![1] h1 b)) := by
  funext i
  obtain ⟨p, q, rfl⟩ : ∃ (p : Fin A) (q : Fin M), i = ix2 p q := ⟨i 0, i 1, eq_ix2 i⟩
  rw [host_apply, affine_ix2, shapeCast_a_1a_apply]
  rfl

end Idealize.ShloMosaic.Affine
-- ==== Proof.RegPay.lean ====
/-
  The arithmetic of the three stateless kernel bodies, read at one entry of the output block over the extended reals.

  The first two bodies take a block `h` of rows and the one-row arrays mean, variance, scale, shift and bias, and a weight
  matrix `W`: entry (p, k) of the normalised block is max (((h(p,k) − mean(k)) · rsqrt(var(k) + ε)) · g(k) + β(k)) 0; rounding
  to the half-width format is the identity on the extended reals; the product with the rounded weights into a zero
  accumulator is the finite sum over the contracted coordinate; the bias row is repeated down the rows. The first body
  rectifies the result once more, the second does not. The third body multiplies two blocks of rows by two weight matrices,
  adds the products and the bias row.
-/
import proofs.«123288_j69320772157914_1_alg».proof.Proof.Gen.KernelIdeal.Skeleton
import proofs.«123288_j69320772157914_1_alg».proof.Proof.Spec
import proofs.«123288_j69320772157914_1_alg».proof.Proof.LibAffine

noncomputable section

namespace Cert.KernelIdeal.RegValue

open Cert.KernelIdeal Cert.KernelIdeal.Gen Cert.Gin
open Idealize.ShloMosaic Idealize.ShloMosaic.ValueIdx
open scoped BigOperators

/-- Entry (p, k) of the normalised, scaled, shifted and rectified block, from the block of rows and the one-row arrays. -/
theorem norm_apply (v0 : Vec Ideal S1x64 .f32) (v5 : Vec Ideal S10000x64 .f32) (v7 v13 v17 : Vec Ideal S1x64 .f32)
    (h1 : S1x64.ShapeCasts S1x64) (h2 : S10000x64.ShapeCasts S10000x64) (hb : S1x64.Broadcasts S10000x64)
    (p : Fin 10000) (k : Fin 64) :
    maximumf (addf (mulf (mulf (subf (shapeCast S10000x64 v5 h2) (broadcastTo S10000x64 (shapeCast S1x64 v7 h1) hb))
        (broadcastTo S10000x64 (rsqrt (addf (shapeCast S1x64 v0 h1) (broadcast S1x64 (Scalar.ofBits (F := Ideal) .f32 0x3727C5AC#32)))) hb))
        (broadcastTo S10000x64 (shapeCast S1x64 v13 h1) hb)) (broadcastTo S10000x64 (shapeCast S1x64 v17 h1) hb))
        (broadcast S10000x64 (Scalar.ofBits (F := Ideal) .f32 0x00000000#32)) (ix2 p k)
      = bnRelu epsW zeroW v5 (row v7) (row v0) (row v13) (row v17) (ix2 p k) := by
  rw [bnRelu_ix2]
  refine (maximumf_apply _ _ _).trans ?_
  refine congrArg₂ max ?_ rfl
  refine (addf_apply _ _ _).trans ?_
  refine congrArg₂ (· + ·) ?_ ?_
  · refine (mulf_apply _ _ _).trans ?_
    refine congrArg₂ (· * ·) ?_ ?_
    · refine (mulf_apply _ _ _).trans ?_
      refine congrArg₂ (· * ·) ?_ ?_
      · refine (subf_apply _ _ _).trans ?_
        refine congrArg₂ (· - ·) ?_ ?_
        · exact congrFun (shapeCast_self v5 h2) _
        · refine (broadcastTo_1b_ab_apply _ hb p k).trans ?_
          exact congrFun (shapeCast_self v7 h1) _
      · refine (broadcastTo_1b_ab_apply _ hb p k).trans ?_
        show Ideal.rsqrt (shapeCast S1x64 v0 h1 (ix2 (0 : Fin 1) k) + _) = _
        exact congrArg (fun x => Ideal.rsqrt (x + epsW)) (congrFun (shapeCast_self v0 h1) _)
    · refine (broadcastTo_1b_ab_apply _ hb p k).trans ?_
      exact congrFun (shapeCast_self v13 h1) _
  · refine (broadcastTo_1b_ab_apply _ hb p k).trans ?_
    exact congrFun (shapeCast_self v17 h1) _

/-- Entry (p, q) of the second body's result: the normalised block times the weights plus the bias row. -/
theorem pay3_apply (v0 : Vec Ideal S1x64 .f32) (v5 : Vec Ideal S10000x64 .f32) (v7 v13 v17 : Vec Ideal S1x64 .f32)
    (v24 : Vec Ideal S64x64 .f32) (v27 : Vec Ideal S1x64 .f32) (p : Fin 10000) (q : Fin 64) :
    k3_pay1 (F := Ideal) v0 v5 v7 v13 v17 v24 v27 (ix2 p q)
      = tail epsW zeroW v5 (row v7) (row v0) (row v13) (row v17) v24 (row v27) (ix2 p q) := by
  unfold k3_pay1
  refine (Affine.body_apply (A := 10000) (K := 64) (M := 64) none _ _ _ _ _ p q).trans ?_
  refine (Affine.affine_ix2 _ _ _ p q).trans ?_
  show _ = lin _ _ _ (ix2 p q)
  rw [lin_ix2]
  refine congrArg₂ (· + ·) (Finset.sum_congr rfl fun k _ => congrArg₂ (· * ·) ?_ rfl) ?_
  · exact norm_apply v0 v5 v7 v13 v17 _ _ _ p k
  · exact congrFun (shapeCast_self v27 _) _

/-- Entry (p, q) of the first body's result: the same, rectified. -/
theorem pay1_apply (v0 : Vec Ideal S1x64 .f32) (v5 : Vec Ideal S10000x64 .f32) (v7 v13 v17 : Vec Ideal S1x64 .f32)
    (v24 : Vec Ideal S64x64 .f32) (v27 : Vec Ideal S1x64 .f32) (p : Fin 10000) (q : Fin 64) :
    k1_pay1 (F := Ideal) v0 v5 v7 v13 v17 v24 v27 (ix2 p q)
      = relu zeroW (tail epsW zeroW v5 (row v7) (row v0) (row v13) (row v17) v24 (row v27)) (ix2 p q) := by
  unfold k1_pay1
  refine (maximumf_apply _ _ _).trans ?_
  show max _ _ = max _ zeroW
  refine congrArg₂ max ?_ rfl
  refine (Affine.body_apply (A := 10000) (K := 64) (M := 64) none _ _ _ _ _ p q).trans ?_
  refine (Affine.affine_ix2 _ _ _ p q).trans ?_
  show _ = lin _ _ _ (ix2 p q)
  rw [lin_ix2]
  refine congrArg₂ (· + ·) (Finset.sum_congr rfl fun k _ => congrArg₂ (· * ·) ?_ rfl) ?_
  · exact norm_apply v0 v5 v7 v13 v17 _ _ _ p k
  · exact congrFun (shapeCast_self v27 _) _

/-- Entry (p, q) of the third body's result: two blocks of rows against two weight matrices, plus the bias row. -/
theorem pay4_apply (v0 v3 : Vec Ideal S10000x64 .f32) (v5 v8 : Vec Ideal S64x64 .f32) (v14 : Vec Ideal S1x64 .f32)
    (p : Fin 10000) (q : Fin 64) :
    k4_pay1 (F := Ideal) v0 v3 v5 v8 v14 (ix2 p q) = fin2 v0 v3 v5 v8 (row v14) (ix2 p q) := by
  unfold k4_pay1
  rw [fin2_ix2]
  refine (addf_apply _ _ _).trans ?_
  refine congrArg₂ (· + ·) ?_ ?_
  · refine (addf_apply _ _ _).trans ?_
    refine congrArg₂ (· + ·) ?_ ?_
    · refine (PlainDot.matmul_apply_ix2 (M := 10000) (K := 64) (N := 64) none _ _ p q).trans ?_
      refine Finset.sum_congr rfl fun k _ => congrArg₂ (· * ·) ?_ ?_
      · exact congrFun (shapeCast_self v0 _) _
      · exact congrFun (shapeCast_self v5 _) _
    · refine (PlainDot.matmul_apply_ix2 (M := 10000) (K := 64) (N := 64) none _ _ p q).trans ?_
      refine Finset.sum_congr rfl fun k _ => congrArg₂ (· * ·) rfl ?_
      exact congrFun (shapeCast_self v8 _) _
  · refine (broadcastTo_1b_ab_apply _ _ p q).trans ?_
    exact congrFun (shapeCast_self v14 _) _

end Cert.KernelIdeal.RegValue

end
-- ==== Proof.RegB.lean ====
/-
  The two normalising kernel regions as functions of whole arrays.

  Each region runs over ten grid points; point `t` holds rows `10000·t … 10000·t + 9999` of the hidden values and of the
  output, and the whole of every small array (the column mean and variance, the scale and shift, the second weight matrix
  and its bias row). Its body normalises the block of hidden values column by column, rectifies, multiplies by the weights and
  adds the bias row, so entry (r, q) of the output depends on row r of the hidden values alone: what point `t` writes back
  is block `t` of one function of the whole arrays, and the ten blocks tile the output (row r lies in block r / 10000).
-/
import proofs.«123288_j69320772157914_1_alg».proof.Proof.KernelIdealFrameP
import proofs.«123288_j69320772157914_1_alg».proof.Proof.RegPay
import Idealize.ShloMosaic.Lib.Pipeline.Value

set_option maxRecDepth 16384

noncomputable section

namespace Cert.KernelIdeal.RegValue

open Cert.KernelIdeal Cert.KernelIdeal.Gen Cert.KernelIdeal.GenP Cert.Gin
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The layer's tail at an entry reads one row of the hidden values: two arrays that agree on a row agree there. -/
theorem tail_rows {A B C M : Nat} (e z : EReal) (H : Mat A C) (H' : Mat B C) (mu var g be : Fin C → EReal) (W : Mat C M)
    (b2 : Fin M → EReal) (p : Fin A) (r : Fin B) (q : Fin M) (h : ∀ k, H (ix2 p k) = H' (ix2 r k)) :
    tail e z H mu var g be W b2 (ix2 p q) = tail e z H' mu var g be W b2 (ix2 r q) := by
  unfold tail
  rw [lin_ix2, lin_ix2]
  refine congrArg₂ (· + ·) (Finset.sum_congr rfl fun k _ => congrArg₂ (· * ·) ?_ rfl) rfl
  rw [bnRelu_ix2, bnRelu_ix2, h k]

/-! ## Region 1 -/

/-- The index maps of region 1, decided over its ten grid points: the row-block windows (the hidden values, the output) move
    down the rows with the point; every other window stays at its one block. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- The block of hidden values at point `t` is rows `10000·t … 10000·t + 9999` of the array. -/
theorem iblk1_0_apply (c : Dev nD) (t : Fin cfg1.N) (p : Fin 10000) (k : Fin 64) (r : Fin 100000)
    (hr : r.val = 10000 * t.val + p.val) :
    (iblk1 V c 0 t : Vec Ideal S10000x64 .f32) (ix2 p k) = (V c main_v15_0 : Mat 100000 64) (ix2 r k) := by
  obtain ⟨e0, e1, -⟩ := idx1 t
  unfold iblk1
  rw [View.read_apply]
  show V c main_v15_0 (((cfg1.win 0).blk t).view.emb (ix2 p k)) = V c main_v15_0 (ix2 r k)
  refine congrArg (V c main_v15_0) ?_
  funext a; apply Fin.ext
  match a with
  | ⟨0, _⟩ => show win1_0.index t (0 : Fin 2) * 10000 + 1 * p.val = r.val; rw [e0, hr]; omega
  | ⟨1, _⟩ => show win1_0.index t (1 : Fin 2) * 64 + 1 * k.val = k.val; rw [e1]; omega

/-- Window 1's block at any point is its whole array. -/
theorem iblk1_1 (c : Dev nD) (t : Fin cfg1.N) : (iblk1 V c 1 t : Vec Ideal S1x64 .f32) = V c main_v17 := by
  obtain ⟨-, -, e0, e1, -⟩ := idx1 t
  funext y
  unfold iblk1
  rw [View.read_apply]
  show V c main_v17 (((cfg1.win 1).blk t).view.emb y) = V c main_v17 y
  refine congrArg (V c main_v17) ?_
  funext a; apply Fin.ext
  match a with
  | ⟨0, _⟩ => show win1_1.index t (0 : Fin 2) * 1 + 1 * (y 0).val = (y 0).val; rw [e0]; omega
  | ⟨1, _⟩ => show win1_1.index t (1 : Fin 2) * 64 + 1 * (y 1).val = (y 1).val; rw [e1]; omega

/-- Window 2's block at any point is its whole array. -/
theorem iblk1_2 (c : Dev nD) (t : Fin cfg1.N) : (iblk1 V c 2 t : Vec Ideal S1x64 .f32) = V c main_v21 := by
  obtain ⟨-, -, -, -, e0, e1, -⟩ := idx1 t
  funext y
  unfold iblk1
  rw [View.read_apply]
  show V c main_v21 (((cfg1.win 2).blk t).view.emb y) = V c main_v21 y
  refine congrArg (V c main_v21) ?_
  funext a; apply Fin.ext
  match a with
  | ⟨0, _⟩ => show win1_2.index t (0 : Fin 2) * 1 + 1 * (y 0).val = (y 0).val; rw [e0]; omega
  | ⟨1, _⟩ => show win1_2.index t (1 : Fin 2) * 64 + 1 * (y 1).val = (y 1).val; rw [e1]; omega

/-- Window 3's block at any point is its whole array. -/
theorem iblk1_3 (c : Dev nD) (t : Fin cfg1.N) : (iblk1 V c 3 t : Vec Ideal S1x64 .f32) = V c main_v22 := by
  obtain ⟨-, -, -, -, -, -, e0, e1, -⟩ := idx1 t
  funext y
  unfold iblk1
  rw [View.read_apply]
  show V c main_v22 (((cfg1.win 3).blk t).view.emb y) = V c main_v22 y
  refine congrArg (V c main_v22) ?_
  funext a; apply Fin.ext
  match a with
  | ⟨0, _⟩ => show win1_3.index t (0 : Fin 2) * 1 + 1 * (y 0).val = (y 0).val; rw [e0]; omega
  | ⟨1, _⟩ => show win1_3.index t (1 : Fin 2) * 64 + 1 * (y 1).val = (y 1).val; rw [e1]; omega

/-- Window 4's block at any point is its whole array. -/
theorem iblk1_4 (c : Dev nD) (t : Fin cfg1.N) : (iblk1 V c 4 t : Vec Ideal S1x64 .f32) = V c main_v23 := by
  obtain ⟨-, -, -, -, -, -, -, -, e0, e1, -⟩ := idx1 t
  funext y
  unfold iblk1
  rw [View.read_apply]
  show V c main_v23 (((cfg1.win 4).blk t).view.emb y) = V c main_v23 y
  refine congrArg (V c main_v23) ?_
  funext a; apply Fin.ext
  match a with
  | ⟨0, _⟩ => show win1_4.index t (0 : Fin 2) * 1 + 1 * (y 0).val = (y 0).val; rw [e0]; omega
  | ⟨1, _⟩ => show win1_4.index t (1 : Fin 2) * 64 + 1 * (y 1).val = (y 1).val; rw [e1]; omega

/-- Window 5's block at any point is its whole array. -/
theorem iblk1_5 (c : Dev nD) (t : Fin cfg1.N) : (iblk1 V c 5 t : Vec Ideal S64x64 .f32) = V c main_arg7 := by
  obtain ⟨-, -, -, -, -, -, -, -, -, -, e0, e1, -⟩ := idx1 t
  funext y
  unfold iblk1
  rw [View.read_apply]
  show V c main_arg7 (((cfg1.win 5).blk t).view.emb y) = V c main_arg7 y
  refine congrArg (V c main_arg7) ?_
  funext a; apply Fin.ext
  match a with
  | ⟨0, _⟩ => show win1_5.index t (0 : Fin 2) * 64 + 1 * (y 0).val = (y 0).val; rw [e0]; omega
  | ⟨1, _⟩ => show win1_5.index t (1 : Fin 2) * 64 + 1 * (y 1).val = (y 1).val; rw [e1]; omega

/-- Window 6's block at any point is its whole array. -/
theorem iblk1_6 (c : Dev nD) (t : Fin cfg1.N) : (iblk1 V c 6 t : Vec Ideal S1x64 .f32) = V c main_v24 := by
  obtain ⟨-, -, -, -, -, -, -, -, -, -, -, -, e0, e1, -⟩ := idx1 t
  funext y
  unfold iblk1
  rw [View.read_apply]
  show V c main_v24 (((cfg1.win 6).blk t).view.emb y) = V c main_v24 y
  refine congrArg (V c main_v24) ?_
  funext a; apply Fin.ext
  match a with
  | ⟨0, _⟩ => show win1_6.index t (0 : Fin 2) * 1 + 1 * (y 0).val = (y 0).val; rw [e0]; omega
  | ⟨1, _⟩ => show win1_6.index t (1 : Fin 2) * 64 + 1 * (y 1).val = (y 1).val; rw [e1]; omega

/-- What region 1 leaves in its output array: the layer's tail of the hidden values with the given column statistics, rectified. -/
abbrev G1 (c : Dev nD) : Mat 100000 64 :=
  relu zeroW (tail epsW zeroW (V c main_v15_0) (row (V c main_v17)) (row (V c main_v21)) (row (V c main_v22)) (row (V c main_v23)) (V c main_arg7) (row (V c main_v24)))

/-- What point `t` writes back is block `t` of that function of the arrays as the region finds them. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  unfold out1_7
  rw [View.canon_unit_zero hz]
  simp only [View.ld_unit_zero (S := S10000x64) hz, View.ld_unit_zero (S := S1x64) hz, View.ld_unit_zero (S := S64x64) hz]
  obtain ⟨-, -, -, -, -, -, -, -, -, -, -, -, -, -, e0, e1⟩ := idx1 t
  have ht : t.val < 10 := Nat.lt_of_lt_of_eq t.isLt N_1
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hr : 10000 * t.val + p.val < 100000 := by omega
  show k1_pay1 (F := Ideal) (iblk1 V c 2 t) (iblk1 V c 0 t) (iblk1 V c 1 t) (iblk1 V c 3 t) (iblk1 V c 4 t) (iblk1 V c 5 t) (iblk1 V c 6 t) (ix2 p q)
    = G1 V c (((cfg1.win 7).blk t).view.emb (ix2 p q))
  have he : ((cfg1.win 7).blk t).view.emb (ix2 p q) = (ix2 (⟨10000 * t.val + p.val, hr⟩ : Fin 100000) q : S100000x64.Idx) := by
    funext a; apply Fin.ext
    match a with
    | ⟨0, _⟩ => show win1_7.index t (0 : Fin 2) * 10000 + 1 * p.val = 10000 * t.val + p.val; rw [e0]; omega
    | ⟨1, _⟩ => show win1_7.index t (1 : Fin 2) * 64 + 1 * q.val = q.val; rw [e1]; omega
  refine Eq.trans ?_ (congrArg (G1 V c) he).symm
  refine (pay1_apply (iblk1 V c 2 t) (iblk1 V c 0 t) (iblk1 V c 1 t) (iblk1 V c 3 t) (iblk1 V c 4 t) (iblk1 V c 5 t) (iblk1 V c 6 t) p q).trans ?_
  rw [iblk1_1 V c t, iblk1_2 V c t, iblk1_3 V c t, iblk1_4 V c t, iblk1_5 V c t, iblk1_6 V c t]
  show max _ zeroW = max _ zeroW
  refine congrArg₂ max ?_ rfl
  exact tail_rows _ _ _ _ _ _ _ _ _ _ p ⟨_, hr⟩ q fun k => iblk1_0_apply V c t p k ⟨_, hr⟩ rfl

/-- An index of the output array is in point `t`'s block iff each coordinate is in the block's range on its axis. -/
theorem mem_blk1 (t : Fin cfg1.N) (i : S100000x64.Idx) :
    i ∈ ((cfg1.win 7).blk t).view.set ↔ ∀ a : Fin 2, win1_7.index t a * S10000x64.size a ≤ (i a).val ∧ (i a).val < win1_7.index t a * S10000x64.size a + S10000x64.size a := by
  show i ∈ ((View.whole main_v25).slice (win1_7.rect t)).set ↔ _
  rw [View.set_slice_whole, Rect.mem_set_unit]
  exact Iff.rfl

/-- Row `r` of the output array is written back by point `r / 10000`. -/
theorem cover1 (i : S100000x64.Idx) : ∃ t : Fin cfg1.N, (cfg1.win 7).flush t = true ∧ i ∈ ((cfg1.win 7).blk t).view.set := by
  have h0 : (i 0).val < 100000 := (i 0).isLt
  have h1 : (i 1).val < 64 := (i 1).isLt
  obtain ⟨t, ht⟩ : ∃ t : Fin cfg1.N, t.val = (i 0).val / 10000 :=
    ⟨⟨(i 0).val / 10000, Nat.lt_of_lt_of_eq (by omega : (i 0).val / 10000 < 10) N_1.symm⟩, rfl⟩
  obtain ⟨-, -, -, -, -, -, -, -, -, -, -, -, -, -, e0, e1⟩ := idx1 t
  refine ⟨t, flush1_7 t, ?_⟩
  rw [mem_blk1]
  intro a
  match a with
  | ⟨0, _⟩ => show win1_7.index t (0 : Fin 2) * 10000 ≤ (i 0).val ∧ (i 0).val < win1_7.index t (0 : Fin 2) * 10000 + 10000; rw [e0, ht]; omega
  | ⟨1, _⟩ => show win1_7.index t (1 : Fin 2) * 64 ≤ (i 1).val ∧ (i 1).val < win1_7.index t (1 : Fin 2) * 64 + 64; rw [e1]; omega

/-- Region 1's output array after the region, as one function of the arrays it is entered with. -/
theorem arr1 (c : Dev nD) : (dat1 (F := Ideal) V c).arrAt 7 cfg1.N
    = relu zeroW (tail epsW zeroW (V c main_v15_0) (row (V c main_v17)) (row (V c main_v21)) (row (V c main_v22)) (row (V c main_v23)) (V c main_arg7) (row (V c main_v24))) :=
  (dat1 (F := Ideal) V c).arrAt_eq_of_cover 7 (G1 V c) (fun t _ => flushed1_eq V c t) (cover1)

/-! ## Region 3 -/

/-- The index maps of region 3, decided over its ten grid points: the row-block windows (the hidden values, the output) move
    down the rows with the point; every other window stays at its one block. -/
theorem idx3 : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- The block of hidden values at point `t` is rows `10000·t … 10000·t + 9999` of the array. -/
theorem iblk3_0_apply (c : Dev nD) (t : Fin cfg3.N) (p : Fin 10000) (k : Fin 64) (r : Fin 100000)
    (hr : r.val = 10000 * t.val + p.val) :
    (iblk3 V c 0 t : Vec Ideal S10000x64 .f32) (ix2 p k) = (V c main_v37_0 : Mat 100000 64) (ix2 r k) := by
  obtain ⟨e0, e1, -⟩ := idx3 t
  unfold iblk3
  rw [View.read_apply]
  show V c main_v37_0 (((cfg3.win 0).blk t).view.emb (ix2 p k)) = V c main_v37_0 (ix2 r k)
  refine congrArg (V c main_v37_0) ?_
  funext a; apply Fin.ext
  match a with
  | ⟨0, _⟩ => show win3_0.index t (0 : Fin 2) * 10000 + 1 * p.val = r.val; rw [e0, hr]; omega
  | ⟨1, _⟩ => show win3_0.index t (1 : Fin 2) * 64 + 1 * k.val = k.val; rw [e1]; omega

/-- Window 1's block at any point is its whole array. -/
theorem iblk3_1 (c : Dev nD) (t : Fin cfg3.N) : (iblk3 V c 1 t : Vec Ideal S1x64 .f32) = V c main_v39 := by
  obtain ⟨-, -, e0, e1, -⟩ := idx3 t
  funext y
  unfold iblk3
  rw [View.read_apply]
  show V c main_v39 (((cfg3.win 1).blk t).view.emb y) = V c main_v39 y
  refine congrArg (V c main_v39) ?_
  funext a; apply Fin.ext
  match a with
  | ⟨0, _⟩ => show win3_1.index t (0 : Fin 2) * 1 + 1 * (y 0).val = (y 0).val; rw [e0]; omega
  | ⟨1, _⟩ => show win3_1.index t (1 : Fin 2) * 64 + 1 * (y 1).val = (y 1).val; rw [e1]; omega

/-- Window 2's block at any point is its whole array. -/
theorem iblk3_2 (c : Dev nD) (t : Fin cfg3.N) : (iblk3 V c 2 t : Vec Ideal S1x64 .f32) = V c main_v43 := by
  obtain ⟨-, -, -, -, e0, e1, -⟩ := idx3 t
  funext y
  unfold iblk3
  rw [View.read_apply]
  show V c main_v43 (((cfg3.win 2).blk t).view.emb y) = V c main_v43 y
  refine congrArg (V c main_v43) ?_
  funext a; apply Fin.ext
  match a with
  | ⟨0, _⟩ => show win3_2.index t (0 : Fin 2) * 1 + 1 * (y 0).val = (y 0).val; rw [e0]; omega
  | ⟨1, _⟩ => show win3_2.index t (1 : Fin 2) * 64 + 1 * (y 1).val = (y 1).val; rw [e1]; omega

/-- Window 3's block at any point is its whole array. -/
theorem iblk3_3 (c : Dev nD) (t : Fin cfg3.N) : (iblk3 V c 3 t : Vec Ideal S1x64 .f32) = V c main_v44 := by
  obtain ⟨-, -, -, -, -, -, e0, e1, -⟩ := idx3 t
  funext y
  unfold iblk3
  rw [View.read_apply]
  show V c main_v44 (((cfg3.win 3).blk t).view.emb y) = V c main_v44 y
  refine congrArg (V c main_v44) ?_
  funext a; apply Fin.ext
  match a with
  | ⟨0, _⟩ => show win3_3.index t (0 : Fin 2) * 1 + 1 * (y 0).val = (y 0).val; rw [e0]; omega
  | ⟨1, _⟩ => show win3_3.index t (1 : Fin 2) * 64 + 1 * (y 1).val = (y 1).val; rw [e1]; omega

/-- Window 4's block at any point is its whole array. -/
theorem iblk3_4 (c : Dev nD) (t : Fin cfg3.N) : (iblk3 V c 4 t : Vec Ideal S1x64 .f32) = V c main_v45 := by
  obtain ⟨-, -, -, -, -, -, -, -, e0, e1, -⟩ := idx3 t
  funext y
  unfold iblk3
  rw [View.read_apply]
  show V c main_v45 (((cfg3.win 4).blk t).view.emb y) = V c main_v45 y
  refine congrArg (V c main_v45) ?_
  funext a; apply Fin.ext
  match a with
  | ⟨0, _⟩ => show win3_4.index t (0 : Fin 2) * 1 + 1 * (y 0).val = (y 0).val; rw [e0]; omega
  | ⟨1, _⟩ => show win3_4.index t (1 : Fin 2) * 64 + 1 * (y 1).val = (y 1).val; rw [e1]; omega

/-- Window 5's block at any point is its whole array. -/
theorem iblk3_5 (c : Dev nD) (t : Fin cfg3.N) : (iblk3 V c 5 t : Vec Ideal S64x64 .f32) = V c main_arg13 := by
  obtain ⟨-, -, -, -, -, -, -, -, -, -, e0, e1, -⟩ := idx3 t
  funext y
  unfold iblk3
  rw [View.read_apply]
  show V c main_arg13 (((cfg3.win 5).blk t).view.emb y) = V c main_arg13 y
  refine congrArg (V c main_arg13) ?_
  funext a; apply Fin.ext
  match a with
  | ⟨0, _⟩ => show win3_5.index t (0 : Fin 2) * 64 + 1 * (y 0).val = (y 0).val; rw [e0]; omega
  | ⟨1, _⟩ => show win3_5.index t (1 : Fin 2) * 64 + 1 * (y 1).val = (y 1).val; rw [e1]; omega

/-- Window 6's block at any point is its whole array. -/
theorem iblk3_6 (c : Dev nD) (t : Fin cfg3.N) : (iblk3 V c 6 t : Vec Ideal S1x64 .f32) = V c main_v46 := by
  obtain ⟨-, -, -, -, -, -, -, -, -, -, -, -, e0, e1, -⟩ := idx3 t
  funext y
  unfold iblk3
  rw [View.read_apply]
  show V c main_v46 (((cfg3.win 6).blk t).view.emb y) = V c main_v46 y
  refine congrArg (V c main_v46) ?_
  funext a; apply Fin.ext
  match a with
  | ⟨0, _⟩ => show win3_6.index t (0 : Fin 2) * 1 + 1 * (y 0).val = (y 0).val; rw [e0]; omega
  | ⟨1, _⟩ => show win3_6.index t (1 : Fin 2) * 64 + 1 * (y 1).val = (y 1).val; rw [e1]; omega

/-- What region 3 leaves in its output array: the layer's tail of the hidden values with the given column statistics. -/
abbrev G3 (c : Dev nD) : Mat 100000 64 :=
  tail epsW zeroW (V c main_v37_0) (row (V c main_v39)) (row (V c main_v43)) (row (V c main_v44)) (row (V c main_v45)) (V c main_arg13) (row (V c main_v46))

/-- What point `t` writes back is block `t` of that function of the arrays as the region finds them. -/
theorem flushed3_eq (c : Dev nD) (t : Fin cfg3.N) :
    (dat3 (F := Ideal) V c).flushed 7 t = ((cfg3.win 7).blk t).view.read (Elt Ideal) (G3 V c) := by
  show (cfg3.win 7).cut (grid3.coords t) ((dat3 V c).after 7 t) = _
  rw [after3_7]
  unfold out3_7
  rw [View.canon_unit_zero hz]
  simp only [View.ld_unit_zero (S := S10000x64) hz, View.ld_unit_zero (S := S1x64) hz, View.ld_unit_zero (S := S64x64) hz]
  obtain ⟨-, -, -, -, -, -, -, -, -, -, -, -, -, -, e0, e1⟩ := idx3 t
  have ht : t.val < 10 := Nat.lt_of_lt_of_eq t.isLt N_3
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hr : 10000 * t.val + p.val < 100000 := by omega
  show k3_pay1 (F := Ideal) (iblk3 V c 2 t) (iblk3 V c 0 t) (iblk3 V c 1 t) (iblk3 V c 3 t) (iblk3 V c 4 t) (iblk3 V c 5 t) (iblk3 V c 6 t) (ix2 p q)
    = G3 V c (((cfg3.win 7).blk t).view.emb (ix2 p q))
  have he : ((cfg3.win 7).blk t).view.emb (ix2 p q) = (ix2 (⟨10000 * t.val + p.val, hr⟩ : Fin 100000) q : S100000x64.Idx) := by
    funext a; apply Fin.ext
    match a with
    | ⟨0, _⟩ => show win3_7.index t (0 : Fin 2) * 10000 + 1 * p.val = 10000 * t.val + p.val; rw [e0]; omega
    | ⟨1, _⟩ => show win3_7.index t (1 : Fin 2) * 64 + 1 * q.val = q.val; rw [e1]; omega
  refine Eq.trans ?_ (congrArg (G3 V c) he).symm
  refine (pay3_apply (iblk3 V c 2 t) (iblk3 V c 0 t) (iblk3 V c 1 t) (iblk3 V c 3 t) (iblk3 V c 4 t) (iblk3 V c 5 t) (iblk3 V c 6 t) p q).trans ?_
  rw [iblk3_1 V c t, iblk3_2 V c t, iblk3_3 V c t, iblk3_4 V c t, iblk3_5 V c t, iblk3_6 V c t]
  exact tail_rows _ _ _ _ _ _ _ _ _ _ p ⟨_, hr⟩ q fun k => iblk3_0_apply V c t p k ⟨_, hr⟩ rfl

/-- An index of the output array is in point `t`'s block iff each coordinate is in the block's range on its axis. -/
theorem mem_blk3 (t : Fin cfg3.N) (i : S100000x64.Idx) :
    i ∈ ((cfg3.win 7).blk t).view.set ↔ ∀ a : Fin 2, win3_7.index t a * S10000x64.size a ≤ (i a).val ∧ (i a).val < win3_7.index t a * S10000x64.size a + S10000x64.size a := by
  show i ∈ ((View.whole main_v47).slice (win3_7.rect t)).set ↔ _
  rw [View.set_slice_whole, Rect.mem_set_unit]
  exact Iff.rfl

/-- Row `r` of the output array is written back by point `r / 10000`. -/
theorem cover3 (i : S100000x64.Idx) : ∃ t : Fin cfg3.N, (cfg3.win 7).flush t = true ∧ i ∈ ((cfg3.win 7).blk t).view.set := by
  have h0 : (i 0).val < 100000 := (i 0).isLt
  have h1 : (i 1).val < 64 := (i 1).isLt
  obtain ⟨t, ht⟩ : ∃ t : Fin cfg3.N, t.val = (i 0).val / 10000 :=
    ⟨⟨(i 0).val / 10000, Nat.lt_of_lt_of_eq (by omega : (i 0).val / 10000 < 10) N_3.symm⟩, rfl⟩
  obtain ⟨-, -, -, -, -, -, -, -, -, -, -, -, -, -, e0, e1⟩ := idx3 t
  refine ⟨t, flush3_7 t, ?_⟩
  rw [mem_blk3]
  intro a
  match a with
  | ⟨0, _⟩ => show win3_7.index t (0 : Fin 2) * 10000 ≤ (i 0).val ∧ (i 0).val < win3_7.index t (0 : Fin 2) * 10000 + 10000; rw [e0, ht]; omega
  | ⟨1, _⟩ => show win3_7.index t (1 : Fin 2) * 64 ≤ (i 1).val ∧ (i 1).val < win3_7.index t (1 : Fin 2) * 64 + 64; rw [e1]; omega

/-- Region 3's output array after the region, as one function of the arrays it is entered with. -/
theorem arr3 (c : Dev nD) : (dat3 (F := Ideal) V c).arrAt 7 cfg3.N
    = tail epsW zeroW (V c main_v37_0) (row (V c main_v39)) (row (V c main_v43)) (row (V c main_v44)) (row (V c main_v45)) (V c main_arg13) (row (V c main_v46)) :=
  (dat3 (F := Ideal) V c).arrAt_eq_of_cover 7 (G3 V c) (fun t _ => flushed3_eq V c t) (cover3)

end Cert.KernelIdeal.RegValue

end
-- ==== Proof.RegF.lean ====
/-
  The closing kernel region as a function of whole arrays.

  The region runs over ten grid points; point `t` holds rows `10000·t … 10000·t + 9999` of the two row arrays and of the
  output, and the whole of the two weight matrices and of the bias row. Its body multiplies each block of rows by its weight
  matrix, adds the two products and the bias row, so entry (r, q) of the output depends on row r of the two row arrays alone:
  what point `t` writes back is block `t` of one function of the whole arrays, and the ten blocks tile the output (row r
  lies in block r / 10000).
-/
import proofs.«123288_j69320772157914_1_alg».proof.Proof.KernelIdealFrameP
import proofs.«123288_j69320772157914_1_alg».proof.Proof.RegPay
import Idealize.ShloMosaic.Lib.Pipeline.Value

set_option maxRecDepth 16384

noncomputable section

namespace Cert.KernelIdeal.RegValue4

open Cert.KernelIdeal Cert.KernelIdeal.Gen Cert.KernelIdeal.GenP Cert.Gin
open Cert.KernelIdeal.RegValue (pay4_apply)
open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz : (![0, 0] : Fin 2 → Nat) = fun _ => 0 := funext fun a => by fin_cases a <;> rfl

/-- The closing step at an entry reads one row of each row array: arrays that agree on a row agree there. -/
theorem fin2_rows {A B K M : Nat} (X G : Mat A K) (X' G' : Mat B K) (Wx Wg : Mat K M) (b : Fin M → EReal) (p : Fin A)
    (r : Fin B) (q : Fin M) (hX : ∀ k, X (ix2 p k) = X' (ix2 r k)) (hG : ∀ k, G (ix2 p k) = G' (ix2 r k)) :
    fin2 X G Wx Wg b (ix2 p q) = fin2 X' G' Wx Wg b (ix2 r q) := by
  rw [fin2_ix2, fin2_ix2]
  refine congrArg₂ (· + ·) (congrArg₂ (· + ·) ?_ ?_) rfl
  · exact Finset.sum_congr rfl fun k _ => congrArg₂ (· * ·) (hX k) rfl
  · exact Finset.sum_congr rfl fun k _ => congrArg₂ (· * ·) (hG k) rfl

/-- The index maps of the region, decided over its ten grid points: the row-block windows (the two row arrays, the output)
    move down the rows with the point; every other window stays at its one block. -/
theorem idx4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- The block of the first row array at point `t` is rows `10000·t … 10000·t + 9999` of the array. -/
theorem iblk4_0_apply (c : Dev nD) (t : Fin cfg4.N) (p : Fin 10000) (k : Fin 64) (r : Fin 100000)
    (hr : r.val = 10000 * t.val + p.val) :
    (iblk4 V c 0 t : Vec Ideal S10000x64 .f32) (ix2 p k) = (V c main_v47 : Mat 100000 64) (ix2 r k) := by
  obtain ⟨e0, e1, -⟩ := idx4 t
  unfold iblk4
  rw [View.read_apply]
  show V c main_v47 (((cfg4.win 0).blk t).view.emb (ix2 p k)) = V c main_v47 (ix2 r k)
  refine congrArg (V c main_v47) ?_
  funext a; apply Fin.ext
  match a with
  | ⟨0, _⟩ => show win4_0.index t (0 : Fin 2) * 10000 + 1 * p.val = r.val; rw [e0, hr]; omega
  | ⟨1, _⟩ => show win4_0.index t (1 : Fin 2) * 64 + 1 * k.val = k.val; rw [e1]; omega

/-- The block of the second row array at point `t` is rows `10000·t … 10000·t + 9999` of the array. -/
theorem iblk4_1_apply (c : Dev nD) (t : Fin cfg4.N) (p : Fin 10000) (k : Fin 64) (r : Fin 100000)
    (hr : r.val = 10000 * t.val + p.val) :
    (iblk4 V c 1 t : Vec Ideal S10000x64 .f32) (ix2 p k) = (V c main_arg2 : Mat 100000 64) (ix2 r k) := by
  obtain ⟨-, -, e0, e1, -⟩ := idx4 t
  unfold iblk4
  rw [View.read_apply]
  show V c main_arg2 (((cfg4.win 1).blk t).view.emb (ix2 p k)) = V c main_arg2 (ix2 r k)
  refine congrArg (V c main_arg2) ?_
  funext a; apply Fin.ext
  match a with
  | ⟨0, _⟩ => show win4_1.index t (0 : Fin 2) * 10000 + 1 * p.val = r.val; rw [e0, hr]; omega
  | ⟨1, _⟩ => show win4_1.index t (1 : Fin 2) * 64 + 1 * k.val = k.val; rw [e1]; omega

/-- Window 2's block at any point is its whole array. -/
theorem iblk4_2 (c : Dev nD) (t : Fin cfg4.N) : (iblk4 V c 2 t : Vec Ideal S64x64 .f32) = V c main_v48 := by
  obtain ⟨-, -, -, -, e0, e1, -⟩ := idx4 t
  funext y
  unfold iblk4
  rw [View.read_apply]
  show V c main_v48 (((cfg4.win 2).blk t).view.emb y) = V c main_v48 y
  refine congrArg (V c main_v48) ?_
  funext a; apply Fin.ext
  match a with
  | ⟨0, _⟩ => show win4_2.index t (0 : Fin 2) * 64 + 1 * (y 0).val = (y 0).val; rw [e0]; omega
  | ⟨1, _⟩ => show win4_2.index t (1 : Fin 2) * 64 + 1 * (y 1).val = (y 1).val; rw [e1]; omega

/-- Window 3's block at any point is its whole array. -/
theorem iblk4_3 (c : Dev nD) (t : Fin cfg4.N) : (iblk4 V c 3 t : Vec Ideal S64x64 .f32) = V c main_v49 := by
  obtain ⟨-, -, -, -, -, -, e0, e1, -⟩ := idx4 t
  funext y
  unfold iblk4
  rw [View.read_apply]
  show V c main_v49 (((cfg4.win 3).blk t).view.emb y) = V c main_v49 y
  refine congrArg (V c main_v49) ?_
  funext a; apply Fin.ext
  match a with
  | ⟨0, _⟩ => show win4_3.index t (0 : Fin 2) * 64 + 1 * (y 0).val = (y 0).val; rw [e0]; omega
  | ⟨1, _⟩ => show win4_3.index t (1 : Fin 2) * 64 + 1 * (y 1).val = (y 1).val; rw [e1]; omega

/-- Window 4's block at any point is its whole array. -/
theorem iblk4_4 (c : Dev nD) (t : Fin cfg4.N) : (iblk4 V c 4 t : Vec Ideal S1x64 .f32) = V c main_v50 := by
  obtain ⟨-, -, -, -, -, -, -, -, e0, e1, -⟩ := idx4 t
  funext y
  unfold iblk4
  rw [View.read_apply]
  show V c main_v50 (((cfg4.win 4).blk t).view.emb y) = V c main_v50 y
  refine congrArg (V c main_v50) ?_
  funext a; apply Fin.ext
  match a with
  | ⟨0, _⟩ => show win4_4.index t (0 : Fin 2) * 1 + 1 * (y 0).val = (y 0).val; rw [e0]; omega
  | ⟨1, _⟩ => show win4_4.index t (1 : Fin 2) * 64 + 1 * (y 1).val = (y 1).val; rw [e1]; omega

/-- What the region leaves in its output array: the two row arrays against their weight matrices, plus the bias row. -/
abbrev G4 (c : Dev nD) : Mat 100000 64 :=
  fin2 (V c main_v47) (V c main_arg2) (V c main_v48) (V c main_v49) (row (V c main_v50))

/-- What point `t` writes back is block `t` of that function of the arrays as the region finds them. -/
theorem flushed4_eq (c : Dev nD) (t : Fin cfg4.N) :
    (dat4 (F := Ideal) V c).flushed 5 t = ((cfg4.win 5).blk t).view.read (Elt Ideal) (G4 V c) := by
  show (cfg4.win 5).cut (grid4.coords t) ((dat4 V c).after 5 t) = _
  rw [after4_5]
  unfold out4_5
  rw [View.canon_unit_zero hz]
  simp only [View.ld_unit_zero (S := S10000x64) hz, View.ld_unit_zero (S := S1x64) hz, View.ld_unit_zero (S := S64x64) hz]
  obtain ⟨-, -, -, -, -, -, -, -, -, -, e0, e1⟩ := idx4 t
  have ht : t.val < 10 := Nat.lt_of_lt_of_eq t.isLt N_4
  refine funext fun (j : S10000x64.Idx) => ?_
  obtain ⟨p, q, rfl⟩ : ∃ (p : Fin 10000) (q : Fin 64), j = ix2 p q := ⟨j 0, j 1, eq_ix2 j⟩
  have hp : p.val < 10000 := p.isLt
  have hr : 10000 * t.val + p.val < 100000 := by omega
  show k4_pay1 (F := Ideal) (iblk4 V c 0 t) (iblk4 V c 1 t) (iblk4 V c 2 t) (iblk4 V c 3 t) (iblk4 V c 4 t) (ix2 p q)
    = G4 V c (((cfg4.win 5).blk t).view.emb (ix2 p q))
  have he : ((cfg4.win 5).blk t).view.emb (ix2 p q) = (ix2 (⟨10000 * t.val + p.val, hr⟩ : Fin 100000) q : S100000x64.Idx) := by
    funext a; apply Fin.ext
    match a with
    | ⟨0, _⟩ => show win4_5.index t (0 : Fin 2) * 10000 + 1 * p.val = 10000 * t.val + p.val; rw [e0]; omega
    | ⟨1, _⟩ => show win4_5.index t (1 : Fin 2) * 64 + 1 * q.val = q.val; rw [e1]; omega
  refine Eq.trans ?_ (congrArg (G4 V c) he).symm
  refine (pay4_apply (iblk4 V c 0 t) (iblk4 V c 1 t) (iblk4 V c 2 t) (iblk4 V c 3 t) (iblk4 V c 4 t) p q).trans ?_
  rw [iblk4_2 V c t, iblk4_3 V c t, iblk4_4 V c t]
  exact fin2_rows _ _ _ _ _ _ _ p ⟨_, hr⟩ q (fun k => iblk4_0_apply V c t p k ⟨_, hr⟩ rfl)
    (fun k => iblk4_1_apply V c t p k ⟨_, hr⟩ rfl)

/-- An index of the output array is in point `t`'s block iff each coordinate is in the block's range on its axis. -/
theorem mem_blk4 (t : Fin cfg4.N) (i : S100000x64.Idx) :
    i ∈ ((cfg4.win 5).blk t).view.set ↔ ∀ a : Fin 2, win4_5.index t a * S10000x64.size a ≤ (i a).val ∧ (i a).val < win4_5.index t a * S10000x64.size a + S10000x64.size a := by
  show i ∈ ((View.whole main_v51).slice (win4_5.rect t)).set ↔ _
  rw [View.set_slice_whole, Rect.mem_set_unit]
  exact Iff.rfl

/-- Row `r` of the output array is written back by point `r / 10000`. -/
theorem cover4 (i : S100000x64.Idx) : ∃ t : Fin cfg4.N, (cfg4.win 5).flush t = true ∧ i ∈ ((cfg4.win 5).blk t).view.set := by
  have h0 : (i 0).val < 100000 := (i 0).isLt
  have h1 : (i 1).val < 64 := (i 1).isLt
  obtain ⟨t, ht⟩ : ∃ t : Fin cfg4.N, t.val = (i 0).val / 10000 :=
    ⟨⟨(i 0).val / 10000, Nat.lt_of_lt_of_eq (by omega : (i 0).val / 10000 < 10) N_4.symm⟩, rfl⟩
  obtain ⟨-, -, -, -, -, -, -, -, -, -, e0, e1⟩ := idx4 t
  refine ⟨t, flush4_5 t, ?_⟩
  rw [mem_blk4]
  intro a
  match a with
  | ⟨0, _⟩ => show win4_5.index t (0 : Fin 2) * 10000 ≤ (i 0).val ∧ (i 0).val < win4_5.index t (0 : Fin 2) * 10000 + 10000; rw [e0, ht]; omega
  | ⟨1, _⟩ => show win4_5.index t (1 : Fin 2) * 64 ≤ (i 1).val ∧ (i 1).val < win4_5.index t (1 : Fin 2) * 64 + 64; rw [e1]; omega

/-- The region's output array after the region, as one function of the arrays it is entered with. -/
theorem arr4 (c : Dev nD) : (dat4 (F := Ideal) V c).arrAt 5 cfg4.N
    = fin2 (V c main_v47) (V c main_arg2) (V c main_v48) (V c main_v49) (row (V c main_v50)) :=
  (dat4 (F := Ideal) V c).arrAt_eq_of_cover 5 (G4 V c) (fun t _ => flushed4_eq V c t) (cover4)

end Cert.KernelIdeal.RegValue4

end
-- ==== Proof.LibRowColumn.lean ====
/-
  Small layout and reduction readings for a `[a, b]` matrix whose columns are reduced, at indices given by coordinates.
  • A one-row matrix `[1, a]` cast to the column `[a, 1]` reads, at `(i, u)`, the row's entry `i`.
  • A `vector.multi_reduction <maximumf>` / `<add>` of a `[a, b]` matrix over its ROWS (axis 0), at column `c`: the fold of
    `max` from the accumulator, resp. the sum, over `k : Fin a` of the entries `(k, c)`.
  • The host's `stablehlo.reduce` of a `[a, b]` matrix over its COLUMNS (axis 1) with a maximum body, at row `r`: the fold of
    `max` from the initial value over `k : Fin b` of the entries `(r, k)`.
  • The f32 patterns `0xFF800000` and `0x3F800000` denote −∞ and 1; a maximum with −∞ and a quotient by 1 change nothing.
-/
import Idealize.ShloMosaic.PureOps.Ideal.Laws
import Idealize.ShloMosaic.Lib.Pipeline.Value
import Idealize.ShloMosaic.Lib.ValueIdx

namespace Idealize.ShloMosaic.RowColumn

open Idealize.ShloMosaic Idealize.ShloMosaic.ValueIdx

/-- A `[1, a]` array cast to the column `[a, 1]` reads, at `(i, u)`, the one row's entry `i`. -/
theorem shapeCast_1a_a1_apply {α : Type} {a : ℕ} (x : (⟨2, ![1, a]⟩ : Shape).Idx → α)
    (h : (⟨2, ![1, a]⟩ : Shape).ShapeCasts ⟨2, ![a, 1]⟩) (i : Fin a) (u : Fin 1) :
    shapeCast ⟨2, ![a, 1]⟩ x h (ix2 i u) = x (ix2 (0 : Fin 1) i) :=
  shapeCast_apply x h _ _ (by
    have hu : u.val = 0 := by omega
    rw [Shape.rowMajor_val_two, Shape.rowMajor_val_two]
    show 0 * a + i.val = i.val * 1 + u.val
    rw [hu, Nat.zero_mul, Nat.zero_add, Nat.mul_one, Nat.add_zero])

/-- Column `c` of a `[a, b]` matrix with row `k` put back is `(k, c)`. -/
theorem lift_rows {a b : ℕ} (h : (⟨2, ![a, b]⟩ : Shape).Reduces [0] (⟨1, ![b]⟩ : Shape)) (c : Fin b)
    (k : Fin ((⟨2, ![a, b]⟩ : Shape).size 0)) : h.lift (ix1 c) k = ix2 (⟨k.val, k.isLt⟩ : Fin a) c := by
  funext d; apply Fin.ext
  fin_cases d <;> rfl

/-- Row `r` of a `[a, b]` matrix with column `k` put back is `(r, k)`. -/
theorem lift_cols {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext d; apply Fin.ext
  fin_cases d <;> rfl

variable {φ : FTy}

/-- The maximum down column `c` of a `[a, b]` matrix, as a kernel's `multi_reduction <maximumf>` over the rows computes it. -/
theorem multiReduction_maximumf_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.maximumf.neutral φ hφ) (c : Fin b) :
    multiReduction .maximumf [0] ⟨1, ![b]⟩ src acc h hφ hacc (ix1 c)
      = (Finset.univ : Finset (Fin a)).fold max (Ideal.ofBits φ acc) (fun k => src (ix2 k c)) := by
  rw [Ideal.multiReduction_maximumf_single]
  exact congrArg (fun f => Finset.fold max (Ideal.ofBits φ acc) f (Finset.univ : Finset (Fin a)))
    (funext fun k => congrArg src (lift_rows h c k))

/-- The sum down column `c` of a `[a, b]` matrix, as a kernel's `multi_reduction <add>` over the rows computes it. -/
theorem multiReduction_add_rows {a b : ℕ} (src : FVec Ideal ⟨2, ![a, b]⟩ φ) (acc : BitVec φ.bits)
    (h : (⟨2, ![a, b]⟩ : Shape).Reduces [0] (⟨1, ![b]⟩ : Shape)) (hφ : FKind.Formats φ)
    (hacc : acc = FKind.add.neutral φ hφ) (c : Fin b) :
    multiReduction .add [0] ⟨1, ![b]⟩ src acc h hφ hacc (ix1 c) = ∑ k : Fin a, src (ix2 k c) := by
  rw [Ideal.multiReduction_add_single]
  exact Finset.sum_congr rfl fun k _ => congrArg src (lift_rows h c k)

/-- The maximum along row `r` of a `[a, b]` matrix, as the host's `stablehlo.reduce` with a maximum body over the columns
    computes it from the initial value `init`. -/
theorem hostReduce_maximumf_cols {a b : ℕ} {u : Shape} (x : FVec Ideal ⟨2, ![a, b]⟩ φ) (init : FVec Ideal u φ)
    (h' : (⟨2, ![a, b]⟩ : Shape).ReducesTo [1] (⟨1, ![a]⟩ : Shape)) (h : (⟨2, ![a, b]⟩ : Shape).Reduces [1] (⟨1, ![a]⟩ : Shape))
    (hu : 0 < u.numel) (r : Fin a) :
    Host.reduce FloatOps.maximumf x init h' hu (ix1 r)
      = (Finset.univ : Finset (Fin b)).fold max (init (Shape.Idx.first hu)) (fun k => x (ix2 r k)) := by
  rw [Host.reduce_eq_fold_single FloatOps.maximumf x init h' h hu]
  exact congrArg (fun f => Finset.fold max (init (Shape.Idx.first hu)) f (Finset.univ : Finset (Fin b)))
    (funext fun k => congrArg x (lift_cols h r k))

/-- The f32 pattern `0xFF800000` denotes −∞. -/
theorem ofBits_negInf : Ideal.ofBits .f32 0xFF800000#32 = (⊥ : EReal) := by simp [Ideal.ofBits, Ideal.ieee]

/-- The maximum of −∞ and `y` is `y`. -/
theorem max_negInf (y : EReal) : max (Ideal.ofBits .f32 0xFF800000#32) y = y := by
  rw [ofBits_negInf]; exact max_bot_left y

/-- The f32 pattern `0x3F800000` denotes 1. -/
theorem ofBits_one : Ideal.ofBits .f32 0x3F800000#32 = (1 : EReal) := IdealRules.sign_bit.ideal_onePat .f32

/-- A quotient by 1 is the dividend, at the infinities too. -/
theorem div_one (y : EReal) : Ideal.div y (Ideal.ofBits .f32 0x3F800000#32) = y := by
  rw [ofBits_one, ← EReal.coe_one, Ideal.div_coe (by norm_num : (1 : ℝ) ≠ 0)]
  norm_num

end Idealize.ShloMosaic.RowColumn
-- ==== Proof.LibBlockedSum.lean ====
/-
  A finite sum over `n · B` consecutive positions, cut into `n` runs of `B` positions each: in any commutative additive
  monoid (the extended reals among them: no subtraction, no finiteness)

      Σ_{k < n·B} g k  =  Σ_{s < n} Σ_{j < B} g (B·s + j).

  This is the law by which a contraction accumulated run by run — a matrix product whose contracted axis is walked in
  blocks, each block's partial product added to a running total — is the one whole contraction.
-/
import Mathlib.Algebra.BigOperators.Fin
import Mathlib.Algebra.BigOperators.Intervals

namespace Idealize.ShloMosaic.BlockedSum

variable {M : Type*} [AddCommMonoid M]

/-- Over `Finset.range`: the first `n · B` positions are `n` runs of `B`. -/
theorem sum_range_blocks (B : ℕ) (g : ℕ → M) : ∀ n : ℕ,
    ∑ k ∈ Finset.range (n * B), g k = ∑ s ∈ Finset.range n, ∑ j ∈ Finset.range B, g (B * s + j)
  | 0 => by simp
  | n + 1 => by
    rw [Nat.succ_mul, Finset.sum_range_add, sum_range_blocks B g n, Finset.sum_range_succ, Nat.mul_comm n B]

/-- The same with the positions and the positions inside a run as `Fin` indices: the form a contraction over a
    coordinate of a shape takes. -/
theorem sum_fin_blocks (n B : ℕ) (g : ℕ → M) :
    ∑ k : Fin (n * B), g k.val = ∑ s ∈ Finset.range n, ∑ j : Fin B, g (B * s + j.val) := by
  rw [Fin.sum_univ_eq_sum_range (fun k => g k) (n * B), sum_range_blocks B g n]
  refine Finset.sum_congr rfl fun s _ => ?_
  exact (Fin.sum_univ_eq_sum_range (fun j => g (B * s + j)) B).symm

end Idealize.ShloMosaic.BlockedSum
-- ==== Proof.RegA0.lean ====
/-
  Region 0 of the idealized kernel program — the first linear map of a layer with its two running column sums — read as
  whole-array functions of the buffer contents V the region is entered with.
  The grid has ten points; point t holds rows 10000·t … 10000·t + 9999 of the node features X and of the neighbour sums AG,
  and the whole of the weights W and the bias row b. The body writes the hidden block H(r, j) = Σ_k (X(r,k) + AG(r,k))·W(k,j) + b(j)
  of its rows, and adds the block's column sums Σ_r H(r, j) and Σ_r H(r, j)² to two one-row accumulators that the first
  point resets to zero and only the last point's write-back returns. So the hidden array ends at H, and the accumulators at
  zero plus ten block sums, which is the sum over all 100000 rows: addition of extended reals is commutative and associative,
  and no entry needs to be finite.
-/
import proofs.«123288_j69320772157914_1_alg».proof.Proof.KernelIdealFrameP
import proofs.«123288_j69320772157914_1_alg».proof.Proof.Spec
import proofs.«123288_j69320772157914_1_alg».proof.Proof.LibAffine
import proofs.«123288_j69320772157914_1_alg».proof.Proof.LibRowColumn
import proofs.«123288_j69320772157914_1_alg».proof.Proof.LibBlockedSum
import Idealize.ShloMosaic.Lib.Pipeline.Value
import Idealize.ShloMosaic.Lib.ValueLayout
import Idealize.ShloMosaic.Lib.Tactic

set_option maxRecDepth 16384

noncomputable section

namespace Cert.KernelIdeal.RegAcc0

open Cert.KernelIdeal Cert.KernelIdeal.Gen Cert.KernelIdeal.GenP Cert.Gin
open Idealize.ShloMosaic Idealize.ShloMosaic.TcCoe Idealize.ShloMosaic.Tactic Idealize.SL.Sem Idealize.ShloMosaic.ValueIdx
open Idealize.ShloMosaic.Pipeline (Dat)
open scoped BigOperators

theorem hz : (![0, 0] : Fin 2 → Nat) = fun _ => 0 := funext fun a => by fin_cases a <;> rfl

/-- The hidden block at an entry: rows of the sum of the two input blocks times the weights, plus the bias row. -/
theorem pay3_apply (v3 v4 : FVec Ideal S10000x64 .f32) (v8 : FVec Ideal S64x64 .f32) (v11 : FVec Ideal S1x64 .f32) (p : Fin 10000) (q : Fin 64) :
    k0_pay3 (F := Ideal) v3 v4 v8 v11 (ix2 p q) = (∑ k : Fin 64, (v3 (ix2 p k) + v4 (ix2 p k)) * v8 (ix2 k q)) + v11 (ix2 (0 : Fin 1) q) := by
  unfold k0_pay3
  refine (Affine.body_apply (A := 10000) (K := 64) (M := 64) none (addf v3 (shapeCast S10000x64 v4 shapeCasts_S10000x64_S10000x64)) (truncf .bf16 v8 bitsLt_bf16_f32)
    (shapeCast S1x64 v11 shapeCasts_S1x64_S1x64) bitsLt_bf16_f32 broadcasts_S1x64_S10000x64 p q).trans ?_
  rw [Affine.affine_ix2, shapeCast_self, shapeCast_self]
  rfl

/-- The running column sum after a block: what was there plus the block's column sums. -/
theorem pay4_apply (v3 v4 : FVec Ideal S10000x64 .f32) (v8 : FVec Ideal S64x64 .f32) (v11 v16 : FVec Ideal S1x64 .f32) (j : Fin 64) :
    k0_pay4 (F := Ideal) v3 v4 v8 v11 v16 (ix2 (0 : Fin 1) j) = v16 (ix2 (0 : Fin 1) j) + ∑ p : Fin 10000, k0_pay3 (F := Ideal) v3 v4 v8 v11 (ix2 p j) := by
  unfold k0_pay4
  refine (addf_apply _ _ _).trans ?_
  rw [shapeCast_self]
  refine congrArg (v16 (ix2 (0 : Fin 1) j) + ·) ?_
  refine (shapeCast_a_1a_apply _ _ (0 : Fin 1) j).trans ?_
  exact RowColumn.multiReduction_add_rows (k0_pay3 (F := Ideal) v3 v4 v8 v11) 0x00000000#32 reduces_S10000x64_S64 (.inl rfl) rfl j

/-- The running column sum of squares. -/
theorem pay5_apply (v3 v4 : FVec Ideal S10000x64 .f32) (v8 : FVec Ideal S64x64 .f32) (v11 v22 : FVec Ideal S1x64 .f32) (j : Fin 64) :
    k0_pay5 (F := Ideal) v3 v4 v8 v11 v22 (ix2 (0 : Fin 1) j) = v22 (ix2 (0 : Fin 1) j)
      + ∑ p : Fin 10000, k0_pay3 (F := Ideal) v3 v4 v8 v11 (ix2 p j) * k0_pay3 (F := Ideal) v3 v4 v8 v11 (ix2 p j) := by
  unfold k0_pay5
  refine (addf_apply _ _ _).trans ?_
  rw [shapeCast_self]
  refine congrArg (v22 (ix2 (0 : Fin 1) j) + ·) ?_
  refine (shapeCast_a_1a_apply _ _ (0 : Fin 1) j).trans ?_
  exact RowColumn.multiReduction_add_rows (mulf (k0_pay3 (F := Ideal) v3 v4 v8 v11) (k0_pay3 (F := Ideal) v3 v4 v8 v11)) 0x00000000#32 reduces_S10000x64_S64 (.inl rfl) rfl j

variable (V : (c : Dev nD) → (b : Ref sig .tc) → Buf (Elt Ideal) ((c : Thread nD τ).loc b)) (c : Dev nD)

/-- The hidden values of the whole arrays the region is entered with. -/
def Hk : Mat 100000 64 := Gin.hidden (V c main_arg0) (V c main_v13) (V c main_arg3) (row (V c main_v14))

/-- The printed index maps over the grid: the row-block windows sit at block t, the others at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 10 := lt_of_lt_of_eq t.isLt (show cfg0.N = 10 from N_0)

/-- Row p of point t's block is row 10000·t + p of the array. -/
def rowOf (t : Fin cfg0.N) (p : Fin 10000) : Fin 100000 := ⟨10000 * t.val + p.val, by have := t_lt t; have := p.isLt; omega⟩

theorem iblk_0 (t : Fin cfg0.N) (p : Fin 10000) (k : Fin 64) :
    (iblk0 (F := Ideal) V c 0 t : FVec Ideal S10000x64 .f32) (ix2 p k) = (V c main_arg0 : Mat 100000 64) (ix2 (rowOf t p) k) := by
  obtain ⟨e0, e1, -⟩ := idx_facts t
  unfold iblk0
  rw [View.read_apply]
  show V c main_arg0 _ = V c main_arg0 _
  congr 1
  funext a; apply Fin.ext
  match a with
  | ⟨0, _⟩ => show win0_0.index t (0 : Fin 2) * 10000 + 1 * p.val = 10000 * t.val + p.val; rw [e0]; omega
  | ⟨1, _⟩ => show win0_0.index t (1 : Fin 2) * 64 + 1 * k.val = k.val; rw [e1]; omega

theorem iblk_1 (t : Fin cfg0.N) (p : Fin 10000) (k : Fin 64) :
    (iblk0 (F := Ideal) V c 1 t : FVec Ideal S10000x64 .f32) (ix2 p k) = (V c main_v13 : Mat 100000 64) (ix2 (rowOf t p) k) := by
  obtain ⟨-, -, e0, e1, -⟩ := idx_facts t
  unfold iblk0
  rw [View.read_apply]
  show V c main_v13 _ = V c main_v13 _
  congr 1
  funext a; apply Fin.ext
  match a with
  | ⟨0, _⟩ => show win0_1.index t (0 : Fin 2) * 10000 + 1 * p.val = 10000 * t.val + p.val; rw [e0]; omega
  | ⟨1, _⟩ => show win0_1.index t (1 : Fin 2) * 64 + 1 * k.val = k.val; rw [e1]; omega

theorem iblk_2 (t : Fin cfg0.N) (k q : Fin 64) :
    (iblk0 (F := Ideal) V c 2 t : FVec Ideal S64x64 .f32) (ix2 k q) = (V c main_arg3 : Mat 64 64) (ix2 k q) := by
  obtain ⟨-, -, -, -, e0, e1, -⟩ := idx_facts t
  unfold iblk0
  rw [View.read_apply]
  show V c main_arg3 _ = V c main_arg3 _
  congr 1
  funext a; apply Fin.ext
  match a with
  | ⟨0, _⟩ => show win0_2.index t (0 : Fin 2) * 64 + 1 * k.val = k.val; rw [e0]; omega
  | ⟨1, _⟩ => show win0_2.index t (1 : Fin 2) * 64 + 1 * q.val = q.val; rw [e1]; omega

theorem iblk_3 (t : Fin cfg0.N) (q : Fin 64) :
    (iblk0 (F := Ideal) V c 3 t : FVec Ideal S1x64 .f32) (ix2 (0 : Fin 1) q) = (V c main_v14 : Mat 1 64) (ix2 (0 : Fin 1) q) := by
  obtain ⟨-, -, -, -, -, -, e0, e1, -⟩ := idx_facts t
  unfold iblk0
  rw [View.read_apply]
  show V c main_v14 _ = V c main_v14 _
  congr 1
  funext a; apply Fin.ext
  match a with
  | ⟨0, _⟩ => show win0_3.index t (0 : Fin 2) * 1 + 1 * 0 = 0; rw [e0]
  | ⟨1, _⟩ => show win0_3.index t (1 : Fin 2) * 64 + 1 * q.val = q.val; rw [e1]; omega

/-- The body's hidden block at point t is the hidden array's rows 10000·t …. -/
theorem pay3_blocks (t : Fin cfg0.N) (p : Fin 10000) (q : Fin 64) :
    k0_pay3 (F := Ideal) (iblk0 V c 0 t) (iblk0 V c 1 t) (iblk0 V c 2 t) (iblk0 V c 3 t) (ix2 p q) = Hk V c (ix2 (rowOf t p) q) := by
  refine (pay3_apply _ _ _ _ p q).trans ?_
  unfold Hk Gin.hidden
  rw [lin_ix2]
  refine congrArg₂ (fun a b : EReal => a + b) (Finset.sum_congr rfl fun k _ => congrArg₂ (fun a b : EReal => a * b)
    (congrArg₂ (fun a b : EReal => a + b) (iblk_0 V c t p k) (iblk_1 V c t p k)) (iblk_2 V c t k q)) (iblk_3 V c t q)

/-! ## What each case of the body leaves in the three outputs -/

section Found
variable (i : grid0.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole)

theorem out_A_4 (hc : cond0_0 i) (x0 x1 : Vec Ideal S10000x64 .f32) (x2 : Vec Ideal S64x64 .f32) (x3 : Vec Ideal S1x64 .f32) :
    out0_A_4 (F := Ideal) c i a1 h1 a2 h2 a3 h3 a4 h4 a5 h5 a6 h6 a7 h7 hc x0 x1 x2 x3 = k0_pay3 x0 x1 x2 x3 := by
  unfold out0_A_4
  rw [View.read_writes_eq_canon _ _ _ (cover0_A_4 c i a1 h1 a2 h2 a3 h3 a4 h4 a5 h5 a6 h6 a7 h7 hc x0 x1 x2 x3)]
  unfold kernelRun0_A
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_4 (hc : ¬cond0_0 i) (x0 x1 : Vec Ideal S10000x64 .f32) (x2 : Vec Ideal S64x64 .f32) (x3 xo5 xo6 : Vec Ideal S1x64 .f32) :
    out0_B_4 (F := Ideal) c i a1 h1 a2 h2 a3 h3 a4 h4 a5 h5 a6 h6 a7 h7 hc x0 x1 x2 x3 xo5 xo6 = k0_pay3 x0 x1 x2 x3 := by
  unfold out0_B_4
  rw [View.read_writes_eq_canon _ _ _ (cover0_B_4 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_5 (hc : ¬cond0_0 i) (x0 x1 : Vec Ideal S10000x64 .f32) (x2 : Vec Ideal S64x64 .f32) (x3 xo5 xo6 : Vec Ideal S1x64 .f32) :
    out0_B_5 (F := Ideal) c i a1 h1 a2 h2 a3 h3 a4 h4 a5 h5 a6 h6 a7 h7 hc x0 x1 x2 x3 xo5 xo6 = k0_pay4 x0 x1 x2 x3 xo5 := by
  unfold out0_B_5
  rw [View.read_writes_eq_canon _ _ _ (cover0_B_5 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_6 (hc : ¬cond0_0 i) (x0 x1 : Vec Ideal S10000x64 .f32) (x2 : Vec Ideal S64x64 .f32) (x3 xo5 xo6 : Vec Ideal S1x64 .f32) :
    out0_B_6 (F := Ideal) c i a1 h1 a2 h2 a3 h3 a4 h4 a5 h5 a6 h6 a7 h7 hc x0 x1 x2 x3 xo5 xo6 = k0_pay5 x0 x1 x2 x3 xo6 := by
  unfold out0_B_6
  rw [View.read_writes_eq_canon _ _ _ (cover0_B_6 c i a1 h1 a2 h2 a3 h3 a4 h4 a5 h5 a6 h6 a7 h7 hc x0 x1 x2 x3 xo5 xo6)]
  unfold kernelRun0_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_A_5 (hc : cond0_0 i) (x0 x1 : Vec Ideal S10000x64 .f32) (x2 : Vec Ideal S64x64 .f32) (x3 : Vec Ideal S1x64 .f32) :
    out0_A_5 (F := Ideal) c i a1 h1 a2 h2 a3 h3 a4 h4 a5 h5 a6 h6 a7 h7 hc x0 x1 x2 x3 = k0_pay4 x0 x1 x2 x3 (k0_pay1 (F := Ideal)) := by
  unfold out0_A_5
  rw [View.read_writes_eq_canon _ _ _ (cover0_A_5 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_A_6 (hc : cond0_0 i) (x0 x1 : Vec Ideal S10000x64 .f32) (x2 : Vec Ideal S64x64 .f32) (x3 : Vec Ideal S1x64 .f32) :
    out0_A_6 (F := Ideal) c i a1 h1 a2 h2 a3 h3 a4 h4 a5 h5 a6 h6 a7 h7 hc x0 x1 x2 x3 = k0_pay5 x0 x1 x2 x3 (k0_pay2 (F := Ideal)) := by
  unfold out0_A_6
  rw [View.read_writes_eq_canon _ _ _ (cover0_A_6 c i a1 h1 a2 h2 a3 h3 a4 h4 a5 h5 a6 h6 a7 h7 hc x0 x1 x2 x3)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

end Found

/-! ## What the outputs hold after each point -/

theorem outs_h (t : Fin cfg0.N) :
    (outsAt0 V c t.val t.isLt).1 = k0_pay3 (F := Ideal) (iblk0 V c 0 t) (iblk0 V c 1 t) (iblk0 V c 2 t) (iblk0 V c 3 t) := by
  by_cases h0 : t.val % 10 = 0
  · rw [outsAt0_A V c t h0]; dsimp only; rw [out_A_4]
  · rw [outsAt0_B V c t h0]; dsimp only; rw [out_B_4]

/-- Column j of the hidden array by row number, zero past the last row: the summand of a sum cut into blocks. -/
def Hn (j : Fin 64) (r : ℕ) : EReal := if h : r < 100000 then Hk V c (ix2 ⟨r, h⟩ j) else 0

/-- The same for the squares. -/
def Hn2 (j : Fin 64) (r : ℕ) : EReal := if h : r < 100000 then Hk V c (ix2 ⟨r, h⟩ j) * Hk V c (ix2 ⟨r, h⟩ j) else 0

theorem blockSum (t : Fin cfg0.N) (j : Fin 64) :
    ∑ p : Fin 10000, k0_pay3 (F := Ideal) (iblk0 V c 0 t) (iblk0 V c 1 t) (iblk0 V c 2 t) (iblk0 V c 3 t) (ix2 p j)
      = ∑ p : Fin 10000, Hn V c j (10000 * t.val + p.val) :=
  Finset.sum_congr rfl fun p _ => (pay3_blocks V c t p j).trans (by
    have := (rowOf t p).isLt
    unfold Hn
    rw [dif_pos (show 10000 * t.val + p.val < 100000 from this)]
    rfl)

theorem blockSum2 (t : Fin cfg0.N) (j : Fin 64) :
    ∑ p : Fin 10000, k0_pay3 (F := Ideal) (iblk0 V c 0 t) (iblk0 V c 1 t) (iblk0 V c 2 t) (iblk0 V c 3 t) (ix2 p j)
        * k0_pay3 (F := Ideal) (iblk0 V c 0 t) (iblk0 V c 1 t) (iblk0 V c 2 t) (iblk0 V c 3 t) (ix2 p j)
      = ∑ p : Fin 10000, Hn2 V c j (10000 * t.val + p.val) :=
  Finset.sum_congr rfl fun p _ => by
    rw [pay3_blocks V c t p j]
    have := (rowOf t p).isLt
    unfold Hn2
    rw [dif_pos (show 10000 * t.val + p.val < 100000 from this)]
    rfl

/-- After point n the first accumulator holds zero plus the column sums of blocks 0 … n. -/
theorem outs_S : ∀ (n : ℕ) (h : n < cfg0.N) (j : Fin 64),
    (outsAt0 V c n h).2.1 (ix2 (0 : Fin 1) j) = zeroW + ∑ s ∈ Finset.range (n + 1), ∑ p : Fin 10000, Hn V c j (10000 * s + p.val)
  | 0, h, j => by
    rw [outsAt0_A V c ⟨0, h⟩ rfl]
    dsimp only
    rw [out_A_5, pay4_apply, blockSum V c ⟨0, h⟩ j, Finset.sum_range_one]
    rfl
  | n + 1, h, j => by
    have hB : ¬(⟨n + 1, h⟩ : Fin cfg0.N).val % 10 = 0 := by
      have := t_lt ⟨n + 1, h⟩; dsimp only at this ⊢; omega
    rw [outsAt0_B V c ⟨n + 1, h⟩ hB]
    dsimp only
    rw [out_B_5, pay4_apply, blockSum V c ⟨n + 1, h⟩ j, Finset.sum_range_succ _ (n + 1), ← add_assoc]
    refine congrArg (· + _) ?_
    exact outs_S n (Nat.lt_of_succ_lt h) j

theorem outs_Q : ∀ (n : ℕ) (h : n < cfg0.N) (j : Fin 64),
    (outsAt0 V c n h).2.2 (ix2 (0 : Fin 1) j) = zeroW + ∑ s ∈ Finset.range (n + 1), ∑ p : Fin 10000, Hn2 V c j (10000 * s + p.val)
  | 0, h, j => by
    rw [outsAt0_A V c ⟨0, h⟩ rfl]
    dsimp only
    rw [out_A_6, pay5_apply, blockSum2 V c ⟨0, h⟩ j, Finset.sum_range_one]
    rfl
  | n + 1, h, j => by
    have hB : ¬(⟨n + 1, h⟩ : Fin cfg0.N).val % 10 = 0 := by
      have := t_lt ⟨n + 1, h⟩; dsimp only at this ⊢; omega
    rw [outsAt0_B V c ⟨n + 1, h⟩ hB]
    dsimp only
    rw [out_B_6, pay5_apply, blockSum2 V c ⟨n + 1, h⟩ j, Finset.sum_range_succ _ (n + 1), ← add_assoc]
    refine congrArg (· + _) ?_
    exact outs_Q n (Nat.lt_of_succ_lt h) j

/-- Ten blocks of ten thousand rows are the hundred thousand rows. -/
theorem total (g : ℕ → EReal) : ∑ s ∈ Finset.range 10, ∑ p : Fin 10000, g (10000 * s + p.val) = ∑ r : Fin 100000, g r.val :=
  (BlockedSum.sum_fin_blocks 10 10000 g).symm

theorem h9 : 9 < cfg0.N := by rw [show cfg0.N = 10 from N_0]; decide

theorem S_last (j : Fin 64) : (outsAt0 V c 9 h9).2.1 (ix2 (0 : Fin 1) j) = colSum (Hk V c) j := by
  rw [outs_S V c 9 h9 j, total, show zeroW = 0 from Ideal.ofBits_zero_f32, zero_add]
  exact Finset.sum_congr rfl fun r _ => by unfold Hn; rw [dif_pos r.isLt]

theorem Q_last (j : Fin 64) : (outsAt0 V c 9 h9).2.2 (ix2 (0 : Fin 1) j) = colSumSq (Hk V c) j := by
  rw [outs_Q V c 9 h9 j, total, show zeroW = 0 from Ideal.ofBits_zero_f32, zero_add]
  exact Finset.sum_congr rfl fun r _ => by unfold Hn2; rw [dif_pos r.isLt]

/-! ## The three arrays after the region -/

/-- The accumulators' one write-back, at the last point, writes the whole one-row array. -/
theorem flushed5_eq (t : Fin cfg0.N) (hf : (cfg0.win 5).flush t = true) :
    (dat0 V c).flushed 5 t = ((cfg0.win 5).blk t).view.read (Elt Ideal) ((outsAt0 V c 9 h9).2.1) := by
  have ht : t.val = 9 := by have := (flush0_5 t).mp hf; have := t_lt t; omega
  obtain rfl : t = t0_9 := Fin.ext ht
  show (cfg0.win 5).cut (grid0.coords t0_9) ((dat0 V c).after 5 t0_9) = _
  rw [after0_5]
  have hz' : (fun a => win0_5.index t0_9 a * main_v15_1.ty.shape.size a) = fun _ => 0 := funext fun a => by fin_cases a <;> decide
  exact (Memref.read_access_unit_zero (Elt Ideal) main_v15_1 hz' (fun a => by rw [congrFun hz' a]; simp) ((outsAt0 V c 9 h9).2.1)).symm

theorem flushed6_eq (t : Fin cfg0.N) (hf : (cfg0.win 6).flush t = true) :
    (dat0 V c).flushed 6 t = ((cfg0.win 6).blk t).view.read (Elt Ideal) ((outsAt0 V c 9 h9).2.2) := by
  have ht : t.val = 9 := by have := (flush0_6 t).mp hf; have := t_lt t; omega
  obtain rfl : t = t0_9 := Fin.ext ht
  show (cfg0.win 6).cut (grid0.coords t0_9) ((dat0 V c).after 6 t0_9) = _
  rw [after0_6]
  have hz' : (fun a => win0_6.index t0_9 a * main_v15_2.ty.shape.size a) = fun _ => 0 := funext fun a => by fin_cases a <;> decide
  exact (Memref.read_access_unit_zero (Elt Ideal) main_v15_2 hz' (fun a => by rw [congrFun hz' a]; simp) ((outsAt0 V c 9 h9).2.2)).symm

theorem arr5 : (dat0 V c).arrAt 5 cfg0.N = (outsAt0 V c 9 h9).2.1 :=
  (dat0 V c).arrAt_eq_of_cover 5 _ (flushed5_eq V c) fun i =>
    ⟨t0_9, (flush0_5 t0_9).mpr rfl, by
      show i ∈ ((View.whole main_v15_1).slice (win0_5.rect t0_9)).set
      rw [View.set_slice_whole, Rect.mem_set_unit]
      intro a
      have h0 : (i 0 : Nat) < 1 := (i 0).isLt
      have h1 : (i 1 : Nat) < 64 := (i 1).isLt
      match a with
      | ⟨0, _⟩ => show win0_5.index t0_9 0 * win0_5.size 0 ≤ (i 0 : Nat) ∧ (i 0 : Nat) < win0_5.index t0_9 0 * win0_5.size 0 + win0_5.xsize (grid0.coords t0_9) 0
                  rw [show win0_5.index t0_9 0 * win0_5.size 0 = 0 from by decide +kernel, show win0_5.xsize (grid0.coords t0_9) 0 = 1 from by decide +kernel]; omega
      | ⟨1, _⟩ => show win0_5.index t0_9 1 * win0_5.size 1 ≤ (i 1 : Nat) ∧ (i 1 : Nat) < win0_5.index t0_9 1 * win0_5.size 1 + win0_5.xsize (grid0.coords t0_9) 1
                  rw [show win0_5.index t0_9 1 * win0_5.size 1 = 0 from by decide +kernel, show win0_5.xsize (grid0.coords t0_9) 1 = 64 from by decide +kernel]; omega⟩

theorem arr6 : (dat0 V c).arrAt 6 cfg0.N = (outsAt0 V c 9 h9).2.2 :=
  (dat0 V c).arrAt_eq_of_cover 6 _ (flushed6_eq V c) fun i =>
    ⟨t0_9, (flush0_6 t0_9).mpr rfl, by
      show i ∈ ((View.whole main_v15_2).slice (win0_6.rect t0_9)).set
      rw [View.set_slice_whole, Rect.mem_set_unit]
      intro a
      have h0 : (i 0 : Nat) < 1 := (i 0).isLt
      have h1 : (i 1 : Nat) < 64 := (i 1).isLt
      match a with
      | ⟨0, _⟩ => show win0_6.index t0_9 0 * win0_6.size 0 ≤ (i 0 : Nat) ∧ (i 0 : Nat) < win0_6.index t0_9 0 * win0_6.size 0 + win0_6.xsize (grid0.coords t0_9) 0
                  rw [show win0_6.index t0_9 0 * win0_6.size 0 = 0 from by decide +kernel, show win0_6.xsize (grid0.coords t0_9) 0 = 1 from by decide +kernel]; omega
      | ⟨1, _⟩ => show win0_6.index t0_9 1 * win0_6.size 1 ≤ (i 1 : Nat) ∧ (i 1 : Nat) < win0_6.index t0_9 1 * win0_6.size 1 + win0_6.xsize (grid0.coords t0_9) 1
                  rw [show win0_6.index t0_9 1 * win0_6.size 1 = 0 from by decide +kernel, show win0_6.xsize (grid0.coords t0_9) 1 = 64 from by decide +kernel]; omega⟩

/-- The first accumulator's array ends at the column sums of the hidden array. -/
theorem arr_S : row ((dat0 V c).arrAt 5 cfg0.N : Mat 1 64) = colSum (Hk V c) := by
  funext j
  show ((dat0 V c).arrAt 5 cfg0.N : Mat 1 64) (ix2 (0 : Fin 1) j) = _
  rw [arr5]
  exact S_last V c j

/-- The second accumulator's array ends at the column sums of squares. -/
theorem arr_Q : row ((dat0 V c).arrAt 6 cfg0.N : Mat 1 64) = colSumSq (Hk V c) := by
  funext j
  show ((dat0 V c).arrAt 6 cfg0.N : Mat 1 64) (ix2 (0 : Fin 1) j) = _
  rw [arr6]
  exact Q_last V c j

/-- What point t writes back of the hidden output is block t of the hidden array. -/
theorem flushed4_eq (t : Fin cfg0.N) :
    (dat0 V c).flushed 4 t = ((cfg0.win 4).blk t).view.read (Elt Ideal) (Hk V c) := by
  obtain ⟨-, -, -, -, -, -, -, -, e0, e1, -⟩ := idx_facts t
  show (cfg0.win 4).cut (grid0.coords t) ((dat0 V c).after 4 t) = _
  rw [after0_4, outs_h]
  funext j
  obtain ⟨p, q, rfl⟩ : ∃ (p : Fin 10000) (q : Fin 64), j = ix2 p q := ⟨j 0, j 1, eq_ix2 j⟩
  refine (pay3_blocks V c t p q).trans ?_
  show Hk V c _ = Hk V c (((cfg0.win 4).blk t).view.emb (ix2 p q))
  congr 1
  funext a; apply Fin.ext
  match a with
  | ⟨0, _⟩ => show 10000 * t.val + p.val = win0_4.index t (0 : Fin 2) * 10000 + 1 * p.val; rw [e0]; omega
  | ⟨1, _⟩ => show q.val = win0_4.index t (1 : Fin 2) * 64 + 1 * q.val; rw [e1]; omega

theorem mem_blk4 (t : Fin cfg0.N) (i : S100000x64.Idx) :
    i ∈ ((cfg0.win 4).blk t).view.set ↔ ∀ a : Fin 2, win0_4.index t a * S10000x64.size a ≤ (i a).val ∧ (i a).val < win0_4.index t a * S10000x64.size a + S10000x64.size a := by
  show i ∈ ((View.whole main_v15_0).slice (win0_4.rect t)).set ↔ _
  rw [View.set_slice_whole, Rect.mem_set_unit]
  exact Iff.rfl

/-- The hidden output's array ends at the hidden array: row r is written by point r / 10000. -/
theorem arr_H : (dat0 V c).arrAt 4 cfg0.N = Hk V c :=
  (dat0 V c).arrAt_eq_of_cover 4 (Hk V c) (fun t _ => flushed4_eq V c t) fun i => by
    have hi0 : (i 0).val < 100000 := (i 0).isLt
    have hi1 : (i 1).val < 64 := (i 1).isLt
    have hN : cfg0.N = 10 := N_0
    refine ⟨⟨(i 0).val / 10000, by rw [hN]; omega⟩, flush0_4 _, ?_⟩
    rw [mem_blk4]
    obtain ⟨-, -, -, -, -, -, -, -, e0, e1, -⟩ := idx_facts (⟨(i 0).val / 10000, by rw [hN]; omega⟩ : Fin cfg0.N)
    intro a
    match a with
    | ⟨0, _⟩ => show win0_4.index _ (0 : Fin 2) * 10000 ≤ (i 0).val ∧ (i 0).val < win0_4.index _ (0 : Fin 2) * 10000 + 10000; rw [e0]; dsimp only; omega
    | ⟨1, _⟩ => show win0_4.index _ (1 : Fin 2) * 64 ≤ (i 1).val ∧ (i 1).val < win0_4.index _ (1 : Fin 2) * 64 + 64; rw [e1]; omega

end Cert.KernelIdeal.RegAcc0

end
-- ==== Proof.RegA2.lean ====
/-
  Region 2 of the idealized kernel program — the first linear map of the second layer with its two running column sums — read
  as whole-array functions of the buffer contents V the region is entered with.
  The grid has ten points; point t holds rows 10000·t … 10000·t + 9999 of the layer's input features X (the first layer's
  output) and of their neighbour sums AG, and the whole of the weights W and the bias row b. The body writes the hidden block
  H(r, j) = Σ_k (X(r,k) + AG(r,k))·W(k,j) + b(j) of its rows, and adds the block's column sums Σ_r H(r, j) and Σ_r H(r, j)² to
  two one-row accumulators that the first point resets to zero and only the last point's write-back returns. So the hidden
  array ends at H, and the accumulators at zero plus ten block sums, which is the sum over all 100000 rows: addition of
  extended reals is commutative and associative, and no entry needs to be finite.
-/
import proofs.«123288_j69320772157914_1_alg».proof.Proof.KernelIdealFrameP
import proofs.«123288_j69320772157914_1_alg».proof.Proof.Spec
import proofs.«123288_j69320772157914_1_alg».proof.Proof.LibAffine
import proofs.«123288_j69320772157914_1_alg».proof.Proof.LibRowColumn
import proofs.«123288_j69320772157914_1_alg».proof.Proof.LibBlockedSum
import Idealize.ShloMosaic.Lib.Pipeline.Value
import Idealize.ShloMosaic.Lib.ValueLayout
import Idealize.ShloMosaic.Lib.Tactic

set_option maxRecDepth 16384

noncomputable section

namespace Cert.KernelIdeal.RegAcc2

open Cert.KernelIdeal Cert.KernelIdeal.Gen Cert.KernelIdeal.GenP Cert.Gin
open Idealize.ShloMosaic Idealize.ShloMosaic.TcCoe Idealize.ShloMosaic.Tactic Idealize.SL.Sem Idealize.ShloMosaic.ValueIdx
open Idealize.ShloMosaic.Pipeline (Dat)
open scoped BigOperators

theorem hz : (![0, 0] : Fin 2 → Nat) = fun _ => 0 := funext fun a => by fin_cases a <;> rfl

/-- The hidden block at an entry: rows of the sum of the two input blocks times the weights, plus the bias row. -/
theorem pay3_apply (v3 v5 : FVec Ideal S10000x64 .f32) (v9 : FVec Ideal S64x64 .f32) (v12 : FVec Ideal S1x64 .f32) (p : Fin 10000) (q : Fin 64) :
    k2_pay3 (F := Ideal) v3 v5 v9 v12 (ix2 p q) = (∑ k : Fin 64, (v3 (ix2 p k) + v5 (ix2 p k)) * v9 (ix2 k q)) + v12 (ix2 (0 : Fin 1) q) := by
  unfold k2_pay3
  refine (Affine.body_apply (A := 10000) (K := 64) (M := 64) none
    (addf (shapeCast S10000x64 v3 shapeCasts_S10000x64_S10000x64) (shapeCast S10000x64 v5 shapeCasts_S10000x64_S10000x64)) (truncf .bf16 v9 bitsLt_bf16_f32)
    (shapeCast S1x64 v12 shapeCasts_S1x64_S1x64) bitsLt_bf16_f32 broadcasts_S1x64_S10000x64 p q).trans ?_
  rw [Affine.affine_ix2, shapeCast_self, shapeCast_self, shapeCast_self]
  rfl

/-- The running column sum after a block: what was there plus the block's column sums. -/
theorem pay4_apply (v3 v5 : FVec Ideal S10000x64 .f32) (v9 : FVec Ideal S64x64 .f32) (v12 v17 : FVec Ideal S1x64 .f32) (j : Fin 64) :
    k2_pay4 (F := Ideal) v3 v5 v9 v12 v17 (ix2 (0 : Fin 1) j) = v17 (ix2 (0 : Fin 1) j) + ∑ p : Fin 10000, k2_pay3 (F := Ideal) v3 v5 v9 v12 (ix2 p j) := by
  unfold k2_pay4
  refine (addf_apply _ _ _).trans ?_
  rw [shapeCast_self]
  refine congrArg (v17 (ix2 (0 : Fin 1) j) + ·) ?_
  refine (shapeCast_a_1a_apply _ _ (0 : Fin 1) j).trans ?_
  exact RowColumn.multiReduction_add_rows (k2_pay3 (F := Ideal) v3 v5 v9 v12) 0x00000000#32 reduces_S10000x64_S64 (.inl rfl) rfl j

/-- The running column sum of squares. -/
theorem pay5_apply (v3 v5 : FVec Ideal S10000x64 .f32) (v9 : FVec Ideal S64x64 .f32) (v12 v23 : FVec Ideal S1x64 .f32) (j : Fin 64) :
    k2_pay5 (F := Ideal) v3 v5 v9 v12 v23 (ix2 (0 : Fin 1) j) = v23 (ix2 (0 : Fin 1) j)
      + ∑ p : Fin 10000, k2_pay3 (F := Ideal) v3 v5 v9 v12 (ix2 p j) * k2_pay3 (F := Ideal) v3 v5 v9 v12 (ix2 p j) := by
  unfold k2_pay5
  refine (addf_apply _ _ _).trans ?_
  rw [shapeCast_self]
  refine congrArg (v23 (ix2 (0 : Fin 1) j) + ·) ?_
  refine (shapeCast_a_1a_apply _ _ (0 : Fin 1) j).trans ?_
  exact RowColumn.multiReduction_add_rows (mulf (k2_pay3 (F := Ideal) v3 v5 v9 v12) (k2_pay3 (F := Ideal) v3 v5 v9 v12)) 0x00000000#32 reduces_S10000x64_S64 (.inl rfl) rfl j

variable (V : (c : Dev nD) → (b : Ref sig .tc) → Buf (Elt Ideal) ((c : Thread nD τ).loc b)) (c : Dev nD)

/-- The hidden values of the whole arrays the region is entered with. -/
def Hk : Mat 100000 64 := Gin.hidden (V c main_v25) (V c main_v35) (V c main_arg9) (row (V c main_v36))

/-- The printed index maps over the grid: the row-block windows sit at block t, the others at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

theorem t_lt (t : Fin cfg2.N) : t.val < 10 := lt_of_lt_of_eq t.isLt (show cfg2.N = 10 from N_2)

/-- Row p of point t's block is row 10000·t + p of the array. -/
def rowOf (t : Fin cfg2.N) (p : Fin 10000) : Fin 100000 := ⟨10000 * t.val + p.val, by have := t_lt t; have := p.isLt; omega⟩

theorem iblk_0 (t : Fin cfg2.N) (p : Fin 10000) (k : Fin 64) :
    (iblk2 (F := Ideal) V c 0 t : FVec Ideal S10000x64 .f32) (ix2 p k) = (V c main_v25 : Mat 100000 64) (ix2 (rowOf t p) k) := by
  obtain ⟨e0, e1, -⟩ := idx_facts t
  unfold iblk2
  rw [View.read_apply]
  show V c main_v25 _ = V c main_v25 _
  congr 1
  funext a; apply Fin.ext
  match a with
  | ⟨0, _⟩ => show win2_0.index t (0 : Fin 2) * 10000 + 1 * p.val = 10000 * t.val + p.val; rw [e0]; omega
  | ⟨1, _⟩ => show win2_0.index t (1 : Fin 2) * 64 + 1 * k.val = k.val; rw [e1]; omega

theorem iblk_1 (t : Fin cfg2.N) (p : Fin 10000) (k : Fin 64) :
    (iblk2 (F := Ideal) V c 1 t : FVec Ideal S10000x64 .f32) (ix2 p k) = (V c main_v35 : Mat 100000 64) (ix2 (rowOf t p) k) := by
  obtain ⟨-, -, e0, e1, -⟩ := idx_facts t
  unfold iblk2
  rw [View.read_apply]
  show V c main_v35 _ = V c main_v35 _
  congr 1
  funext a; apply Fin.ext
  match a with
  | ⟨0, _⟩ => show win2_1.index t (0 : Fin 2) * 10000 + 1 * p.val = 10000 * t.val + p.val; rw [e0]; omega
  | ⟨1, _⟩ => show win2_1.index t (1 : Fin 2) * 64 + 1 * k.val = k.val; rw [e1]; omega

theorem iblk_2 (t : Fin cfg2.N) (k q : Fin 64) :
    (iblk2 (F := Ideal) V c 2 t : FVec Ideal S64x64 .f32) (ix2 k q) = (V c main_arg9 : Mat 64 64) (ix2 k q) := by
  obtain ⟨-, -, -, -, e0, e1, -⟩ := idx_facts t
  unfold iblk2
  rw [View.read_apply]
  show V c main_arg9 _ = V c main_arg9 _
  congr 1
  funext a; apply Fin.ext
  match a with
  | ⟨0, _⟩ => show win2_2.index t (0 : Fin 2) * 64 + 1 * k.val = k.val; rw [e0]; omega
  | ⟨1, _⟩ => show win2_2.index t (1 : Fin 2) * 64 + 1 * q.val = q.val; rw [e1]; omega

theorem iblk_3 (t : Fin cfg2.N) (q : Fin 64) :
    (iblk2 (F := Ideal) V c 3 t : FVec Ideal S1x64 .f32) (ix2 (0 : Fin 1) q) = (V c main_v36 : Mat 1 64) (ix2 (0 : Fin 1) q) := by
  obtain ⟨-, -, -, -, -, -, e0, e1, -⟩ := idx_facts t
  unfold iblk2
  rw [View.read_apply]
  show V c main_v36 _ = V c main_v36 _
  congr 1
  funext a; apply Fin.ext
  match a with
  | ⟨0, _⟩ => show win2_3.index t (0 : Fin 2) * 1 + 1 * 0 = 0; rw [e0]
  | ⟨1, _⟩ => show win2_3.index t (1 : Fin 2) * 64 + 1 * q.val = q.val; rw [e1]; omega

/-- The body's hidden block at point t is the hidden array's rows 10000·t …. -/
theorem pay3_blocks (t : Fin cfg2.N) (p : Fin 10000) (q : Fin 64) :
    k2_pay3 (F := Ideal) (iblk2 V c 0 t) (iblk2 V c 1 t) (iblk2 V c 2 t) (iblk2 V c 3 t) (ix2 p q) = Hk V c (ix2 (rowOf t p) q) := by
  refine (pay3_apply _ _ _ _ p q).trans ?_
  unfold Hk Gin.hidden
  rw [lin_ix2]
  refine congrArg₂ (fun a b : EReal => a + b) (Finset.sum_congr rfl fun k _ => congrArg₂ (fun a b : EReal => a * b)
    (congrArg₂ (fun a b : EReal => a + b) (iblk_0 V c t p k) (iblk_1 V c t p k)) (iblk_2 V c t k q)) (iblk_3 V c t q)

/-! ## What each case of the body leaves in the three outputs -/

section Found
variable (i : grid2.Coords) (a1 : Memref sig .tc .vmem S10000x64 .f32) (h1 : a1.IsWhole) (a2 : Memref sig .tc .vmem S10000x64 .f32) (h2 : a2.IsWhole) (a3 : Memref sig .tc .vmem S64x64 .f32) (h3 : a3.IsWhole) (a4 : Memref sig .tc .vmem S1x64 .f32) (h4 : a4.IsWhole) (a5 : Memref sig .tc .vmem S10000x64 .f32) (h5 : a5.IsWhole) (a6 : Memref sig .tc .vmem S1x64 .f32) (h6 : a6.IsWhole) (a7 : Memref sig .tc .vmem S1x64 .f32) (h7 : a7.IsWhole)

theorem out_A_4 (hc : cond2_0 i) (x0 x1 : Vec Ideal S10000x64 .f32) (x2 : Vec Ideal S64x64 .f32) (x3 : Vec Ideal S1x64 .f32) :
    out2_A_4 (F := Ideal) c i a1 h1 a2 h2 a3 h3 a4 h4 a5 h5 a6 h6 a7 h7 hc x0 x1 x2 x3 = k2_pay3 x0 x1 x2 x3 := by
  unfold out2_A_4
  rw [View.read_writes_eq_canon _ _ _ (cover2_A_4 c i a1 h1 a2 h2 a3 h3 a4 h4 a5 h5 a6 h6 a7 h7 hc x0 x1 x2 x3)]
  unfold kernelRun2_A
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_4 (hc : ¬cond2_0 i) (x0 x1 : Vec Ideal S10000x64 .f32) (x2 : Vec Ideal S64x64 .f32) (x3 xo5 xo6 : Vec Ideal S1x64 .f32) :
    out2_B_4 (F := Ideal) c i a1 h1 a2 h2 a3 h3 a4 h4 a5 h5 a6 h6 a7 h7 hc x0 x1 x2 x3 xo5 xo6 = k2_pay3 x0 x1 x2 x3 := by
  unfold out2_B_4
  rw [View.read_writes_eq_canon _ _ _ (cover2_B_4 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_5 (hc : ¬cond2_0 i) (x0 x1 : Vec Ideal S10000x64 .f32) (x2 : Vec Ideal S64x64 .f32) (x3 xo5 xo6 : Vec Ideal S1x64 .f32) :
    out2_B_5 (F := Ideal) c i a1 h1 a2 h2 a3 h3 a4 h4 a5 h5 a6 h6 a7 h7 hc x0 x1 x2 x3 xo5 xo6 = k2_pay4 x0 x1 x2 x3 xo5 := by
  unfold out2_B_5
  rw [View.read_writes_eq_canon _ _ _ (cover2_B_5 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_B_6 (hc : ¬cond2_0 i) (x0 x1 : Vec Ideal S10000x64 .f32) (x2 : Vec Ideal S64x64 .f32) (x3 xo5 xo6 : Vec Ideal S1x64 .f32) :
    out2_B_6 (F := Ideal) c i a1 h1 a2 h2 a3 h3 a4 h4 a5 h5 a6 h6 a7 h7 hc x0 x1 x2 x3 xo5 xo6 = k2_pay5 x0 x1 x2 x3 xo6 := by
  unfold out2_B_6
  rw [View.read_writes_eq_canon _ _ _ (cover2_B_6 c i a1 h1 a2 h2 a3 h3 a4 h4 a5 h5 a6 h6 a7 h7 hc x0 x1 x2 x3 xo5 xo6)]
  unfold kernelRun2_B
  dsimp only
  rw [View.canon_unit_zero hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_A_5 (hc : cond2_0 i) (x0 x1 : Vec Ideal S10000x64 .f32) (x2 : Vec Ideal S64x64 .f32) (x3 : Vec Ideal S1x64 .f32) :
    out2_A_5 (F := Ideal) c i a1 h1 a2 h2 a3 h3 a4 h4 a5 h5 a6 h6 a7 h7 hc x0 x1 x2 x3 = k2_pay4 x0 x1 x2 x3 (k2_pay1 (F := Ideal)) := by
  unfold out2_A_5
  rw [View.read_writes_eq_canon _ _ _ (cover2_A_5 c i a1 h1 a2 h2 a3 h3 a4 h4 a5 h5 a6 h6 a7 h7 hc x0 x1 x2 x3)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

theorem out_A_6 (hc : cond2_0 i) (x0 x1 : Vec Ideal S10000x64 .f32) (x2 : Vec Ideal S64x64 .f32) (x3 : Vec Ideal S1x64 .f32) :
    out2_A_6 (F := Ideal) c i a1 h1 a2 h2 a3 h3 a4 h4 a5 h5 a6 h6 a7 h7 hc x0 x1 x2 x3 = k2_pay5 x0 x1 x2 x3 (k2_pay2 (F := Ideal)) := by
  unfold out2_A_6
  rw [View.read_writes_eq_canon _ _ _ (cover2_A_6 c i a1 h1 a2 h2 a3 h3 a4 h4 a5 h5 a6 h6 a7 h7 hc x0 x1 x2 x3)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread, h6.read_unread, h7.read_unread, View.ld_unit_zero (S := S10000x64) hz, View.ld_unit_zero (S := S64x64) hz, View.ld_unit_zero (S := S1x64) hz]

end Found

/-! ## What the outputs hold after each point -/

theorem outs_h (t : Fin cfg2.N) :
    (outsAt2 V c t.val t.isLt).1 = k2_pay3 (F := Ideal) (iblk2 V c 0 t) (iblk2 V c 1 t) (iblk2 V c 2 t) (iblk2 V c 3 t) := by
  by_cases h0 : t.val % 10 = 0
  · rw [outsAt2_A V c t h0]; dsimp only; rw [out_A_4]
  · rw [outsAt2_B V c t h0]; dsimp only; rw [out_B_4]

/-- Column j of the hidden array by row number, zero past the last row: the summand of a sum cut into blocks. -/
def Hn (j : Fin 64) (r : ℕ) : EReal := if h : r < 100000 then Hk V c (ix2 ⟨r, h⟩ j) else 0

/-- The same for the squares. -/
def Hn2 (j : Fin 64) (r : ℕ) : EReal := if h : r < 100000 then Hk V c (ix2 ⟨r, h⟩ j) * Hk V c (ix2 ⟨r, h⟩ j) else 0

theorem blockSum (t : Fin cfg2.N) (j : Fin 64) :
    ∑ p : Fin 10000, k2_pay3 (F := Ideal) (iblk2 V c 0 t) (iblk2 V c 1 t) (iblk2 V c 2 t) (iblk2 V c 3 t) (ix2 p j)
      = ∑ p : Fin 10000, Hn V c j (10000 * t.val + p.val) :=
  Finset.sum_congr rfl fun p _ => (pay3_blocks V c t p j).trans (by
    have := (rowOf t p).isLt
    unfold Hn
    rw [dif_pos (show 10000 * t.val + p.val < 100000 from this)]
    rfl)

theorem blockSum2 (t : Fin cfg2.N) (j : Fin 64) :
    ∑ p : Fin 10000, k2_pay3 (F := Ideal) (iblk2 V c 0 t) (iblk2 V c 1 t) (iblk2 V c 2 t) (iblk2 V c 3 t) (ix2 p j)
        * k2_pay3 (F := Ideal) (iblk2 V c 0 t) (iblk2 V c 1 t) (iblk2 V c 2 t) (iblk2 V c 3 t) (ix2 p j)
      = ∑ p : Fin 10000, Hn2 V c j (10000 * t.val + p.val) :=
  Finset.sum_congr rfl fun p _ => by
    rw [pay3_blocks V c t p j]
    have := (rowOf t p).isLt
    unfold Hn2
    rw [dif_pos (show 10000 * t.val + p.val < 100000 from this)]
    rfl

/-- After point n the first accumulator holds zero plus the column sums of blocks 0 … n. -/
theorem outs_S : ∀ (n : ℕ) (h : n < cfg2.N) (j : Fin 64),
    (outsAt2 V c n h).2.1 (ix2 (0 : Fin 1) j) = zeroW + ∑ s ∈ Finset.range (n + 1), ∑ p : Fin 10000, Hn V c j (10000 * s + p.val)
  | 0, h, j => by
    rw [outsAt2_A V c ⟨0, h⟩ rfl]
    dsimp only
    rw [out_A_5, pay4_apply, blockSum V c ⟨0, h⟩ j, Finset.sum_range_one]
    rfl
  | n + 1, h, j => by
    have hB : ¬(⟨n + 1, h⟩ : Fin cfg2.N).val % 10 = 0 := by
      have := t_lt ⟨n + 1, h⟩; dsimp only at this ⊢; omega
    rw [outsAt2_B V c ⟨n + 1, h⟩ hB]
    dsimp only
    rw [out_B_5, pay4_apply, blockSum V c ⟨n + 1, h⟩ j, Finset.sum_range_succ _ (n + 1), ← add_assoc]
    refine congrArg (· + _) ?_
    exact outs_S n (Nat.lt_of_succ_lt h) j

theorem outs_Q : ∀ (n : ℕ) (h : n < cfg2.N) (j : Fin 64),
    (outsAt2 V c n h).2.2 (ix2 (0 : Fin 1) j) = zeroW + ∑ s ∈ Finset.range (n + 1), ∑ p : Fin 10000, Hn2 V c j (10000 * s + p.val)
  | 0, h, j => by
    rw [outsAt2_A V c ⟨0, h⟩ rfl]
    dsimp only
    rw [out_A_6, pay5_apply, blockSum2 V c ⟨0, h⟩ j, Finset.sum_range_one]
    rfl
  | n + 1, h, j => by
    have hB : ¬(⟨n + 1, h⟩ : Fin cfg2.N).val % 10 = 0 := by
      have := t_lt ⟨n + 1, h⟩; dsimp only at this ⊢; omega
    rw [outsAt2_B V c ⟨n + 1, h⟩ hB]
    dsimp only
    rw [out_B_6, pay5_apply, blockSum2 V c ⟨n + 1, h⟩ j, Finset.sum_range_succ _ (n + 1), ← add_assoc]
    refine congrArg (· + _) ?_
    exact outs_Q n (Nat.lt_of_succ_lt h) j

/-- Ten blocks of ten thousand rows are the hundred thousand rows. -/
theorem total (g : ℕ → EReal) : ∑ s ∈ Finset.range 10, ∑ p : Fin 10000, g (10000 * s + p.val) = ∑ r : Fin 100000, g r.val :=
  (BlockedSum.sum_fin_blocks 10 10000 g).symm

theorem h9 : 9 < cfg2.N := by rw [show cfg2.N = 10 from N_2]; decide

theorem S_last (j : Fin 64) : (outsAt2 V c 9 h9).2.1 (ix2 (0 : Fin 1) j) = colSum (Hk V c) j := by
  rw [outs_S V c 9 h9 j, total, show zeroW = 0 from Ideal.ofBits_zero_f32, zero_add]
  exact Finset.sum_congr rfl fun r _ => by unfold Hn; rw [dif_pos r.isLt]

theorem Q_last (j : Fin 64) : (outsAt2 V c 9 h9).2.2 (ix2 (0 : Fin 1) j) = colSumSq (Hk V c) j := by
  rw [outs_Q V c 9 h9 j, total, show zeroW = 0 from Ideal.ofBits_zero_f32, zero_add]
  exact Finset.sum_congr rfl fun r _ => by unfold Hn2; rw [dif_pos r.isLt]

/-! ## The three arrays after the region -/

/-- The accumulators' one write-back, at the last point, writes the whole one-row array. -/
theorem flushed5_eq (t : Fin cfg2.N) (hf : (cfg2.win 5).flush t = true) :
    (dat2 V c).flushed 5 t = ((cfg2.win 5).blk t).view.read (Elt Ideal) ((outsAt2 V c 9 h9).2.1) := by
  have ht : t.val = 9 := by have := (flush2_5 t).mp hf; have := t_lt t; omega
  obtain rfl : t = t2_9 := Fin.ext ht
  show (cfg2.win 5).cut (grid2.coords t2_9) ((dat2 V c).after 5 t2_9) = _
  rw [after2_5]
  have hz' : (fun a => win2_5.index t2_9 a * main_v37_1.ty.shape.size a) = fun _ => 0 := funext fun a => by fin_cases a <;> decide
  exact (Memref.read_access_unit_zero (Elt Ideal) main_v37_1 hz' (fun a => by rw [congrFun hz' a]; simp) ((outsAt2 V c 9 h9).2.1)).symm

theorem flushed6_eq (t : Fin cfg2.N) (hf : (cfg2.win 6).flush t = true) :
    (dat2 V c).flushed 6 t = ((cfg2.win 6).blk t).view.read (Elt Ideal) ((outsAt2 V c 9 h9).2.2) := by
  have ht : t.val = 9 := by have := (flush2_6 t).mp hf; have := t_lt t; omega
  obtain rfl : t = t2_9 := Fin.ext ht
  show (cfg2.win 6).cut (grid2.coords t2_9) ((dat2 V c).after 6 t2_9) = _
  rw [after2_6]
  have hz' : (fun a => win2_6.index t2_9 a * main_v37_2.ty.shape.size a) = fun _ => 0 := funext fun a => by fin_cases a <;> decide
  exact (Memref.read_access_unit_zero (Elt Ideal) main_v37_2 hz' (fun a => by rw [congrFun hz' a]; simp) ((outsAt2 V c 9 h9).2.2)).symm

theorem arr5 : (dat2 V c).arrAt 5 cfg2.N = (outsAt2 V c 9 h9).2.1 :=
  (dat2 V c).arrAt_eq_of_cover 5 _ (flushed5_eq V c) fun i =>
    ⟨t2_9, (flush2_5 t2_9).mpr rfl, by
      show i ∈ ((View.whole main_v37_1).slice (win2_5.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_5.index t2_9 0 * win2_5.size 0 ≤ (i 0 : Nat) ∧ (i 0 : Nat) < win2_5.index t2_9 0 * win2_5.size 0 + win2_5.xsize (grid2.coords t2_9) 0
                  rw [show win2_5.index t2_9 0 * win2_5.size 0 = 0 from by decide +kernel, show win2_5.xsize (grid2.coords t2_9) 0 = 1 from by decide +kernel]; omega
      | ⟨1, _⟩ => show win2_5.index t2_9 1 * win2_5.size 1 ≤ (i 1 : Nat) ∧ (i 1 : Nat) < win2_5.index t2_9 1 * win2_5.size 1 + win2_5.xsize (grid2.coords t2_9) 1
                  rw [show win2_5.index t2_9 1 * win2_5.size 1 = 0 from by decide +kernel, show win2_5.xsize (grid2.coords t2_9) 1 = 64 from by decide +kernel]; omega⟩

theorem arr6 : (dat2 V c).arrAt 6 cfg2.N = (outsAt2 V c 9 h9).2.2 :=
  (dat2 V c).arrAt_eq_of_cover 6 _ (flushed6_eq V c) fun i =>
    ⟨t2_9, (flush2_6 t2_9).mpr rfl, by
      show i ∈ ((View.whole main_v37_2).slice (win2_6.rect t2_9)).set
      rw [View.set_slice_whole, Rect.mem_set_unit]
      intro a
      have h0 : (i 0 : Nat) < 1 := (i 0).isLt
      have h1 : (i 1 : Nat) < 64 := (i 1).isLt
      match a with
      | ⟨0, _⟩ => show win2_6.index t2_9 0 * win2_6.size 0 ≤ (i 0 : Nat) ∧ (i 0 : Nat) < win2_6.index t2_9 0 * win2_6.size 0 + win2_6.xsize (grid2.coords t2_9) 0
                  rw [show win2_6.index t2_9 0 * win2_6.size 0 = 0 from by decide +kernel, show win2_6.xsize (grid2.coords t2_9) 0 = 1 from by decide +kernel]; omega
      | ⟨1, _⟩ => show win2_6.index t2_9 1 * win2_6.size 1 ≤ (i 1 : Nat) ∧ (i 1 : Nat) < win2_6.index t2_9 1 * win2_6.size 1 + win2_6.xsize (grid2.coords t2_9) 1
                  rw [show win2_6.index t2_9 1 * win2_6.size 1 = 0 from by decide +kernel, show win2_6.xsize (grid2.coords t2_9) 1 = 64 from by decide +kernel]; omega⟩

/-- The first accumulator's array ends at the column sums of the hidden array. -/
theorem arr_S : row ((dat2 V c).arrAt 5 cfg2.N : Mat 1 64) = colSum (Hk V c) := by
  funext j
  show ((dat2 V c).arrAt 5 cfg2.N : Mat 1 64) (ix2 (0 : Fin 1) j) = _
  rw [arr5]
  exact S_last V c j

/-- The second accumulator's array ends at the column sums of squares. -/
theorem arr_Q : row ((dat2 V c).arrAt 6 cfg2.N : Mat 1 64) = colSumSq (Hk V c) := by
  funext j
  show ((dat2 V c).arrAt 6 cfg2.N : Mat 1 64) (ix2 (0 : Fin 1) j) = _
  rw [arr6]
  exact Q_last V c j

/-- What point t writes back of the hidden output is block t of the hidden array. -/
theorem flushed4_eq (t : Fin cfg2.N) :
    (dat2 V c).flushed 4 t = ((cfg2.win 4).blk t).view.read (Elt Ideal) (Hk V c) := by
  obtain ⟨-, -, -, -, -, -, -, -, e0, e1, -⟩ := idx_facts t
  show (cfg2.win 4).cut (grid2.coords t) ((dat2 V c).after 4 t) = _
  rw [after2_4, outs_h]
  funext j
  obtain ⟨p, q, rfl⟩ : ∃ (p : Fin 10000) (q : Fin 64), j = ix2 p q := ⟨j 0, j 1, eq_ix2 j⟩
  refine (pay3_blocks V c t p q).trans ?_
  show Hk V c _ = Hk V c (((cfg2.win 4).blk t).view.emb (ix2 p q))
  congr 1
  funext a; apply Fin.ext
  match a with
  | ⟨0, _⟩ => show 10000 * t.val + p.val = win2_4.index t (0 : Fin 2) * 10000 + 1 * p.val; rw [e0]; omega
  | ⟨1, _⟩ => show q.val = win2_4.index t (1 : Fin 2) * 64 + 1 * q.val; rw [e1]; omega

theorem mem_blk4 (t : Fin cfg2.N) (i : S100000x64.Idx) :
    i ∈ ((cfg2.win 4).blk t).view.set ↔ ∀ a : Fin 2, win2_4.index t a * S10000x64.size a ≤ (i a).val ∧ (i a).val < win2_4.index t a * S10000x64.size a + S10000x64.size a := by
  show i ∈ ((View.whole main_v37_0).slice (win2_4.rect t)).set ↔ _
  rw [View.set_slice_whole, Rect.mem_set_unit]
  exact Iff.rfl

/-- The hidden output's array ends at the hidden array: row r is written by point r / 10000. -/
theorem arr_H : (dat2 V c).arrAt 4 cfg2.N = Hk V c :=
  (dat2 V c).arrAt_eq_of_cover 4 (Hk V c) (fun t _ => flushed4_eq V c t) fun i => by
    have hi0 : (i 0).val < 100000 := (i 0).isLt
    have hi1 : (i 1).val < 64 := (i 1).isLt
    have hN : cfg2.N = 10 := N_2
    refine ⟨⟨(i 0).val / 10000, by rw [hN]; omega⟩, flush2_4 _, ?_⟩
    rw [mem_blk4]
    obtain ⟨-, -, -, -, -, -, -, -, e0, e1, -⟩ := idx_facts (⟨(i 0).val / 10000, by rw [hN]; omega⟩ : Fin cfg2.N)
    intro a
    match a with
    | ⟨0, _⟩ => show win2_4.index _ (0 : Fin 2) * 10000 ≤ (i 0).val ∧ (i 0).val < win2_4.index _ (0 : Fin 2) * 10000 + 10000; rw [e0]; dsimp only; omega
    | ⟨1, _⟩ => show win2_4.index _ (1 : Fin 2) * 64 ≤ (i 1).val ∧ (i 1).val < win2_4.index _ (1 : Fin 2) * 64 + 64; rw [e1]; omega

end Cert.KernelIdeal.RegAcc2

end
-- ==== Proof.KValue.lean ====
/-
  The kernel program's result as one function of its arguments.

  The program is five kernel regions among stretches of host operations. The first region forms the hidden values of the
  first layer with their column sums and sums of squares; the host turns the sums into the column mean and the one-pass
  variance; the second region normalises, rectifies, applies the second linear map and rectifies again. Regions three and
  four do the same for the second layer (without the last rectifier), and the fifth multiplies the second layer's output and
  the third argument by the two halves of the last weight matrix and adds the bias. Reading the contents at each boundary
  from the one before, the result is the closing step of two layers, each with the one-pass variance.
-/
import proofs.«123288_j69320772157914_1_alg».proof.Proof.KernelIdealFrameP
import proofs.«123288_j69320772157914_1_alg».proof.Proof.Spec
import proofs.«123288_j69320772157914_1_alg».proof.Proof.RegB
import proofs.«123288_j69320772157914_1_alg».proof.Proof.RegF
import proofs.«123288_j69320772157914_1_alg».proof.Proof.RegA0
import proofs.«123288_j69320772157914_1_alg».proof.Proof.RegA2

set_option maxRecDepth 16384

noncomputable section

namespace Cert.KernelIdeal.KValue

open Cert.KernelIdeal Cert.KernelIdeal.Gen Cert.KernelIdeal.GenP Cert.Gin
open Idealize.ShloMosaic Idealize.ShloMosaic.TcCoe Idealize.ShloMosaic.ValueIdx Idealize.SL.Sem
open scoped BigOperators

/-- The closing step with the two halves of one weight matrix given apart is the closing step with the whole matrix. -/
theorem fin2_eq_fin {A K M : Nat} (X G : Mat A K) (W : Mat (K + K) M) (Wx Wg : Mat K M) (b : Fin M → EReal)
    (hx : ∀ k q, Wx (ix2 k q) = W (ix2 (Fin.castAdd K k) q)) (hg : ∀ k q, Wg (ix2 k q) = W (ix2 (Fin.natAdd K k) q)) :
    fin2 X G Wx Wg b = fin X G W b := by
  funext i
  obtain ⟨p, q, rfl⟩ : ∃ (p : Fin A) (q : Fin M), i = ix2 p q := ⟨_, _, eq_ix2 i⟩
  rw [fin_ix2, fin2_ix2]
  refine congrArg₂ (· + ·) (congrArg₂ (· + ·) ?_ ?_) rfl
  · exact Finset.sum_congr rfl fun k _ => congrArg₂ (· * ·) rfl (hx k q)
  · exact Finset.sum_congr rfl fun k _ => congrArg₂ (· * ·) rfl (hg k q)

variable (m : (ℓ : Loc nD τ sig) → Buf (Elt Ideal) ℓ) (ρ : Dev nD → PrngReg) (c : Dev nD)

/-! ## The argument arrays -/

abbrev a0 : Mat 100000 64 := m ((c.tc : Thread nD τ).loc main_arg0)
abbrev a2 : Mat 100000 64 := m ((c.tc : Thread nD τ).loc main_arg2)
abbrev a3 : Mat 64 64 := m ((c.tc : Thread nD τ).loc main_arg3)
abbrev a4 : FVec Ideal ⟨1, ![64]⟩ .f32 := m ((c.tc : Thread nD τ).loc main_arg4)
abbrev a5 : FVec Ideal ⟨1, ![64]⟩ .f32 := m ((c.tc : Thread nD τ).loc main_arg5)
abbrev a6 : FVec Ideal ⟨1, ![64]⟩ .f32 := m ((c.tc : Thread nD τ).loc main_arg6)
abbrev a7 : Mat 64 64 := m ((c.tc : Thread nD τ).loc main_arg7)
abbrev a8 : FVec Ideal ⟨1, ![64]⟩ .f32 := m ((c.tc : Thread nD τ).loc main_arg8)
abbrev a9 : Mat 64 64 := m ((c.tc : Thread nD τ).loc main_arg9)
abbrev a10 : FVec Ideal ⟨1, ![64]⟩ .f32 := m ((c.tc : Thread nD τ).loc main_arg10)
abbrev a11 : FVec Ideal ⟨1, ![64]⟩ .f32 := m ((c.tc : Thread nD τ).loc main_arg11)
abbrev a12 : FVec Ideal ⟨1, ![64]⟩ .f32 := m ((c.tc : Thread nD τ).loc main_arg12)
abbrev a13 : Mat 64 64 := m ((c.tc : Thread nD τ).loc main_arg13)
abbrev a14 : FVec Ideal ⟨1, ![64]⟩ .f32 := m ((c.tc : Thread nD τ).loc main_arg14)
abbrev a15 : Mat (64 + 64) 64 := m ((c.tc : Thread nD τ).loc main_arg15)
abbrev a16 : FVec Ideal ⟨1, ![64]⟩ .f32 := m ((c.tc : Thread nD τ).loc main_arg16)

/-! ## What is taken from the other modules: the two accumulating regions' arrays and the host stretches' reads -/

/-- What the first accumulating region leaves in its three output arrays, at the contents it is entered with: the hidden values
    and, as one-row arrays, their column sums and column sums of squares. -/
structure Acc0 : Prop where
  H : (dat0 (F := Ideal) (V1 m ρ) c).arrAt 4 cfg0.N
    = hidden (V1 m ρ c main_arg0) (V1 m ρ c main_v13) (V1 m ρ c main_arg3) (row (V1 m ρ c main_v14))
  S : row ((dat0 (F := Ideal) (V1 m ρ) c).arrAt 5 cfg0.N : Mat 1 64)
    = colSum (hidden (V1 m ρ c main_arg0) (V1 m ρ c main_v13) (V1 m ρ c main_arg3) (row (V1 m ρ c main_v14)))
  Q : row ((dat0 (F := Ideal) (V1 m ρ) c).arrAt 6 cfg0.N : Mat 1 64)
    = colSumSq (hidden (V1 m ρ c main_arg0) (V1 m ρ c main_v13) (V1 m ρ c main_arg3) (row (V1 m ρ c main_v14)))

/-- The first accumulating region leaves exactly that. -/
theorem acc0 : Acc0 m ρ c :=
  ⟨RegAcc0.arr_H (V1 m ρ) c, RegAcc0.arr_S (V1 m ρ) c, RegAcc0.arr_Q (V1 m ρ) c⟩

/-- What the second accumulating region leaves in its three output arrays, at the contents it is entered with: the hidden values
    and, as one-row arrays, their column sums and column sums of squares. -/
structure Acc2 : Prop where
  H : (dat2 (F := Ideal) (V5 m ρ) c).arrAt 4 cfg2.N
    = hidden (V5 m ρ c main_v25) (V5 m ρ c main_v35) (V5 m ρ c main_arg9) (row (V5 m ρ c main_v36))
  S : row ((dat2 (F := Ideal) (V5 m ρ) c).arrAt 5 cfg2.N : Mat 1 64)
    = colSum (hidden (V5 m ρ c main_v25) (V5 m ρ c main_v35) (V5 m ρ c main_arg9) (row (V5 m ρ c main_v36)))
  Q : row ((dat2 (F := Ideal) (V5 m ρ) c).arrAt 6 cfg2.N : Mat 1 64)
    = colSumSq (hidden (V5 m ρ c main_v25) (V5 m ρ c main_v35) (V5 m ρ c main_arg9) (row (V5 m ρ c main_v36)))

/-- The second accumulating region leaves exactly that. -/
theorem acc2 : Acc2 m ρ c :=
  ⟨RegAcc2.arr_H (V5 m ρ) c, RegAcc2.arr_S (V5 m ρ) c, RegAcc2.arr_Q (V5 m ρ) c⟩

/-- The host operations before the first region: the node features and the first weights are the arguments', the neighbour
    sums are `AG` of the node features, and the bias row is the argument's. -/
structure Stage1 (AG : Mat 100000 64 → Mat 100000 64) : Prop where
  x : V1 m ρ c main_arg0 = a0 m c
  w : V1 m ρ c main_arg3 = a3 m c
  ag : V1 m ρ c main_v13 = AG (a0 m c)
  b : row (V1 m ρ c main_v14) = vec (a4 m c)

/-- The host operations before the first normalising region: the hidden values pass through, the mean row is the column sums
    over the count word, the variance row the sums of squares over the count word less the squared mean, and the scale, shift,
    weights and bias row are the arguments'. -/
structure Stage3 : Prop where
  h : V3 m ρ c main_v15_0 = W2 m ρ c (Proc.devRef .tc main_v15_0)
  mean : row (V3 m ρ c main_v17) = fun j => Ideal.div (row (W2 m ρ c (Proc.devRef .tc main_v15_1)) j) cntW
  var : row (V3 m ρ c main_v21) = fun j => Ideal.div (row (W2 m ρ c (Proc.devRef .tc main_v15_2)) j) cntW
    - Ideal.div (row (W2 m ρ c (Proc.devRef .tc main_v15_1)) j) cntW * Ideal.div (row (W2 m ρ c (Proc.devRef .tc main_v15_1)) j) cntW
  g : row (V3 m ρ c main_v22) = vec (a5 m c)
  be : row (V3 m ρ c main_v23) = vec (a6 m c)
  w : V3 m ρ c main_arg7 = a7 m c
  b : row (V3 m ρ c main_v24) = vec (a8 m c)

/-- The host operations before the third region: the first layer's output passes through, the neighbour sums are `AG` of it,
    and the weights and bias row are the arguments'. -/
structure Stage5 (AG : Mat 100000 64 → Mat 100000 64) : Prop where
  x : V5 m ρ c main_v25 = W4 m ρ c (Proc.devRef .tc main_v25)
  ag : V5 m ρ c main_v35 = AG (W4 m ρ c (Proc.devRef .tc main_v25))
  w : V5 m ρ c main_arg9 = a9 m c
  b : row (V5 m ρ c main_v36) = vec (a10 m c)

/-- The host operations before the second normalising region: the hidden values pass through, the mean row is the column sums
    over the count word, the variance row the sums of squares over the count word less the squared mean, and the scale, shift,
    weights and bias row are the arguments'. -/
structure Stage7 : Prop where
  h : V7 m ρ c main_v37_0 = W6 m ρ c (Proc.devRef .tc main_v37_0)
  mean : row (V7 m ρ c main_v39) = fun j => Ideal.div (row (W6 m ρ c (Proc.devRef .tc main_v37_1)) j) cntW
  var : row (V7 m ρ c main_v43) = fun j => Ideal.div (row (W6 m ρ c (Proc.devRef .tc main_v37_2)) j) cntW
    - Ideal.div (row (W6 m ρ c (Proc.devRef .tc main_v37_1)) j) cntW * Ideal.div (row (W6 m ρ c (Proc.devRef .tc main_v37_1)) j) cntW
  g : row (V7 m ρ c main_v44) = vec (a11 m c)
  be : row (V7 m ρ c main_v45) = vec (a12 m c)
  w : V7 m ρ c main_arg13 = a13 m c
  b : row (V7 m ρ c main_v46) = vec (a14 m c)

/-- The host operations before the last region: the second layer's output passes through, the other row array and the bias
    row are the arguments', and the two weight matrices are the upper and lower 64 rows of the last weight argument. -/
structure Stage9 : Prop where
  x : V9 m ρ c main_v47 = W8 m ρ c (Proc.devRef .tc main_v47)
  g : V9 m ρ c main_arg2 = a2 m c
  b : row (V9 m ρ c main_v50) = vec (a16 m c)
  wx : ∀ (k q : Fin 64), (V9 m ρ c main_v48 : Mat 64 64) (ix2 k q) = a15 m c (ix2 (Fin.castAdd 64 k) q)
  wg : ∀ (k q : Fin 64), (V9 m ρ c main_v49 : Mat 64 64) (ix2 k q) = a15 m c (ix2 (Fin.natAdd 64 k) q)

/-! ## The contents at the boundaries, one after the other -/

section Chain
variable {m ρ c}
variable {AG : Mat 100000 64 → Mat 100000 64}

/-- After the first region: the first layer's hidden values. -/
theorem w2_H (s1 : Stage1 m ρ c AG) :
    W2 m ρ c (Proc.devRef .tc main_v15_0) = hidden (a0 m c) (AG (a0 m c)) (a3 m c) (vec (a4 m c)) := by
  refine (W2_arr m ρ c 4).trans ?_
  rw [(acc0 m ρ c).H, s1.x, s1.ag, s1.w, s1.b]

/-- … their column sums … -/
theorem w2_S (s1 : Stage1 m ρ c AG) :
    row (W2 m ρ c (Proc.devRef .tc main_v15_1)) = colSum (hidden (a0 m c) (AG (a0 m c)) (a3 m c) (vec (a4 m c))) := by
  rw [show W2 m ρ c (Proc.devRef .tc main_v15_1) = (dat0 (F := Ideal) (V1 m ρ) c).arrAt 5 cfg0.N from W2_arr m ρ c 5]
  rw [(acc0 m ρ c).S, s1.x, s1.ag, s1.w, s1.b]

/-- … and their column sums of squares. -/
theorem w2_Q (s1 : Stage1 m ρ c AG) :
    row (W2 m ρ c (Proc.devRef .tc main_v15_2)) = colSumSq (hidden (a0 m c) (AG (a0 m c)) (a3 m c) (vec (a4 m c))) := by
  rw [show W2 m ρ c (Proc.devRef .tc main_v15_2) = (dat0 (F := Ideal) (V1 m ρ) c).arrAt 6 cfg0.N from W2_arr m ρ c 6]
  rw [(acc0 m ρ c).Q, s1.x, s1.ag, s1.w, s1.b]

/-- After the second region: the first layer, rectified. -/
theorem w4_X (s1 : Stage1 m ρ c AG) (s3 : Stage3 m ρ c) :
    W4 m ρ c (Proc.devRef .tc main_v25) = relu zeroW (layer1 epsW zeroW cntW (a0 m c) (AG (a0 m c)) (a3 m c) (vec (a4 m c)) (vec (a5 m c)) (vec (a6 m c)) (a7 m c) (vec (a8 m c))) := by
  refine (W4_arr m ρ c 7).trans ?_
  rw [RegValue.arr1 (V3 m ρ) c, s3.h, s3.mean, s3.var, s3.g, s3.be, s3.w, s3.b, w2_H s1, w2_S s1, w2_Q s1]
  rfl

/-- After the third region: the second layer's hidden values, their column sums and column sums of squares. -/
theorem w6_H (s1 : Stage1 m ρ c AG) (s3 : Stage3 m ρ c) (s5 : Stage5 m ρ c AG) :
    W6 m ρ c (Proc.devRef .tc main_v37_0) = hidden (relu zeroW (layer1 epsW zeroW cntW (a0 m c) (AG (a0 m c)) (a3 m c) (vec (a4 m c)) (vec (a5 m c)) (vec (a6 m c)) (a7 m c) (vec (a8 m c)))) (AG (relu zeroW (layer1 epsW zeroW cntW (a0 m c) (AG (a0 m c)) (a3 m c) (vec (a4 m c)) (vec (a5 m c)) (vec (a6 m c)) (a7 m c) (vec (a8 m c))))) (a9 m c) (vec (a10 m c)) := by
  refine (W6_arr m ρ c 4).trans ?_
  rw [(acc2 m ρ c).H, s5.x, s5.ag, s5.w, s5.b, w4_X s1 s3]

theorem w6_S (s1 : Stage1 m ρ c AG) (s3 : Stage3 m ρ c) (s5 : Stage5 m ρ c AG) :
    row (W6 m ρ c (Proc.devRef .tc main_v37_1)) = colSum (hidden (relu zeroW (layer1 epsW zeroW cntW (a0 m c) (AG (a0 m c)) (a3 m c) (vec (a4 m c)) (vec (a5 m c)) (vec (a6 m c)) (a7 m c) (vec (a8 m c)))) (AG (relu zeroW (layer1 epsW zeroW cntW (a0 m c) (AG (a0 m c)) (a3 m c) (vec (a4 m c)) (vec (a5 m c)) (vec (a6 m c)) (a7 m c) (vec (a8 m c))))) (a9 m c) (vec (a10 m c))) := by
  rw [show W6 m ρ c (Proc.devRef .tc main_v37_1) = (dat2 (F := Ideal) (V5 m ρ) c).arrAt 5 cfg2.N from W6_arr m ρ c 5]
  rw [(acc2 m ρ c).S, s5.x, s5.ag, s5.w, s5.b, w4_X s1 s3]

theorem w6_Q (s1 : Stage1 m ρ c AG) (s3 : Stage3 m ρ c) (s5 : Stage5 m ρ c AG) :
    row (W6 m ρ c (Proc.devRef .tc main_v37_2)) = colSumSq (hidden (relu zeroW (layer1 epsW zeroW cntW (a0 m c) (AG (a0 m c)) (a3 m c) (vec (a4 m c)) (vec (a5 m c)) (vec (a6 m c)) (a7 m c) (vec (a8 m c)))) (AG (relu zeroW (layer1 epsW zeroW cntW (a0 m c) (AG (a0 m c)) (a3 m c) (vec (a4 m c)) (vec (a5 m c)) (vec (a6 m c)) (a7 m c) (vec (a8 m c))))) (a9 m c) (vec (a10 m c))) := by
  rw [show W6 m ρ c (Proc.devRef .tc main_v37_2) = (dat2 (F := Ideal) (V5 m ρ) c).arrAt 6 cfg2.N from W6_arr m ρ c 6]
  rw [(acc2 m ρ c).Q, s5.x, s5.ag, s5.w, s5.b, w4_X s1 s3]

/-- After the fourth region: the second layer. -/
theorem w8_Y (s1 : Stage1 m ρ c AG) (s3 : Stage3 m ρ c) (s5 : Stage5 m ρ c AG)
    (s7 : Stage7 m ρ c) :
    W8 m ρ c (Proc.devRef .tc main_v47) = layer1 epsW zeroW cntW (relu zeroW (layer1 epsW zeroW cntW (a0 m c) (AG (a0 m c)) (a3 m c) (vec (a4 m c)) (vec (a5 m c)) (vec (a6 m c)) (a7 m c) (vec (a8 m c)))) (AG (relu zeroW (layer1 epsW zeroW cntW (a0 m c) (AG (a0 m c)) (a3 m c) (vec (a4 m c)) (vec (a5 m c)) (vec (a6 m c)) (a7 m c) (vec (a8 m c))))) (a9 m c) (vec (a10 m c)) (vec (a11 m c)) (vec (a12 m c)) (a13 m c) (vec (a14 m c)) := by
  refine (W8_arr m ρ c 7).trans ?_
  rw [RegValue.arr3 (V7 m ρ) c, s7.h, s7.mean, s7.var, s7.g, s7.be, s7.w, s7.b, w6_H s1 s3 s5, w6_S s1 s3 s5,
    w6_Q s1 s3 s5]
  rfl

/-- THE RESULT: the closing step of the two layers. -/
theorem kernel_value (s1 : Stage1 m ρ c AG) (s3 : Stage3 m ρ c) (s5 : Stage5 m ρ c AG)
    (s7 : Stage7 m ρ c) (s9 : Stage9 m ρ c) :
    W10 m ρ c (Proc.devRef .tc main_v51)
      = fin (K := 64) (layer1 epsW zeroW cntW (relu zeroW (layer1 epsW zeroW cntW (a0 m c) (AG (a0 m c)) (a3 m c) (vec (a4 m c)) (vec (a5 m c)) (vec (a6 m c)) (a7 m c) (vec (a8 m c)))) (AG (relu zeroW (layer1 epsW zeroW cntW (a0 m c) (AG (a0 m c)) (a3 m c) (vec (a4 m c)) (vec (a5 m c)) (vec (a6 m c)) (a7 m c) (vec (a8 m c))))) (a9 m c) (vec (a10 m c)) (vec (a11 m c)) (vec (a12 m c)) (a13 m c) (vec (a14 m c))) (a2 m c) (a15 m c) (vec (a16 m c)) := by
  refine (W10_arr m ρ c 5).trans ?_
  rw [RegValue4.arr4 (V9 m ρ) c, s9.x, s9.g, s9.b, w8_Y s1 s3 s5 s7]
  exact fin2_eq_fin _ _ _ _ _ _ s9.wx s9.wg

end Chain

end Cert.KernelIdeal.KValue

end
-- ==== Proof.RefValue.lean ====
/-
  The reference program's result as the specification's term.

  The reference is a straight line of array operations: two graph-isomorphism layers and a closing linear map. Read
  entry by entry, a layer is
      H(r, j)   = Σ_k (agg(r,k) + X(r,k)) · W1(k, j) + b1(j),
      μ(j)      = (0 + Σ_r H(r, j)) / n,
      σ²(j)     = (0 + Σ_r (H(r, j) − μ(j))²) / n                       (the two-pass variance),
      Y(r, j)   = max (((H(r,j) − μ(j)) · rsqrt(σ²(j) + ε)) · g(j) + β(j)) 0,
      out(r, q) = Σ_j Y(r, j) · W2(j, q) + b2(q),
  where agg is the neighbour sum of X (kept as one opaque function of X and the edge list). Each vector (b1, μ, …) reaches
  the [rows, 64] arrays by being laid out as one row and that row repeated down the rows, so at entry (r, j) it reads its
  own entry j. A sum from the initial word 0 is the sum. Addition of extended reals commutes, which turns agg + X into
  X + agg. The second layer is the first layer's operations applied to the rectified output of the first and the second
  parameter set. The closing step lays the second layer's output and the pooled rows side by side, [rows, 64 + 64], and
  multiplies by a [64 + 64, 64] matrix: the sum over the 128 contracted positions splits into the first 64, which read the
  left block, and the last 64, which read the right block 64 columns further on.
-/
import proofs.«123288_j69320772157914_1_alg».proof.Proof.Gen.ReferenceIdeal.Read
import proofs.«123288_j69320772157914_1_alg».proof.Proof.Spec
import Idealize.ShloMosaic.Lib.Pipeline.Value

noncomputable section

namespace Cert.ReferenceIdeal.RefValue

open Cert.ReferenceIdeal Cert.ReferenceIdeal.Gen Cert.ReferenceIdeal.Read Cert.Gin
open Idealize.ShloMosaic Idealize.ShloMosaic.TcCoe Idealize.SL.Sem Idealize.ShloMosaic.StableHlo
open Idealize.ShloMosaic.ValueIdx
open scoped BigOperators

/-- A vector of 64 extended reals. -/
abbrev Vec64 : Type := FVec Ideal ⟨1, ![64]⟩ .f32
/-- The edge list's type. -/
abbrev Edges : Type := (⟨S2x1600000, .i32⟩ : BufTy).Contents (Elt Ideal)

/-! ## Indices: the positions a product and a column sum read -/

/-- Entry (p, q) of a product reads the left factor along row p … -/
theorem lidx15 (p : Fin 100000) (q k : Fin 64) : lidx_main_v15 (ix2 p q) k = ix2 p k :=
  funext fun a => Fin.ext (by match a with | ⟨0, _⟩ => rfl | ⟨1, _⟩ => rfl)
/-- … and the right factor down column q. -/
theorem ridx15 (p : Fin 100000) (q k : Fin 64) : ridx_main_v15 (ix2 p q) k = ix2 k q :=
  funext fun a => Fin.ext (by match a with | ⟨0, _⟩ => rfl | ⟨1, _⟩ => rfl)
theorem lidx45 (p : Fin 100000) (q k : Fin 64) : lidx_main_v45 (ix2 p q) k = ix2 p k :=
  funext fun a => Fin.ext (by match a with | ⟨0, _⟩ => rfl | ⟨1, _⟩ => rfl)
theorem ridx45 (p : Fin 100000) (q k : Fin 64) : ridx_main_v45 (ix2 p q) k = ix2 k q :=
  funext fun a => Fin.ext (by match a with | ⟨0, _⟩ => rfl | ⟨1, _⟩ => rfl)
/-- Entry j of a column sum reads column j, row by row. -/
theorem idx19 (j : Fin 64) (k : Fin 100000) : idx_main_v19 (ix1 j) k = ix2 k j :=
  funext fun a => Fin.ext (by match a with | ⟨0, _⟩ => rfl | ⟨1, _⟩ => rfl)
theorem idx26 (j : Fin 64) (k : Fin 100000) : idx_main_v26 (ix1 j) k = ix2 k j :=
  funext fun a => Fin.ext (by match a with | ⟨0, _⟩ => rfl | ⟨1, _⟩ => rfl)

theorem vec_apply (v : Vec64) (q : Fin 64) : vec v q = v (ix1 q) := rfl

/-! ## A vector repeated down the rows -/

/-- A vector laid out as one row and the row repeated down 100000 rows reads, at (p, q), its entry q. -/
theorem bias_apply (x : Vec64) (p : Fin 100000) (q : Fin 64) :
    val_main_v17 (F := Ideal) x (ix2 p q) = vec x q := by
  rewrite [val_main_v17_apply, val_main_v16_apply]
  exact congrArg x (funext fun a => Fin.ext (by match a with | ⟨0, _⟩ => rfl))

section Layer

variable (x0 : Mat 100000 64) (x1 : Edges) (x3 : Mat 64 64) (x4 x5 x6 : Vec64) (x7 : Mat 64 64) (x8 : Vec64)

/-! ## The hidden values -/

/-- The first linear map, entry by entry: the rows are agg + X, which is X + agg. -/
theorem v18_eq : val_main_v18 (F := Ideal) x0 x1 x3 x4 = Gin.hidden x0 (val_main_v13 (F := Ideal) x0 x1) x3 (vec x4) := by
  funext i
  obtain ⟨p, q, rfl⟩ : ∃ (p : Fin 100000) (q : Fin 64), i = ix2 p q := ⟨i 0, i 1, eq_ix2 i⟩
  rewrite [val_main_v18_apply, val_main_v15_apply, bias_apply]
  unfold Gin.hidden
  rewrite [lin_ix2]
  refine congrArg (· + vec x4 q) (Finset.sum_congr rfl fun k _ => ?_)
  rewrite [lidx15, ridx15, val_main_v14_apply]
  exact congrArg (· * x3 (ix2 k q)) (add_comm _ _)

/-! ## The column statistics -/

/-- The count word, repeated along a vector. -/
theorem cnt20 (j : S64.Idx) : val_main_v20 (F := Ideal) j = cntW := (val_main_v20_apply j).trans rfl
theorem cnt27 (j : S64.Idx) : val_main_v27 (F := Ideal) j = cntW := (val_main_v27_apply j).trans rfl
/-- The guard word, repeated along a vector. -/
theorem eps32 (j : S64.Idx) : val_main_v32 (F := Ideal) j = epsW := (val_main_v32_apply j).trans rfl
/-- The zero word, repeated over an array. -/
theorem zero_call0 (i : S100000x64.Idx) : val_main_call0_v0 (F := Ideal) i = zeroW := (val_main_call0_v0_apply i).trans rfl
theorem zero_call1 (i : S100000x64.Idx) : val_main_call1_v0 (F := Ideal) i = zeroW := (val_main_call1_v0_apply i).trans rfl

/-- A column sum from the initial word 0 is the column sum. -/
theorem v19_apply (j : Fin 64) :
    val_main_v19 (F := Ideal) x0 x1 x3 x4 (ix1 j) = colSum (val_main_v18 (F := Ideal) x0 x1 x3 x4) j := by
  rewrite [val_main_v19_apply]
  show Ideal.ofBits .f32 0x00000000#32 + _ = _
  rewrite [Ideal.ofBits_zero_f32, zero_add]
  exact Finset.sum_congr rfl fun k _ => congrArg _ (idx19 j k)

/-- The column mean. -/
theorem mean_eq (j : Fin 64) :
    val_main_v21 (F := Ideal) x0 x1 x3 x4 (ix1 j) = mean cntW (Gin.hidden x0 (val_main_v13 (F := Ideal) x0 x1) x3 (vec x4)) j := by
  rewrite [val_main_v21_apply, v19_apply, cnt20, v18_eq]
  rfl

/-- The mean laid out over the array (for the deviations that are squared) … -/
theorem v23_apply (p : Fin 100000) (q : Fin 64) :
    val_main_v23 (F := Ideal) x0 x1 x3 x4 (ix2 p q) = mean cntW (Gin.hidden x0 (val_main_v13 (F := Ideal) x0 x1) x3 (vec x4)) q :=
  (bias_apply (val_main_v21 (F := Ideal) x0 x1 x3 x4) p q).trans ((vec_apply _ q).trans (mean_eq x0 x1 x3 x4 q))
/-- … and once more (for the deviations that are normalised). -/
theorem v30_apply (p : Fin 100000) (q : Fin 64) :
    val_main_v30 (F := Ideal) x0 x1 x3 x4 (ix2 p q) = mean cntW (Gin.hidden x0 (val_main_v13 (F := Ideal) x0 x1) x3 (vec x4)) q :=
  (bias_apply (val_main_v21 (F := Ideal) x0 x1 x3 x4) p q).trans ((vec_apply _ q).trans (mean_eq x0 x1 x3 x4 q))

/-- The sum of the squared deviations down a column, from the initial word 0. -/
theorem v26_apply (j : Fin 64) :
    val_main_v26 (F := Ideal) x0 x1 x3 x4 (ix1 j) = ∑ r : Fin 100000, val_main_v25 (F := Ideal) x0 x1 x3 x4 (ix2 r j) := by
  rewrite [val_main_v26_apply]
  show Ideal.ofBits .f32 0x00000000#32 + _ = _
  rewrite [Ideal.ofBits_zero_f32, zero_add]
  exact Finset.sum_congr rfl fun k _ => congrArg _ (idx26 j k)

/-- The two-pass variance. -/
theorem var_eq (j : Fin 64) :
    val_main_v28 (F := Ideal) x0 x1 x3 x4 (ix1 j) = var2 cntW (Gin.hidden x0 (val_main_v13 (F := Ideal) x0 x1) x3 (vec x4)) j := by
  rewrite [val_main_v28_apply, v26_apply, cnt27]
  unfold var2
  refine congrArg (fun s => Ideal.div s cntW) (Finset.sum_congr rfl fun r _ => ?_)
  rewrite [val_main_v25_apply, val_main_v24_apply, v23_apply, v18_eq]
  rfl

/-- The normalising factor rsqrt(σ² + ε), laid out over the array. -/
theorem v36_apply (p : Fin 100000) (q : Fin 64) :
    val_main_v36 (F := Ideal) x0 x1 x3 x4 (ix2 p q)
      = Ideal.rsqrt (var2 cntW (Gin.hidden x0 (val_main_v13 (F := Ideal) x0 x1) x3 (vec x4)) q + epsW) := by
  refine (bias_apply (val_main_v34 (F := Ideal) x0 x1 x3 x4) p q).trans ((vec_apply _ q).trans ?_)
  rewrite [val_main_v34_apply, val_main_v33_apply, var_eq, eps32]
  rfl

/-! ## Normalise, scale, shift, rectify -/

theorem v44_apply (p : Fin 100000) (q : Fin 64) :
    val_main_v44 (F := Ideal) x0 x1 x3 x4 x5 x6 (ix2 p q)
      = bnRelu epsW zeroW (Gin.hidden x0 (val_main_v13 (F := Ideal) x0 x1) x3 (vec x4))
          (mean cntW (Gin.hidden x0 (val_main_v13 (F := Ideal) x0 x1) x3 (vec x4)))
          (var2 cntW (Gin.hidden x0 (val_main_v13 (F := Ideal) x0 x1) x3 (vec x4))) (vec x5) (vec x6) (ix2 p q) := by
  rewrite [bnRelu_ix2, val_main_v44_apply, val_main_v43_apply, val_main_v40_apply, val_main_v37_apply, val_main_v31_apply,
    v30_apply, v36_apply, zero_call0, v18_eq]
  rewrite [show val_main_v39 (F := Ideal) x5 (ix2 p q) = vec x5 q from bias_apply x5 p q,
    show val_main_v42 (F := Ideal) x6 (ix2 p q) = vec x6 q from bias_apply x6 p q]
  rfl

/-! ## The layer -/

/-- The first layer's output is the specification's layer, with the two-pass variance. -/
theorem layer_eq :
    val_main_v48 (F := Ideal) x0 x1 x3 x4 x5 x6 x7 x8
      = layer2 epsW zeroW cntW x0 (val_main_v13 (F := Ideal) x0 x1) x3 (vec x4) (vec x5) (vec x6) x7 (vec x8) := by
  funext i
  obtain ⟨p, q, rfl⟩ : ∃ (p : Fin 100000) (q : Fin 64), i = ix2 p q := ⟨i 0, i 1, eq_ix2 i⟩
  unfold layer2 tail
  rewrite [lin_ix2, val_main_v48_apply, val_main_v45_apply,
    show val_main_v47 (F := Ideal) x8 (ix2 p q) = vec x8 q from bias_apply x8 p q]
  refine congrArg (· + vec x8 q) (Finset.sum_congr rfl fun k _ => ?_)
  rewrite [lidx45, ridx45, v44_apply]
  rfl

/-- The rectifier between the layers. -/
theorem v49_eq :
    val_main_v49 (F := Ideal) x0 x1 x3 x4 x5 x6 x7 x8 = relu zeroW (val_main_v48 (F := Ideal) x0 x1 x3 x4 x5 x6 x7 x8) := by
  funext i
  rewrite [val_main_v49_apply, zero_call1]
  rfl

end Layer

/-! ## The second layer -/

/-- The second layer's operations are the first layer's, applied to the first layer's rectified output and to the
    second parameter set: the two terms are one composition of the same operations. -/
theorem v94_eq (x0 : Mat 100000 64) (x1 : Edges) (x3 : Mat 64 64) (x4 x5 x6 : Vec64) (x7 : Mat 64 64) (x8 : Vec64)
    (x9 : Mat 64 64) (x10 x11 x12 : Vec64) (x13 : Mat 64 64) (x14 : Vec64) :
    val_main_v94 (F := Ideal) x0 x1 x3 x4 x5 x6 x7 x8 x9 x10 x11 x12 x13 x14
      = val_main_v48 (F := Ideal) (val_main_v49 (F := Ideal) x0 x1 x3 x4 x5 x6 x7 x8) x1 x9 x10 x11 x12 x13 x14 := rfl

/-! ## The closing step -/

theorem lidx96 (p : Fin 100000) (q : Fin 64) (k : Fin 128) : lidx_main_v96 (ix2 p q) k = ix2 p k :=
  funext fun a => Fin.ext (by match a with | ⟨0, _⟩ => rfl | ⟨1, _⟩ => rfl)
theorem ridx96 (p : Fin 100000) (q : Fin 64) (k : Fin 128) : ridx_main_v96 (ix2 p q) k = ix2 k q :=
  funext fun a => Fin.ext (by match a with | ⟨0, _⟩ => rfl | ⟨1, _⟩ => rfl)

/-- Two [100000, 64] arrays side by side read, in the first 64 columns, the left one … -/
theorem cat_left (y x2 : Mat 100000 64) (p : Fin 100000) (k : Fin 64) :
    concatenate S100000x128 1 [⟨S100000x64, y⟩, ⟨S100000x64, x2⟩] concatenates_S100000x64_S100000x64_S100000x128_d1
        (ix2 p (Fin.castAdd 64 k)) = y (ix2 p k) :=
  concatenate_pair_apply_left (t := S100000x128) 1 y x2 concatenates_S100000x64_S100000x64_S100000x128_d1 _ rfl (ix2 p k)
    (fun b => by match b with | ⟨0, _⟩ => rfl | ⟨1, _⟩ => rfl)

/-- … and in the last 64 columns the right one, 64 columns back. -/
theorem cat_right (y x2 : Mat 100000 64) (p : Fin 100000) (k : Fin 64) :
    concatenate S100000x128 1 [⟨S100000x64, y⟩, ⟨S100000x64, x2⟩] concatenates_S100000x64_S100000x64_S100000x128_d1
        (ix2 p (Fin.natAdd 64 k)) = x2 (ix2 p k) :=
  concatenate_pair_apply_right (t := S100000x128) 1 y x2 concatenates_S100000x64_S100000x64_S100000x128_d1 _ rfl rfl (ix2 p k)
    (fun b hb => by match b with | ⟨0, _⟩ => rfl | ⟨1, _⟩ => exact absurd rfl hb)
    (by show k.val + 64 = 64 + k.val; omega)

/-- The closing linear map: the sum over the 128 contracted positions is the sum over the first 64, reading the second
    layer's output, plus the sum over the last 64, reading the pooled rows. -/
theorem v99_eq (x0 : Mat 100000 64) (x1 : Edges) (x2 : Mat 100000 64) (x3 : Mat 64 64) (x4 x5 x6 : Vec64) (x7 : Mat 64 64)
    (x8 : Vec64) (x9 : Mat 64 64) (x10 x11 x12 : Vec64) (x13 : Mat 64 64) (x14 : Vec64) (x15 : Mat 128 64) (x16 : Vec64) :
    val_main_v99 (F := Ideal) x0 x1 x2 x3 x4 x5 x6 x7 x8 x9 x10 x11 x12 x13 x14 x15 x16
      = fin (K := 64) (val_main_v94 (F := Ideal) x0 x1 x3 x4 x5 x6 x7 x8 x9 x10 x11 x12 x13 x14) x2 x15 (vec x16) := by
  funext i
  obtain ⟨p, q, rfl⟩ : ∃ (p : Fin 100000) (q : Fin 64), i = ix2 p q := ⟨i 0, i 1, eq_ix2 i⟩
  rewrite [fin_ix2, val_main_v99_apply, val_main_v96_apply,
    show val_main_v98 (F := Ideal) x16 (ix2 p q) = vec x16 q from bias_apply x16 p q]
  refine congrArg (· + vec x16 q) ?_
  refine (Fin.sum_univ_add (a := 64) (b := 64) fun k : Fin (64 + 64) =>
    val_main_v95 (F := Ideal) x0 x1 x2 x3 x4 x5 x6 x7 x8 x9 x10 x11 x12 x13 x14 (lidx_main_v96 (ix2 p q) k)
      * x15 (ridx_main_v96 (ix2 p q) k)).trans ?_
  refine congrArg₂ (· + ·) (Finset.sum_congr rfl fun k _ => ?_) (Finset.sum_congr rfl fun k _ => ?_)
  · rewrite [lidx96, ridx96]
    exact congrArg (· * x15 (ix2 (Fin.castAdd 64 k) q)) (cat_left _ x2 p k)
  · rewrite [lidx96, ridx96]
    exact congrArg (· * x15 (ix2 (Fin.natAdd 64 k) q)) (cat_right _ x2 p k)

/-! ## The reference's result -/

/-- The value the reference leaves in its result: the closing map of the second layer's output and the pooled rows, the
    second layer fed the rectified first layer and that array's neighbour sums. -/
theorem ref_value (m : (ℓ : Loc nD τ sig) → Buf (Elt Ideal) ℓ) (c : Dev nD) :
    Cert.ReferenceIdeal.Value.res_main_v99 (F := Ideal) m c
      = fin (K := 64)
          (layer2 epsW zeroW cntW
            (relu zeroW (layer2 epsW zeroW cntW (m ((c.tc : Thread nD τ).loc main_arg0))
              (val_main_v13 (F := Ideal) (m ((c.tc : Thread nD τ).loc main_arg0)) (m ((c.tc : Thread nD τ).loc main_arg1)))
              (m ((c.tc : Thread nD τ).loc main_arg3)) (vec (m ((c.tc : Thread nD τ).loc main_arg4)))
              (vec (m ((c.tc : Thread nD τ).loc main_arg5))) (vec (m ((c.tc : Thread nD τ).loc main_arg6)))
              (m ((c.tc : Thread nD τ).loc main_arg7)) (vec (m ((c.tc : Thread nD τ).loc main_arg8)))))
            (val_main_v13 (F := Ideal)
              (relu zeroW (layer2 epsW zeroW cntW (m ((c.tc : Thread nD τ).loc main_arg0))
                (val_main_v13 (F := Ideal) (m ((c.tc : Thread nD τ).loc main_arg0)) (m ((c.tc : Thread nD τ).loc main_arg1)))
                (m ((c.tc : Thread nD τ).loc main_arg3)) (vec (m ((c.tc : Thread nD τ).loc main_arg4)))
                (vec (m ((c.tc : Thread nD τ).loc main_arg5))) (vec (m ((c.tc : Thread nD τ).loc main_arg6)))
                (m ((c.tc : Thread nD τ).loc main_arg7)) (vec (m ((c.tc : Thread nD τ).loc main_arg8)))))
              (m ((c.tc : Thread nD τ).loc main_arg1)))
            (m ((c.tc : Thread nD τ).loc main_arg9)) (vec (m ((c.tc : Thread nD τ).loc main_arg10)))
            (vec (m ((c.tc : Thread nD τ).loc main_arg11))) (vec (m ((c.tc : Thread nD τ).loc main_arg12)))
            (m ((c.tc : Thread nD τ).loc main_arg13)) (vec (m ((c.tc : Thread nD τ).loc main_arg14))))
          (m ((c.tc : Thread nD τ).loc main_arg2)) (m ((c.tc : Thread nD τ).loc main_arg15))
          (vec (m ((c.tc : Thread nD τ).loc main_arg16))) := by
  rewrite [val_main_v99_eq, v99_eq, v94_eq, layer_eq, v49_eq, layer_eq]
  rfl

end Cert.ReferenceIdeal.RefValue

end
-- ==== Proof.LibERealSum.lean ====
/-
  Finite sums of products on the extended reals, when every entry is a real number.

  The coercion of ℝ into the extended reals commutes with finite sums (by induction on the index set: it commutes with the
  sum of two reals and sends 0 to 0), and with products. So an identity between finite sums of products of reals holds on
  the extended reals as soon as every entry involved is the image of a real: a common real factor q of the second operands
  moves out of the sum, Σ_k a_k · (b_k · q) = q · Σ_k a_k · b_k. Without that hypothesis the identity fails: with q = ⊤, one
  b_k · a_k positive and another negative, the left side adds ⊤ and ⊥ while the right side multiplies ⊤ by a real.
-/
import Idealize.ShloMosaic.PureOps.Ideal

open scoped BigOperators

namespace Idealize.ShloMosaic.ERealSum

/-- The coercion of the reals into the extended reals commutes with finite sums. -/
theorem coe_finset_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- A common real factor of the second operands moves out of a finite sum of products of reals. -/
theorem sum_mul_scaled {ι : Type*} [Fintype ι] (a b : ι → EReal) (q : EReal)
    (ha : ∀ k, ∃ r : ℝ, a k = r) (hb : ∀ k, ∃ r : ℝ, b k = r) (hq : ∃ r : ℝ, q = r) :
    ∑ k, a k * (b k * q) = q * ∑ k, a k * b k := by
  choose a' ha using ha
  choose b' hb using hb
  obtain ⟨q', rfl⟩ := hq
  simp only [ha, hb, ← EReal.coe_mul, ← coe_finset_sum]
  congr 1
  rw [Finset.mul_sum]
  exact Finset.sum_congr rfl fun k _ => by ring

end Idealize.ShloMosaic.ERealSum
-- ==== Proof.LibLeadingAxis.lean ====
/-
  Gather and accumulating scatter along the LEADING axis, read at coordinates (any extents).

  A start index is one scalar per update row: the indices are an array [E, 1] whose second axis is the index vector.
  * gather of a vector [N] (result [E]) and of the rows of a matrix [N, C] (result [E, C]): entry e (or (e, f)) is the
    operand at row clampRow (idx (e, 0)) (and column f): the start read signed and clamped into [0, N-1];
  * scatter-add into a vector [N] from updates [E], and into a matrix [N, C] from update rows [E, C], at the ideal
    instance: entry n (or (n, f)) is the operand's entry plus the sum over e of the updates whose start index, read
    signed and NOT clamped, is exactly n; an update whose index is outside [0, N) adds nothing.
-/
import Idealize.ShloMosaic.Lib.ValueIdx
import Idealize.ShloMosaic.PureOps.Ideal.Laws

noncomputable section

namespace Idealize.ShloMosaic.LeadingAxis

open Idealize.ShloMosaic Idealize.ShloMosaic.ValueIdx

/-- The row a start index names for a gather: read as a signed integer and clamped into [0, N-1]. -/
def clampRow (N : Nat) (hN : 0 < N) {w : Nat} (b : BitVec w) : Fin N := ⟨min b.toInt.toNat (N - 1), by omega⟩

/-- A sum over the index set of a rank-1 shape is the sum over its one coordinate. -/
theorem sum_idx1 {M : Type*} [AddCommMonoid M] {n : Nat} (g : (⟨1, ![n]⟩ : Shape).Idx → M) :
    ∑ i, g i = ∑ a : Fin n, g (ix1 a) := by
  refine Fintype.sum_equiv ⟨fun i => i 0, fun a => ix1 a, fun i => (eq_ix1 i).symm, fun _ => rfl⟩ _ _ (fun i => ?_)
  exact congrArg g (eq_ix1 i)

/-! ## Gather -/

section Gather
variable {α : Type}

/-- x[idx] for a vector x : [N] and indices [E, 1]. -/
abbrev vecGatherDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

theorem gather_vec_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e) = x (ix1 (clampRow N hN (idx (ix2 e 0)))) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- x[idx] for the rows of a matrix x : [N, C] and indices [E, 1]. -/
abbrev rowGatherDims (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

theorem rowg_start0 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (0 : Fin 2) = min (idx (ix2 e 0)).toInt.toNat (N - 1) := by
  unfold GatherDims.start
  rw [dif_pos (show (0 : Fin 2) ∈ (rowGatherDims N C E wf).startIndexMap from List.mem_singleton.mpr rfl)]
  have hsi : (rowGatherDims N C E wf).siIdx (ix2 e f) ⟨List.idxOf (0 : Fin 2) (rowGatherDims N C E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

theorem rowg_start1 {N C E w : Nat}
    (wf : GatherDims.WF ⟨2, ![N, C]⟩ ⟨2, ![E, 1]⟩ ⟨2, ![E, C]⟩ [1] [0] [] [0] [] 1 ![1, C])
    (idx : IVec ⟨2, ![E, 1]⟩ w) (e : Fin E) (f : Fin C) :
    (rowGatherDims N C E wf).start (ix2 e f) idx (1 : Fin 2) = 0 := by
  unfold GatherDims.start
  rw [dif_neg (show (1 : Fin 2) ∉ (rowGatherDims N C E wf).startIndexMap from by
    intro h; exact absurd (List.mem_singleton.mp h) (by simp))]

theorem rowg_off0 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (0 : Fin 2) = 0 :=
  GatherDims.offCoord_eq_zero _ _ _ (fun h => ((GatherDims.mem_sKept _ _).mp h).1 (List.mem_singleton.mpr rfl))

theorem rowg_off1 {N C E : Nat}
    (wf : GatherDims.WF ⟨2, ![N, C]⟩ ⟨2, ![E, 1]⟩ ⟨2, ![E, C]⟩ [1] [0] [] [0] [] 1 ![1, C])
    (e : Fin E) (f : Fin C) : (rowGatherDims N C E wf).offCoord (ix2 e f) (1 : Fin 2) = f.val := by
  unfold GatherDims.offCoord
  rw [dif_pos ((GatherDims.mem_sKept _ _).mpr ⟨fun h => absurd (List.mem_singleton.mp h) (by simp), List.not_mem_nil⟩)]
  rfl

theorem gather_rows_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (f : Fin C) :
    Host.gather (rowGatherDims N C E wf) x idx (ix2 e f) = x (ix2 (clampRow N hN (idx (ix2 e 0))) f) := by
  unfold Host.gather
  congr 1
  funext a
  refine Fin.ext ?_
  match a with
  | ⟨0, _⟩ =>
    show (rowGatherDims N C E wf).start (ix2 e f) idx (0 : Fin 2) + (rowGatherDims N C E wf).batchCoord (ix2 e f) (0 : Fin 2)
      + (rowGatherDims N C E wf).offCoord (ix2 e f) (0 : Fin 2) = min (idx (ix2 e 0)).toInt.toNat (N - 1)
    rw [GatherDims.batchCoord_eq_zero _ _ _ List.not_mem_nil, rowg_start0, rowg_off0, Nat.add_zero]
  | ⟨1, _⟩ =>
    show (rowGatherDims N C E wf).start (ix2 e f) idx (1 : Fin 2) + (rowGatherDims N C E wf).batchCoord (ix2 e f) (1 : Fin 2)
      + (rowGatherDims N C E wf).offCoord (ix2 e f) (1 : Fin 2) = f.val
    rw [GatherDims.batchCoord_eq_zero _ _ _ List.not_mem_nil, rowg_start1, rowg_off1, Nat.add_zero, Nat.zero_add]

end Gather

/-! ## Scatter-add at the ideal instance -/

section Scatter
variable {φ : FTy}

/-- zeros[N].at[idx].add(upd) for updates [E] and indices [E, 1]. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

theorem vec_start {N E w : Nat} (wf : ScatterDims.WF ⟨1, ![N]⟩ ⟨2, ![E, 1]⟩ ⟨1, ![E]⟩ [] [0] [0] 1)
    (idx : IVec ⟨2, ![E, 1]⟩ w) (e : Fin E) :
    (vecScatterDims N E wf).start (ix1 e) idx (0 : Fin 1) = (idx (ix2 e 0)).toInt := by
  unfold ScatterDims.start
  rw [dif_pos (show (0 : Fin 1) ∈ (vecScatterDims N E wf).scatterDimsToOperandDims from List.mem_singleton.mpr rfl)]
  have hsi : (vecScatterDims N E wf).siIdx (ix1 e) ⟨List.idxOf (0 : Fin 1) (vecScatterDims N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem vec_window {N E : Nat} (wf : ScatterDims.WF ⟨1, ![N]⟩ ⟨2, ![E, 1]⟩ ⟨1, ![E]⟩ [] [0] [0] 1) (e : Fin E) :
    (vecScatterDims N E wf).window (ix1 e) (0 : Fin 1) = 0 := by
  unfold ScatterDims.window
  rw [dif_neg (show (0 : Fin 1) ∉ (vecScatterDims N E wf).sKept from fun h =>
    (List.mem_filter.mp h).2 |> fun h2 => by simp at h2)]

/-- Update e lands on entry n exactly when its start index, read signed, is n. -/
theorem vec_lands_iff {N E w : Nat} (wf : ScatterDims.WF ⟨1, ![N]⟩ ⟨2, ![E, 1]⟩ ⟨1, ![E]⟩ [] [0] [0] 1)
    (idx : IVec ⟨2, ![E, 1]⟩ w) (e : Fin E) (n : Fin N) :
    (vecScatterDims N E wf).resultIdx? (ix1 e) idx = some (ix1 n) ↔ (idx (ix2 e 0)).toInt = (n.val : Int) := by
  unfold ScatterDims.resultIdx?
  split
  · rename_i h
    rw [Option.some.injEq]
    constructor
    · intro heq
      have h0 := congrArg (fun (i : (⟨1, ![N]⟩ : Shape).Idx) => (i 0).val) heq
      simp only [vec_start, vec_window] at h0
      have := (h 0).1
      rw [vec_start, vec_window] at this
      show (idx (ix2 e 0)).toInt = ((n.val : Nat) : Int)
      have hn : ((ix1 n : (⟨1, ![N]⟩ : Shape).Idx) 0).val = n.val := rfl
      omega
    · intro ht
      funext a
      obtain rfl : a = 0 := Subsingleton.elim _ _
      refine Fin.ext ?_
      show ((vecScatterDims N E wf).start (ix1 e) idx 0 + ((vecScatterDims N E wf).window (ix1 e) 0 : Nat)).toNat = n.val
      rw [vec_start, vec_window, ht]
      simp
  · rename_i h
    constructor
    · intro heq; exact absurd heq (by simp)
    · intro ht
      refine absurd (fun a => ?_) h
      obtain rfl : a = 0 := Subsingleton.elim _ _
      rw [vec_start, vec_window, ht]
      have : n.val < N := n.isLt
      constructor
      · simp
      · show ((n.val : Int) + ((0 : Nat) : Int)) < ((N : Nat) : Int)
        omega

theorem scatterAdd_vec_apply {N E w : Nat} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatterDims N E wf) x idx upd (ix1 n)
      = x (ix1 n) + ∑ e : Fin E, if (idx (ix2 e 0)).toInt = (n.val : Int) then upd (ix1 e) else 0 := by
  show Ideal.hostScatterAdd (vecScatterDims N E wf) x idx upd (ix1 n) = _
  unfold Ideal.hostScatterAdd
  congr 1
  rw [Finset.sum_filter, sum_idx1]
  refine Finset.sum_congr rfl (fun e _ => ?_)
  simp only [vec_lands_iff]

/-- zeros[N, C].at[idx].add(upd) for update rows [E, C] and indices [E, 1]. -/
abbrev rowScatterDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

theorem row_start0 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (0 : Fin 2) = (idx (ix2 e 0)).toInt := by
  unfold ScatterDims.start
  rw [dif_pos (show (0 : Fin 2) ∈ (rowScatterDims N C E wf).scatterDimsToOperandDims from List.mem_singleton.mpr rfl)]
  have hsi : (rowScatterDims N C E wf).siIdx (ix2 e f) ⟨List.idxOf (0 : Fin 2) (rowScatterDims N C E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

theorem row_start1 {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) :
    (rowScatterDims N C E wf).start (ix2 e f) idx (1 : Fin 2) = 0 := by
  unfold ScatterDims.start
  rw [dif_neg (show (1 : Fin 2) ∉ (rowScatterDims N C E wf).scatterDimsToOperandDims from fun h =>
    absurd (List.mem_singleton.mp h) (by simp))]

theorem row_window0 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (0 : Fin 2) = 0 := by
  unfold ScatterDims.window
  rw [dif_neg (show (0 : Fin 2) ∉ (rowScatterDims N C E wf).sKept from fun h =>
    (List.mem_filter.mp h).2 |> fun h2 => by simp at h2)]

theorem row_window1 {N C E : Nat} (wf : ScatterDims.WF ⟨2, ![N, C]⟩ ⟨2, ![E, 1]⟩ ⟨2, ![E, C]⟩ [1] [0] [0] 1)
    (e : Fin E) (f : Fin C) : (rowScatterDims N C E wf).window (ix2 e f) (1 : Fin 2) = f.val := by
  unfold ScatterDims.window
  rw [dif_pos (show (1 : Fin 2) ∈ (rowScatterDims N C E wf).sKept from
    List.mem_filter.mpr ⟨List.mem_finRange _, by simp⟩)]
  rfl

/-- Update (e, f') lands on entry (n, f) exactly when row e's start index, read signed, is n, and f' = f. -/
theorem row_lands_iff {N C E w : Nat} (wf : ScatterDims.WF ⟨2, ![N, C]⟩ ⟨2, ![E, 1]⟩ ⟨2, ![E, C]⟩ [1] [0] [0] 1)
    (idx : IVec ⟨2, ![E, 1]⟩ w) (e : Fin E) (f' : Fin C) (n : Fin N) (f : Fin C) :
    (rowScatterDims N C E wf).resultIdx? (ix2 e f') idx = some (ix2 n f)
      ↔ (idx (ix2 e 0)).toInt = (n.val : Int) ∧ f' = f := by
  unfold ScatterDims.resultIdx?
  split
  · rename_i h
    rw [Option.some.injEq]
    constructor
    · intro heq
      have h0 := congrArg (fun (i : (⟨2, ![N, C]⟩ : Shape).Idx) => (i 0).val) heq
      have h1 := congrArg (fun (i : (⟨2, ![N, C]⟩ : Shape).Idx) => (i 1).val) heq
      simp only [row_start0, row_window0, row_start1, row_window1] at h0 h1
      have hp := (h 0).1
      rw [row_start0, row_window0] at hp
      have hn : ((ix2 n f : (⟨2, ![N, C]⟩ : Shape).Idx) 0).val = n.val := rfl
      have hf : ((ix2 n f : (⟨2, ![N, C]⟩ : Shape).Idx) 1).val = f.val := rfl
      refine ⟨?_, Fin.ext ?_⟩
      · show (idx (ix2 e 0)).toInt = ((n.val : Nat) : Int)
        omega
      · omega
    · rintro ⟨ht, rfl⟩
      funext a
      refine Fin.ext ?_
      match a with
      | ⟨0, _⟩ =>
        show ((rowScatterDims N C E wf).start (ix2 e f') idx 0 + ((rowScatterDims N C E wf).window (ix2 e f') 0 : Nat)).toNat = n.val
        rw [row_start0, row_window0, ht]; simp
      | ⟨1, _⟩ =>
        show ((rowScatterDims N C E wf).start (ix2 e f') idx 1 + ((rowScatterDims N C E wf).window (ix2 e f') 1 : Nat)).toNat = f'.val
        rw [row_start1, row_window1]; simp
  · rename_i h
    constructor
    · intro heq; exact absurd heq (by simp)
    · rintro ⟨ht, rfl⟩
      refine absurd (fun a => ?_) h
      match a with
      | ⟨0, _⟩ =>
        show 0 ≤ (rowScatterDims N C E wf).start (ix2 e f') idx 0 + ((rowScatterDims N C E wf).window (ix2 e f') 0 : Nat)
          ∧ (rowScatterDims N C E wf).start (ix2 e f') idx 0 + ((rowScatterDims N C E wf).window (ix2 e f') 0 : Nat) < ((N : Nat) : Int)
        rw [row_start0, row_window0, ht]
        have : n.val < N := n.isLt
        constructor <;> simp <;> omega
      | ⟨1, _⟩ =>
        show 0 ≤ (rowScatterDims N C E wf).start (ix2 e f') idx 1 + ((rowScatterDims N C E wf).window (ix2 e f') 1 : Nat)
          ∧ (rowScatterDims N C E wf).start (ix2 e f') idx 1 + ((rowScatterDims N C E wf).window (ix2 e f') 1 : Nat) < ((C : Nat) : Int)
        rw [row_start1, row_window1]
        have : f'.val < C := f'.isLt
        constructor <;> simp <;> omega

theorem scatterAdd_rows_apply {N C E w : Nat} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (n : Fin N) (f : Fin C) :
    Host.scatterAdd (rowScatterDims N C E wf) x idx upd (ix2 n f)
      = x (ix2 n f) + ∑ e : Fin E, if (idx (ix2 e 0)).toInt = (n.val : Int) then upd (ix2 e f) else 0 := by
  show Ideal.hostScatterAdd (rowScatterDims N C E wf) x idx upd (ix2 n f) = _
  unfold Ideal.hostScatterAdd
  congr 1
  rw [Finset.sum_filter, sum_idx2]
  refine Finset.sum_congr rfl (fun e _ => ?_)
  simp only [row_lands_iff]
  by_cases ht : (idx (ix2 e 0)).toInt = (n.val : Int)
  · simp only [ht, true_and, if_true]
    rw [Finset.sum_ite_eq' Finset.univ f (fun f' => upd (ix2 e f'))]
    simp
  · simp only [ht, false_and, if_false, Finset.sum_const_zero]

end Scatter

end Idealize.ShloMosaic.LeadingAxis

end
-- ==== Proof.Reals.lean ====
/-
  Real entries stay real through a layer.

  Every step of the computation — entrywise sums, rows times weights plus a bias, column means and variances over a
  nonzero real count, the normalisation by the reciprocal square root of a nonnegative variance plus a positive guard,
  the rectifier, and the sum of gathered neighbour rows — is built from sums, differences, products, maxima and finite
  sums, and each of these sends images of real numbers to images of real numbers. The reciprocal square root is the one
  step with corners (⊥ below zero, ⊤ at zero): a nonnegative variance plus a positive guard is positive, away from both.
-/
import proofs.«123288_j69320772157914_1_alg».proof.Proof.Spec
import proofs.«123288_j69320772157914_1_alg».proof.Proof.LibERealSum
import proofs.«123288_j69320772157914_1_alg».proof.Proof.LibLeadingAxis
import Mathlib.Tactic

noncomputable section

namespace Cert.Gin

open Idealize.ShloMosaic Idealize.ShloMosaic.ValueIdx
open scoped BigOperators

variable {A K C M : Nat}

/-- Every entry of a family of extended reals is the image of a real number. -/
def IsReal {ι : Type*} (f : ι → EReal) : Prop := ∀ i, ∃ r : ℝ, f i = (r : EReal)

/-! ## The arithmetic of real entries: sums, differences, products, maxima and finite sums of reals are reals -/

theorem real_add {a b : EReal} (ha : ∃ r : ℝ, a = r) (hb : ∃ r : ℝ, b = r) : ∃ r : ℝ, a + b = r := by
  obtain ⟨r, rfl⟩ := ha; obtain ⟨s, rfl⟩ := hb; exact ⟨r + s, (EReal.coe_add r s).symm⟩

theorem real_sub {a b : EReal} (ha : ∃ r : ℝ, a = r) (hb : ∃ r : ℝ, b = r) : ∃ r : ℝ, a - b = r := by
  obtain ⟨r, rfl⟩ := ha; obtain ⟨s, rfl⟩ := hb; exact ⟨r - s, (EReal.coe_sub r s).symm⟩

theorem real_mul {a b : EReal} (ha : ∃ r : ℝ, a = r) (hb : ∃ r : ℝ, b = r) : ∃ r : ℝ, a * b = r := by
  obtain ⟨r, rfl⟩ := ha; obtain ⟨s, rfl⟩ := hb; exact ⟨r * s, (EReal.coe_mul r s).symm⟩

theorem real_max {a b : EReal} (ha : ∃ r : ℝ, a = r) (hb : ∃ r : ℝ, b = r) : ∃ r : ℝ, max a b = r := by
  rcases le_total a b with h | h
  · rw [max_eq_right h]; exact hb
  · rw [max_eq_left h]; exact ha

theorem real_sum {ι : Type*} [Fintype ι] {f : ι → EReal} (hf : ∀ k, ∃ r : ℝ, f k = r) : ∃ r : ℝ, ∑ k, f k = r := by
  choose g hg using hf
  exact ⟨∑ k, g k, by rw [ERealSum.coe_finset_sum]; exact Finset.sum_congr rfl fun k _ => hg k⟩

/-- A real over a nonzero real count is a real. -/
theorem real_div {a cnt : EReal} {n : ℝ} (ha : ∃ r : ℝ, a = r) (hcnt : cnt = (n : EReal)) (hn : n ≠ 0) :
    ∃ r : ℝ, Ideal.div a cnt = r := by
  rw [hcnt, Ideal.div_coe hn]; exact real_mul ha ⟨1 / n, rfl⟩

/-! ## (R1) sums of arrays and linear maps -/

theorem add2_real {X Y : Mat A K} (hX : IsReal X) (hY : IsReal Y) : IsReal (add2 X Y) :=
  fun i => real_add (hX i) (hY i)

theorem lin_real {X : Mat A K} {W : Mat K M} {b : Fin M → EReal} (hX : IsReal X) (hW : IsReal W) (hb : IsReal b) :
    IsReal (lin X W b) := by
  intro i
  obtain ⟨p, q, rfl⟩ : ∃ (p : Fin A) (q : Fin M), i = ix2 p q := ⟨_, _, eq_ix2 i⟩
  rw [lin_ix2]
  exact real_add (real_sum fun k => real_mul (hX _) (hW _)) (hb q)

/-! ## (R2) the column statistics -/

theorem colSum_real {H : Mat A C} (hH : IsReal H) (j : Fin C) : ∃ r : ℝ, colSum H j = r :=
  real_sum fun r => hH _

theorem mean_real {cnt : EReal} {n : ℝ} {H : Mat A C} (hH : IsReal H) (hcnt : cnt = ((n : ℝ) : EReal)) (hn : n ≠ 0) :
    IsReal (mean cnt H) :=
  fun j => real_div (colSum_real hH j) hcnt hn

theorem var2_real {cnt : EReal} {n : ℝ} {H : Mat A C} (hH : IsReal H) (hcnt : cnt = ((n : ℝ) : EReal)) (hn : n ≠ 0) :
    IsReal (var2 cnt H) :=
  fun j => real_div (real_sum fun r => real_mul (real_sub (hH _) (mean_real hH hcnt hn j))
    (real_sub (hH _) (mean_real hH hcnt hn j))) hcnt hn

/-- The two-pass variance of real entries over a positive count is a nonnegative real: a mean of squares. -/
theorem var2_nonneg {cnt : EReal} {n : ℝ} {H : Mat A C} (hH : IsReal H) (hcnt : cnt = ((n : ℝ) : EReal)) (hn : 0 < n)
    (j : Fin C) : ∃ v : ℝ, 0 ≤ v ∧ var2 cnt H j = (v : EReal) := by
  obtain ⟨m, hm⟩ := mean_real hH hcnt hn.ne' j
  choose h hh using fun r : Fin A => hH (ix2 r j)
  have hs : (∑ r : Fin A, (H (ix2 r j) - mean cnt H j) * (H (ix2 r j) - mean cnt H j))
      = ((∑ r : Fin A, (h r - m) * (h r - m) : ℝ) : EReal) := by
    rw [ERealSum.coe_finset_sum]
    exact Finset.sum_congr rfl fun r _ => by rw [hh r, hm, EReal.coe_mul, EReal.coe_sub]
  refine ⟨(∑ r : Fin A, (h r - m) * (h r - m)) * (1 / n),
    mul_nonneg (Finset.sum_nonneg fun r _ => mul_self_nonneg _) (by positivity), ?_⟩
  unfold var2
  rw [hs, hcnt, Ideal.div_coe hn.ne', EReal.coe_mul]

/-! ## (R3) normalise, scale, shift, rectify -/

/-- The reciprocal square root of a nonnegative real plus a positive real is a real. -/
theorem rsqrt_real {v e : EReal} {ε : ℝ} (hv : ∃ w : ℝ, 0 ≤ w ∧ v = (w : EReal)) (he : e = ((ε : ℝ) : EReal)) (hε : 0 < ε) :
    ∃ r : ℝ, Ideal.rsqrt (v + e) = r := by
  obtain ⟨w, hw, rfl⟩ := hv
  rw [he, ← EReal.coe_add, Ideal.rsqrt_coe, if_neg (by linarith), if_neg (by linarith)]
  exact ⟨_, rfl⟩

theorem bnRelu_real {e z : EReal} {ε : ℝ} {H : Mat A C} {mu var g be : Fin C → EReal} (he : e = ((ε : ℝ) : EReal)) (hε : 0 < ε)
    (hz : ∃ r : ℝ, z = r) (hH : IsReal H) (hmu : IsReal mu) (hvar : ∀ j, ∃ v : ℝ, 0 ≤ v ∧ var j = (v : EReal))
    (hg : IsReal g) (hbe : IsReal be) : IsReal (bnRelu e z H mu var g be) := by
  intro i
  obtain ⟨p, q, rfl⟩ : ∃ (p : Fin A) (q : Fin C), i = ix2 p q := ⟨_, _, eq_ix2 i⟩
  rw [bnRelu_ix2]
  exact real_max (real_add (real_mul (real_mul (real_sub (hH _) (hmu q)) (rsqrt_real (hvar q) he hε)) (hg q)) (hbe q)) hz

theorem relu_real {z : EReal} {X : Mat A M} (hX : IsReal X) (hz : ∃ r : ℝ, z = r) : IsReal (relu z X) :=
  fun i => real_max (hX i) hz

/-! ## (R4) the hidden values and the whole layer -/

theorem hidden_real {X AG : Mat A K} {W1 : Mat K C} {b1 : Fin C → EReal} (hX : IsReal X) (hAG : IsReal AG) (hW1 : IsReal W1)
    (hb1 : IsReal b1) : IsReal (hidden X AG W1 b1) :=
  lin_real (add2_real hX hAG) hW1 hb1

theorem layer2_real {e z cnt : EReal} {n ε : ℝ} {X AG : Mat A K} {W1 : Mat K C} {b1 g be : Fin C → EReal} {W2 : Mat C M}
    {b2 : Fin M → EReal} (hcnt : cnt = ((n : ℝ) : EReal)) (hn : 0 < n) (he : e = ((ε : ℝ) : EReal)) (hε : 0 < ε)
    (hz : ∃ r : ℝ, z = r) (hX : IsReal X) (hAG : IsReal AG) (hW1 : IsReal W1) (hb1 : IsReal b1) (hg : IsReal g)
    (hbe : IsReal be) (hW2 : IsReal W2) (hb2 : IsReal b2) : IsReal (layer2 e z cnt X AG W1 b1 g be W2 b2) :=
  have hH := hidden_real hX hAG hW1 hb1
  lin_real (bnRelu_real he hε hz hH (mean_real hH hcnt hn.ne') (var2_nonneg hH hcnt hn) hg hbe) hW2 hb2

/-! ## (R5) the three words -/

theorem zeroW_eq : zeroW = 0 := Ideal.ofBits_zero_f32

theorem cntW_eq : cntW = ((100000 : ℝ) : EReal) := by
  simp [Ideal.ofBits, Ideal.ieee, -EReal.coe_mul]; norm_num

theorem epsW_pos : ∃ ε : ℝ, 0 < ε ∧ epsW = (ε : EReal) := by
  have h : epsW = (((10995116 : ℝ) * (2 : ℝ) ^ (-40 : Int) : ℝ) : EReal) := by
    simp [Ideal.ofBits, Ideal.ieee, -EReal.coe_mul]
  exact ⟨_, by positivity, h⟩

/-! ## (R6) the neighbour sums -/

/-- Gathering rows of a real array by any indices and adding them into a real array, row by row, leaves a real array:
    each entry is the operand's entry plus a finite sum of entries of the gathered array or zeros. -/
theorem neighbour_real {N C E : Nat} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (x z0 : FVec Ideal ⟨2, ![N, C]⟩ .f32) (iS iD : IVec ⟨2, ![E, 1]⟩ 32) (hx : IsReal x) (hz0 : IsReal z0) :
    IsReal (Host.scatterAdd (LeadingAxis.rowScatterDims N C E wfS) z0 iD
      (Host.gather (LeadingAxis.rowGatherDims N C E wfG) x iS)) := by
  intro i
  obtain ⟨n, f, rfl⟩ : ∃ (n : Fin N) (f : Fin C), i = ix2 n f := ⟨_, _, eq_ix2 i⟩
  rw [LeadingAxis.scatterAdd_rows_apply]
  refine real_add (hz0 _) (real_sum fun e => ?_)
  split_ifs
  · rw [LeadingAxis.gather_rows_apply hN]; exact hx _
  · exact ⟨0, rfl⟩

end Cert.Gin

end
-- ==== Proof.Bridge.lean ====
/-
  The two spellings of the whole computation agree on real inputs.
-/
import proofs.«123288_j69320772157914_1_alg».proof.Proof.Reals

noncomputable section

namespace Cert.Gin

open Idealize.ShloMosaic Idealize.ShloMosaic.ValueIdx

/-- Two layers and the closing step, with the variance in one pass or in two: the same array when the node features
    are real, the weights feeding the two hidden maps and the first layer's scale, shift and output map are real, and
    neighbour sums of real features are real. The first layer's hidden values are then real, so its two spellings are
    one array; its rectified output is real, so are that output's neighbour sums and with them the second layer's
    hidden values, and its two spellings are one array again. Nothing is asked of the second layer's later weights or of
    the closing step's operands: they enter both sides alike. -/
theorem gin_eq (AGG : Mat 100000 64 → Mat 100000 64) (hAGG : ∀ X, IsReal X → IsReal (AGG X)) (x : Mat 100000 64) (hx : IsReal x)
    (W10 : Mat 64 64) (b10 g0 be0 : Fin 64 → EReal) (W20 : Mat 64 64) (b20 : Fin 64 → EReal) (W11 : Mat 64 64)
    (b11 g1 be1 : Fin 64 → EReal) (W21 : Mat 64 64) (b21 : Fin 64 → EReal)
    (hW10 : IsReal W10) (hb10 : IsReal b10) (hg0 : IsReal g0) (hbe0 : IsReal be0) (hW20 : IsReal W20) (hb20 : IsReal b20)
    (hW11 : IsReal W11) (hb11 : IsReal b11)
    (glob : Mat 100000 64) (linW : Mat (64 + 64) 64) (linb : Fin 64 → EReal) :
    fin (layer1 epsW zeroW cntW (relu zeroW (layer1 epsW zeroW cntW x (AGG x) W10 b10 g0 be0 W20 b20))
        (AGG (relu zeroW (layer1 epsW zeroW cntW x (AGG x) W10 b10 g0 be0 W20 b20))) W11 b11 g1 be1 W21 b21) glob linW linb
      = fin (layer2 epsW zeroW cntW (relu zeroW (layer2 epsW zeroW cntW x (AGG x) W10 b10 g0 be0 W20 b20))
        (AGG (relu zeroW (layer2 epsW zeroW cntW x (AGG x) W10 b10 g0 be0 W20 b20))) W11 b11 g1 be1 W21 b21) glob linW linb := by
  have hc : cntW = (((100000 : ℕ) : ℝ) : EReal) := by rw [cntW_eq]; norm_num
  have hA : ((100000 : ℕ) : ℝ) ≠ 0 := by norm_num
  have hn : (0 : ℝ) < ((100000 : ℕ) : ℝ) := by norm_num
  obtain ⟨ε, hε, he⟩ := epsW_pos
  have hz : ∃ r : ℝ, zeroW = r := ⟨0, zeroW_eq⟩
  have hAx : IsReal (AGG x) := hAGG x hx
  have e1 : layer1 epsW zeroW cntW x (AGG x) W10 b10 g0 be0 W20 b20
      = layer2 epsW zeroW cntW x (AGG x) W10 b10 g0 be0 W20 b20 :=
    layer1_eq_layer2 epsW zeroW cntW hc hA x (AGG x) W10 b10 g0 be0 W20 b20 (hidden_real hx hAx hW10 hb10)
  rw [e1]
  have hY : IsReal (relu zeroW (layer2 epsW zeroW cntW x (AGG x) W10 b10 g0 be0 W20 b20)) :=
    relu_real (layer2_real hc hn he hε hz hx hAx hW10 hb10 hg0 hbe0 hW20 hb20) hz
  rw [layer1_eq_layer2 epsW zeroW cntW hc hA _ _ W11 b11 g1 be1 W21 b21 (hidden_real hY (hAGG _ hY) hW11 hb11)]

end Cert.Gin

end
-- ==== Proof.LibFiniteTest.lean ====
/-
  The test "every entry is finite", read at one entry over the extended reals.

  A precondition `jnp.all(jnp.abs(x) < inf)` prints, per array, as a comparison of `Host.absf x` with the float word of +∞
  lifted to the array's shape. On the extended reals that word denotes ⊤ and |a| is max a (−a), which is below ⊤ exactly
  when a is neither ⊤ nor ⊥: an entry passing the test is the image of a real number.
-/
import Idealize.ShloMosaic.PureOps.Ideal.Laws
import Idealize.ShloMosaic.Lib.ValueIdx

noncomputable section

namespace Idealize.ShloMosaic.FiniteTest

/-- The rank-0 shape has one index. -/
theorem subsingleton_scalarIdx : Subsingleton (⟨0, ![]⟩ : Shape).Idx := ⟨fun a b => funext fun d => d.elim0⟩

/-- The float word of +∞ denotes ⊤. -/
theorem inf_word : Ideal.ofBits .f32 0x7F800000#32 = (⊤ : EReal) := by simp [Ideal.ofBits, Ideal.ieee]

/-- An extended real whose absolute value is below ⊤ is a real number. -/
theorem real_of_abs_lt_top (a : EReal) (h : Ideal.cmp .olt (max a (-a)) (⊤ : EReal) = 1#1) : ∃ r : ℝ, a = r := by
  induction a using EReal.rec with
  | bot => exfalso; simp [Ideal.cmp] at h
  | coe r => exact ⟨r, rfl⟩
  | top => exfalso; simp [Ideal.cmp] at h

/-- One array's test at one entry: an entry whose absolute value compares below the lifted +∞ word is a real number. -/
theorem real_of_test {s : Shape} (x : FVec Ideal s .f32)
    (hb : (⟨0, ![]⟩ : Shape).BroadcastsInDim s (![] : Fin 0 → Fin s.rank)) (i : s.Idx)
    (h : cmpf .olt (Host.absf x) (broadcastInDim s ![] hb (constant (F := Ideal) ⟨0, ![]⟩ .f32 0x7F800000#32)) i = 1#1) :
    ∃ r : ℝ, x i = r := by
  have e : Ideal.cmp .olt (max (x i) (-(x i))) (Ideal.ofBits .f32 0x7F800000#32) = 1#1 := h
  rw [inf_word] at e
  exact real_of_abs_lt_top (x i) e

end Idealize.ShloMosaic.FiniteTest

end
-- ==== Proof.PreReal.lean ====
/-
  Every float argument is an array of real numbers.

  The precondition is a conjunction of sixteen tests, one per float argument x: "every entry of |x| is below +∞", an
  and-reduction over all axes of the entrywise comparison of |x| with the float word of +∞. The conjunction is 1, so
  each test is 1; an and-reduction into a single result that is 1 met a 1 at every entry; and over the extended reals
  an entry a with max a (−a) < ⊤ is neither ⊤ nor ⊥, that is, the image of a real number.
-/
import proofs.«123288_j69320772157914_1_alg».proof.Defs
import proofs.«123288_j69320772157914_1_alg».proof.Proof.LibFiniteTest
import Idealize.ShloMosaic.Lib.ReduceAll

set_option maxRecDepth 16384

noncomputable section

namespace Cert.PreReal

open Idealize.ShloMosaic Idealize.SL.Sem
open Cert.Pre_finite_inputs (S_ S64 S64x64 S128x64 S100000x64 S2x1600000)

/-- One array's test: if the and-reduction over all axes of "|x| < +∞" is 1, every entry of x is a real number. -/
theorem real_of_all {s : Shape} {axes : List (Fin s.rank)} (x : FVec Ideal s .f32)
    (hb : S_.BroadcastsInDim s (![] : Fin 0 → Fin s.rank)) (hr : s.ReducesTo axes S_) (hu : 0 < S_.numel)
    (init : IVec S_ 1)
    (e : Host.reduce IntOp.andi
        (cmpf .olt (Host.absf x) (broadcastInDim s ![] hb (constant (F := Ideal) S_ .f32 0x7F800000#32)))
        init hr hu ValueIdx.ix0 = 1#1) :
    ∀ i, ∃ r : ℝ, x i = (r : EReal) := fun i =>
  haveI : Subsingleton S_.Idx := FiniteTest.subsingleton_scalarIdx
  FiniteTest.real_of_test x hb i (Host.reduce_andi_all _ init hr hu ValueIdx.ix0 e i)

/-- A conjunction of two one-bit arrays that is 1 at an index has both conjuncts 1 there. -/
theorem andi_split {s : Shape} (a b : IVec s 1) (i : s.Idx) (h : andi a b i = 1#1) : a i = 1#1 ∧ b i = 1#1 :=
  IntOp.andi_eq_one.1 h

/-- The printed predicate over arbitrary arrays: if it is 1, every float array is an array of reals. The predicate is
    the left-nested conjunction (((t₀ ∧ t₂) ∧ t₃) ∧ …) ∧ t₁₆ of the sixteen tests; peel it from the right. -/
theorem fn_real [hP : Cert.Pre_finite_inputs.Facts] (x0 : FVec Ideal S100000x64 .f32) (x1 : IVec S2x1600000 32) (x2 : FVec Ideal S100000x64 .f32) (x3 : FVec Ideal S64x64 .f32) (x4 : FVec Ideal S64 .f32) (x5 : FVec Ideal S64 .f32) (x6 : FVec Ideal S64 .f32) (x7 : FVec Ideal S64x64 .f32) (x8 : FVec Ideal S64 .f32) (x9 : FVec Ideal S64x64 .f32) (x10 : FVec Ideal S64 .f32) (x11 : FVec Ideal S64 .f32) (x12 : FVec Ideal S64 .f32) (x13 : FVec Ideal S64x64 .f32) (x14 : FVec Ideal S64 .f32) (x15 : FVec Ideal S128x64 .f32) (x16 : FVec Ideal S64 .f32)
    (h : Cert.Pre_finite_inputs.fn (F := Ideal) x0 x1 x2 x3 x4 x5 x6 x7 x8 x9 x10 x11 x12 x13 x14 x15 x16 = fun _ => 1#1) :
    (∀ i, ∃ r : ℝ, x0 i = (r : EReal))
      ∧ (∀ i, ∃ r : ℝ, x2 i = (r : EReal))
      ∧ (∀ i, ∃ r : ℝ, x3 i = (r : EReal))
      ∧ (∀ i, ∃ r : ℝ, x4 i = (r : EReal))
      ∧ (∀ i, ∃ r : ℝ, x5 i = (r : EReal))
      ∧ (∀ i, ∃ r : ℝ, x6 i = (r : EReal))
      ∧ (∀ i, ∃ r : ℝ, x7 i = (r : EReal))
      ∧ (∀ i, ∃ r : ℝ, x8 i = (r : EReal))
      ∧ (∀ i, ∃ r : ℝ, x9 i = (r : EReal))
      ∧ (∀ i, ∃ r : ℝ, x10 i = (r : EReal))
      ∧ (∀ i, ∃ r : ℝ, x11 i = (r : EReal))
      ∧ (∀ i, ∃ r : ℝ, x12 i = (r : EReal))
      ∧ (∀ i, ∃ r : ℝ, x13 i = (r : EReal))
      ∧ (∀ i, ∃ r : ℝ, x14 i = (r : EReal))
      ∧ (∀ i, ∃ r : ℝ, x15 i = (r : EReal))
      ∧ (∀ i, ∃ r : ℝ, x16 i = (r : EReal)) := by
  have e := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at e
  obtain ⟨e, h16⟩ := andi_split _ _ _ e
  obtain ⟨e, h15⟩ := andi_split _ _ _ e
  obtain ⟨e, h14⟩ := andi_split _ _ _ e
  obtain ⟨e, h13⟩ := andi_split _ _ _ e
  obtain ⟨e, h12⟩ := andi_split _ _ _ e
  obtain ⟨e, h11⟩ := andi_split _ _ _ e
  obtain ⟨e, h10⟩ := andi_split _ _ _ e
  obtain ⟨e, h9⟩ := andi_split _ _ _ e
  obtain ⟨e, h8⟩ := andi_split _ _ _ e
  obtain ⟨e, h7⟩ := andi_split _ _ _ e
  obtain ⟨e, h6⟩ := andi_split _ _ _ e
  obtain ⟨e, h5⟩ := andi_split _ _ _ e
  obtain ⟨e, h4⟩ := andi_split _ _ _ e
  obtain ⟨e, h3⟩ := andi_split _ _ _ e
  obtain ⟨h0, h2⟩ := andi_split _ _ _ e
  exact ⟨real_of_all _ _ _ _ _ h0, real_of_all _ _ _ _ _ h2, real_of_all _ _ _ _ _ h3, real_of_all _ _ _ _ _ h4, real_of_all _ _ _ _ _ h5, real_of_all _ _ _ _ _ h6, real_of_all _ _ _ _ _ h7, real_of_all _ _ _ _ _ h8, real_of_all _ _ _ _ _ h9, real_of_all _ _ _ _ _ h10, real_of_all _ _ _ _ _ h11, real_of_all _ _ _ _ _ h12, real_of_all _ _ _ _ _ h13, real_of_all _ _ _ _ _ h14, real_of_all _ _ _ _ _ h15, real_of_all _ _ _ _ _ h16⟩

/-- Argument 0 holds real numbers. -/
theorem real_arg0 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg0) i = (r : EReal) :=
  (fn_real (hP := hP) _ _ _ _ _ _ _ _ _ _ _ _ _ _ _ _ _ (h c)).1

/-- Argument 2 holds real numbers. -/
theorem real_arg2 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg2) i = (r : EReal) :=
  (fn_real (hP := hP) _ _ _ _ _ _ _ _ _ _ _ _ _ _ _ _ _ (h c)).2.1

/-- Argument 3 holds real numbers. -/
theorem real_arg3 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg3) i = (r : EReal) :=
  (fn_real (hP := hP) _ _ _ _ _ _ _ _ _ _ _ _ _ _ _ _ _ (h c)).2.2.1

/-- Argument 4 holds real numbers. -/
theorem real_arg4 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg4) i = (r : EReal) :=
  (fn_real (hP := hP) _ _ _ _ _ _ _ _ _ _ _ _ _ _ _ _ _ (h c)).2.2.2.1

/-- Argument 5 holds real numbers. -/
theorem real_arg5 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg5) i = (r : EReal) :=
  (fn_real (hP := hP) _ _ _ _ _ _ _ _ _ _ _ _ _ _ _ _ _ (h c)).2.2.2.2.1

/-- Argument 6 holds real numbers. -/
theorem real_arg6 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg6) i = (r : EReal) :=
  (fn_real (hP := hP) _ _ _ _ _ _ _ _ _ _ _ _ _ _ _ _ _ (h c)).2.2.2.2.2.1

/-- Argument 7 holds real numbers. -/
theorem real_arg7 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg7) i = (r : EReal) :=
  (fn_real (hP := hP) _ _ _ _ _ _ _ _ _ _ _ _ _ _ _ _ _ (h c)).2.2.2.2.2.2.1

/-- Argument 8 holds real numbers. -/
theorem real_arg8 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg8) i = (r : EReal) :=
  (fn_real (hP := hP) _ _ _ _ _ _ _ _ _ _ _ _ _ _ _ _ _ (h c)).2.2.2.2.2.2.2.1

/-- Argument 9 holds real numbers. -/
theorem real_arg9 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg9) i = (r : EReal) :=
  (fn_real (hP := hP) _ _ _ _ _ _ _ _ _ _ _ _ _ _ _ _ _ (h c)).2.2.2.2.2.2.2.2.1

/-- Argument 10 holds real numbers. -/
theorem real_arg10 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg10) i = (r : EReal) :=
  (fn_real (hP := hP) _ _ _ _ _ _ _ _ _ _ _ _ _ _ _ _ _ (h c)).2.2.2.2.2.2.2.2.2.1

/-- Argument 11 holds real numbers. -/
theorem real_arg11 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg11) i = (r : EReal) :=
  (fn_real (hP := hP) _ _ _ _ _ _ _ _ _ _ _ _ _ _ _ _ _ (h c)).2.2.2.2.2.2.2.2.2.2.1

/-- Argument 12 holds real numbers. -/
theorem real_arg12 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg12) i = (r : EReal) :=
  (fn_real (hP := hP) _ _ _ _ _ _ _ _ _ _ _ _ _ _ _ _ _ (h c)).2.2.2.2.2.2.2.2.2.2.2.1

/-- Argument 13 holds real numbers. -/
theorem real_arg13 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg13) i = (r : EReal) :=
  (fn_real (hP := hP) _ _ _ _ _ _ _ _ _ _ _ _ _ _ _ _ _ (h c)).2.2.2.2.2.2.2.2.2.2.2.2.1

/-- Argument 14 holds real numbers. -/
theorem real_arg14 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg14) i = (r : EReal) :=
  (fn_real (hP := hP) _ _ _ _ _ _ _ _ _ _ _ _ _ _ _ _ _ (h c)).2.2.2.2.2.2.2.2.2.2.2.2.2.1

/-- Argument 15 holds real numbers. -/
theorem real_arg15 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg15) i = (r : EReal) :=
  (fn_real (hP := hP) _ _ _ _ _ _ _ _ _ _ _ _ _ _ _ _ _ (h c)).2.2.2.2.2.2.2.2.2.2.2.2.2.2.1

/-- Argument 16 holds real numbers. -/
theorem real_arg16 (hP : Cert.Pre_finite_inputs.Facts) (m : (ℓ : Loc Cert.KernelIdeal.nD Cert.KernelIdeal.τ Cert.KernelIdeal.sig) → Buf (Elt Ideal) ℓ)
    (h : Cert.Pre_KernelIdeal (hPre_finite_inputs := hP) m) (c : Dev Cert.KernelIdeal.nD) :
    ∀ i, ∃ r : ℝ, m ((c.tc : Thread Cert.KernelIdeal.nD Cert.KernelIdeal.τ).loc Cert.KernelIdeal.main_arg16) i = (r : EReal) :=
  (fn_real (hP := hP) _ _ _ _ _ _ _ _ _ _ _ _ _ _ _ _ _ (h c)).2.2.2.2.2.2.2.2.2.2.2.2.2.2.2

end Cert.PreReal

end
-- ==== Proof.KHost.lean ====
/-
  The kernel program's host operations, read.

  Between its five kernel regions the program runs short stretches of array operations on the host: the two rows of
  the edge list taken apart, the neighbour sums (rows gathered by source, added up by destination), a vector laid out as
  one row, a row of sums divided by the row count, a mean of squares less a squared mean, and a weight matrix cut into
  its upper and lower halves. Each is read here once, as a function of whatever the buffers hold when the stretch
  begins; then the buffers a stretch or a region does not write are followed back to where they were written.
-/
import proofs.«123288_j69320772157914_1_alg».proof.Proof.KernelIdealFrameP
import proofs.«123288_j69320772157914_1_alg».proof.Proof.Spec
import Idealize.ShloMosaic.Lib.ValueLayout
import Idealize.ShloMosaic.Lib.StableHlo.Run

set_option maxRecDepth 16384

noncomputable section

namespace Cert.KernelIdeal.HostValue

open Cert.KernelIdeal Cert.KernelIdeal.Gen Cert.KernelIdeal.GenP Cert.Gin
open Idealize.ShloMosaic Idealize.ShloMosaic.TcCoe Idealize.SL.Sem
open Idealize.ShloMosaic.ValueIdx
open scoped BigOperators

/-- A vector of 64 extended reals. -/
abbrev Vec64 : Type := FVec Ideal ⟨1, ![64]⟩ .f32
/-- The edge list: two rows of 1600000 node numbers. -/
abbrev Edges : Type := (⟨S2x1600000, .i32⟩ : BufTy).Contents (Elt Ideal)
/-- One row of it. -/
abbrev Nodes : Type := (⟨S1600000, .i32⟩ : BufTy).Contents (Elt Ideal)

/-! ## The neighbour sums -/

/-- The sources: row 0 of the edge list. -/
def srcK (e : Edges) : Nodes :=
  shapeCast S1600000 (extractStridedSlice S1x1600000 ![0, 0] e slices_S2x1600000_S1x1600000_0_0) shapeCasts_S1x1600000_S1600000

/-- The destinations: row 1 of the edge list. -/
def dstK (e : Edges) : Nodes :=
  shapeCast S1600000 (extractStridedSlice S1x1600000 ![1, 0] e slices_S2x1600000_S1x1600000_1_0) shapeCasts_S1x1600000_S1600000

/-- The neighbour sums of x: a negative source counts from the end (100000 is added to it), row src(t) of x is
    gathered for every edge t, and the gathered rows are added, from zeros, into the rows dst(t). -/
def aggK (x : Mat 100000 64) (src dst : Nodes) : Mat 100000 64 :=
  Host.scatterAdd (F := Ideal) scatter_S100000x64_S1600000x1_S1600000x64_1_0_0_1
    (broadcastInDim S100000x64 ![] bcast_S_S100000x64 (constant (F := Ideal) S_ .f32 0x00000000#32))
    (broadcastInDim S1600000x1 ![0] bcast_S1600000_S1600000x1_0 dst)
    (Host.gather gather_S100000x64_S1600000x1_S1600000x64_1_0_n_n_0_1_164 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-! ## Small reads -/

/-- A word repeated over an array reads the word. -/
theorem splat_apply {t : Shape} (h : S_.BroadcastsInDim t (![] : Fin 0 → Fin t.rank)) (w : BitVec 32) (i : t.Idx) :
    broadcastInDim t ![] h (constant (F := Ideal) S_ .f32 w) i = Ideal.ofBits .f32 w :=
  (broadcastInDim_apply _ h _ i (fun a => a.elim0) (fun a => a.elim0)).trans rfl

/-- A vector laid out as one row reads, in column q, its entry q. -/
theorem row_reshape (x : Vec64) : row (shapeCast S1x64 x shapeCasts_S64_S1x64) = vec x :=
  funext fun q => shapeCast_a_1a_apply x _ 0 q

/-- The upper half of a [64 + 64, 64] matrix … -/
theorem upper_apply (x : Mat 128 64) (k q : Fin 64) :
    extractStridedSlice S64x64 ![0, 0] x slices_S128x64_S64x64_0_0 (ix2 k q) = x (ix2 (Fin.castAdd 64 k) q) :=
  extractStridedSlice_apply ![0, 0] x slices_S128x64_S64x64_0_0 (ix2 k q) (ix2 (Fin.castAdd 64 k) q) (fun a => match a with
    | ⟨0, _⟩ => by show k.val = 0 + k.val; omega
    | ⟨1, _⟩ => by show q.val = 0 + q.val; omega)

/-- … and the lower half, 64 rows further down. -/
theorem lower_apply (x : Mat 128 64) (k q : Fin 64) :
    extractStridedSlice S64x64 ![64, 0] x slices_S128x64_S64x64_64_0 (ix2 k q) = x (ix2 (Fin.natAdd 64 k) q) :=
  extractStridedSlice_apply ![64, 0] x slices_S128x64_S64x64_64_0 (ix2 k q) (ix2 (Fin.natAdd 64 k) q) (fun a => match a with
    | ⟨0, _⟩ => by show 64 + k.val = 64 + k.val; rfl
    | ⟨1, _⟩ => by show q.val = 0 + q.val; omega)

/-! ## Each stretch, from whatever the buffers hold when it begins -/

section Stretch

variable (V : Valuation τ sig (Elt Ideal))

/-! ### The first stretch: the edge list's rows, the neighbour sums of the features, the first bias as a row -/

theorem ops0_v1 : StableHlo.after hostOps0 V (Proc.devRef .tc main_v1) = srcK (V (Proc.devRef .tc main_arg1)) := by
  dsimp only [hostOps0]; after_results <;> rfl

theorem ops0_v3 : StableHlo.after hostOps0 V (Proc.devRef .tc main_v3) = dstK (V (Proc.devRef .tc main_arg1)) := by
  dsimp only [hostOps0]; after_results <;> rfl

theorem ops0_v13 : StableHlo.after hostOps0 V (Proc.devRef .tc main_v13)
    = aggK (V (Proc.devRef .tc main_arg0)) (srcK (V (Proc.devRef .tc main_arg1))) (dstK (V (Proc.devRef .tc main_arg1))) := by
  dsimp only [hostOps0]; after_results_simp <;> rfl

/-- The first layer's first bias as a row. -/
theorem ops0_v14 : row (StableHlo.after hostOps0 V (Proc.devRef .tc main_v14)) = vec (V (Proc.devRef .tc main_arg4)) := by
  have e : StableHlo.after hostOps0 V (Proc.devRef .tc main_v14) = shapeCast S1x64 (V (Proc.devRef .tc main_arg4)) shapeCasts_S64_S1x64 := by
    dsimp only [hostOps0]; after_results <;> rfl
  rewrite [e]
  exact row_reshape _

/-! ### The second stretch: the first layer's column statistics, its scale, shift and second bias as rows -/

/-- The column mean: the row of column sums over the row count. -/
theorem ops1_mean : row (StableHlo.after hostOps1 V (Proc.devRef .tc main_v17))
    = fun j => Ideal.div (row (V (Proc.devRef .tc main_v15_1)) j) cntW := by
  have e : StableHlo.after hostOps1 V (Proc.devRef .tc main_v17)
      = Host.divf (F := Ideal) (V (Proc.devRef .tc main_v15_1))
          (broadcastInDim S1x64 ![] bcast_S_S1x64 (constant (F := Ideal) S_ .f32 0x47C35000#32)) := by
    dsimp only [hostOps1]; after_results <;> rfl
  funext j
  rewrite [e]
  show Ideal.div (V (Proc.devRef .tc main_v15_1) (ix2 0 j)) (broadcastInDim S1x64 ![] bcast_S_S1x64 (constant (F := Ideal) S_ .f32 0x47C35000#32) (ix2 0 j)) = _
  rewrite [splat_apply]
  rfl

/-- The one-pass variance: the row of sums of squares over the row count, less the squared mean. -/
theorem ops1_var : row (StableHlo.after hostOps1 V (Proc.devRef .tc main_v21))
    = fun j => Ideal.div (row (V (Proc.devRef .tc main_v15_2)) j) cntW
        - Ideal.div (row (V (Proc.devRef .tc main_v15_1)) j) cntW * Ideal.div (row (V (Proc.devRef .tc main_v15_1)) j) cntW := by
  have e : StableHlo.after hostOps1 V (Proc.devRef .tc main_v21)
      = subf (Host.divf (F := Ideal) (V (Proc.devRef .tc main_v15_2))
            (broadcastInDim S1x64 ![] bcast_S_S1x64 (constant (F := Ideal) S_ .f32 0x47C35000#32)))
          (mulf (Host.divf (F := Ideal) (V (Proc.devRef .tc main_v15_1))
              (broadcastInDim S1x64 ![] bcast_S_S1x64 (constant (F := Ideal) S_ .f32 0x47C35000#32)))
            (Host.divf (F := Ideal) (V (Proc.devRef .tc main_v15_1))
              (broadcastInDim S1x64 ![] bcast_S_S1x64 (constant (F := Ideal) S_ .f32 0x47C35000#32)))) := by
    dsimp only [hostOps1]; after_results <;> rfl
  funext j
  rewrite [e]
  show Ideal.div (V (Proc.devRef .tc main_v15_2) (ix2 0 j)) (broadcastInDim S1x64 ![] bcast_S_S1x64 (constant (F := Ideal) S_ .f32 0x47C35000#32) (ix2 0 j))
      - Ideal.div (V (Proc.devRef .tc main_v15_1) (ix2 0 j)) (broadcastInDim S1x64 ![] bcast_S_S1x64 (constant (F := Ideal) S_ .f32 0x47C35000#32) (ix2 0 j))
        * Ideal.div (V (Proc.devRef .tc main_v15_1) (ix2 0 j)) (broadcastInDim S1x64 ![] bcast_S_S1x64 (constant (F := Ideal) S_ .f32 0x47C35000#32) (ix2 0 j)) = _
  rewrite [splat_apply]
  rfl

/-- The first layer's scale as a row. -/
theorem ops1_v22 : row (StableHlo.after hostOps1 V (Proc.devRef .tc main_v22)) = vec (V (Proc.devRef .tc main_arg5)) := by
  have e : StableHlo.after hostOps1 V (Proc.devRef .tc main_v22) = shapeCast S1x64 (V (Proc.devRef .tc main_arg5)) shapeCasts_S64_S1x64 := by
    dsimp only [hostOps1]; after_results <;> rfl
  rewrite [e]
  exact row_reshape _

/-- The first layer's shift as a row. -/
theorem ops1_v23 : row (StableHlo.after hostOps1 V (Proc.devRef .tc main_v23)) = vec (V (Proc.devRef .tc main_arg6)) := by
  have e : StableHlo.after hostOps1 V (Proc.devRef .tc main_v23) = shapeCast S1x64 (V (Proc.devRef .tc main_arg6)) shapeCasts_S64_S1x64 := by
    dsimp only [hostOps1]; after_results <;> rfl
  rewrite [e]
  exact row_reshape _

/-- The first layer's second bias as a row. -/
theorem ops1_v24 : row (StableHlo.after hostOps1 V (Proc.devRef .tc main_v24)) = vec (V (Proc.devRef .tc main_arg8)) := by
  have e : StableHlo.after hostOps1 V (Proc.devRef .tc main_v24) = shapeCast S1x64 (V (Proc.devRef .tc main_arg8)) shapeCasts_S64_S1x64 := by
    dsimp only [hostOps1]; after_results <;> rfl
  rewrite [e]
  exact row_reshape _

/-! ### The third stretch: the neighbour sums of the first layer's output, the second layer's first bias as a row -/

theorem ops2_v35 : StableHlo.after hostOps2 V (Proc.devRef .tc main_v35)
    = aggK (V (Proc.devRef .tc main_v25)) (V (Proc.devRef .tc main_v1)) (V (Proc.devRef .tc main_v3)) := by
  dsimp only [hostOps2]; after_results_simp <;> rfl

/-- The second layer's first bias as a row. -/
theorem ops2_v36 : row (StableHlo.after hostOps2 V (Proc.devRef .tc main_v36)) = vec (V (Proc.devRef .tc main_arg10)) := by
  have e : StableHlo.after hostOps2 V (Proc.devRef .tc main_v36) = shapeCast S1x64 (V (Proc.devRef .tc main_arg10)) shapeCasts_S64_S1x64 := by
    dsimp only [hostOps2]; after_results <;> rfl
  rewrite [e]
  exact row_reshape _

/-! ### The fourth stretch: the second layer's column statistics, its scale, shift and second bias as rows -/

/-- The column mean: the row of column sums over the row count. -/
theorem ops3_mean : row (StableHlo.after hostOps3 V (Proc.devRef .tc main_v39))
    = fun j => Ideal.div (row (V (Proc.devRef .tc main_v37_1)) j) cntW := by
  have e : StableHlo.after hostOps3 V (Proc.devRef .tc main_v39)
      = Host.divf (F := Ideal) (V (Proc.devRef .tc main_v37_1))
          (broadcastInDim S1x64 ![] bcast_S_S1x64 (constant (F := Ideal) S_ .f32 0x47C35000#32)) := by
    dsimp only [hostOps3]; after_results <;> rfl
  funext j
  rewrite [e]
  show Ideal.div (V (Proc.devRef .tc main_v37_1) (ix2 0 j)) (broadcastInDim S1x64 ![] bcast_S_S1x64 (constant (F := Ideal) S_ .f32 0x47C35000#32) (ix2 0 j)) = _
  rewrite [splat_apply]
  rfl

/-- The one-pass variance: the row of sums of squares over the row count, less the squared mean. -/
theorem ops3_var : row (StableHlo.after hostOps3 V (Proc.devRef .tc main_v43))
    = fun j => Ideal.div (row (V (Proc.devRef .tc main_v37_2)) j) cntW
        - Ideal.div (row (V (Proc.devRef .tc main_v37_1)) j) cntW * Ideal.div (row (V (Proc.devRef .tc main_v37_1)) j) cntW := by
  have e : StableHlo.after hostOps3 V (Proc.devRef .tc main_v43)
      = subf (Host.divf (F := Ideal) (V (Proc.devRef .tc main_v37_2))
            (broadcastInDim S1x64 ![] bcast_S_S1x64 (constant (F := Ideal) S_ .f32 0x47C35000#32)))
          (mulf (Host.divf (F := Ideal) (V (Proc.devRef .tc main_v37_1))
              (broadcastInDim S1x64 ![] bcast_S_S1x64 (constant (F := Ideal) S_ .f32 0x47C35000#32)))
            (Host.divf (F := Ideal) (V (Proc.devRef .tc main_v37_1))
              (broadcastInDim S1x64 ![] bcast_S_S1x64 (constant (F := Ideal) S_ .f32 0x47C35000#32)))) := by
    dsimp only [hostOps3]; after_results <;> rfl
  funext j
  rewrite [e]
  show Ideal.div (V (Proc.devRef .tc main_v37_2) (ix2 0 j)) (broadcastInDim S1x64 ![] bcast_S_S1x64 (constant (F := Ideal) S_ .f32 0x47C35000#32) (ix2 0 j))
      - Ideal.div (V (Proc.devRef .tc main_v37_1) (ix2 0 j)) (broadcastInDim S1x64 ![] bcast_S_S1x64 (constant (F := Ideal) S_ .f32 0x47C35000#32) (ix2 0 j))
        * Ideal.div (V (Proc.devRef .tc main_v37_1) (ix2 0 j)) (broadcastInDim S1x64 ![] bcast_S_S1x64 (constant (F := Ideal) S_ .f32 0x47C35000#32) (ix2 0 j)) = _
  rewrite [splat_apply]
  rfl

/-- The second layer's scale as a row. -/
theorem ops3_v44 : row (StableHlo.after hostOps3 V (Proc.devRef .tc main_v44)) = vec (V (Proc.devRef .tc main_arg11)) := by
  have e : StableHlo.after hostOps3 V (Proc.devRef .tc main_v44) = shapeCast S1x64 (V (Proc.devRef .tc main_arg11)) shapeCasts_S64_S1x64 := by
    dsimp only [hostOps3]; after_results <;> rfl
  rewrite [e]
  exact row_reshape _

/-- The second layer's shift as a row. -/
theorem ops3_v45 : row (StableHlo.after hostOps3 V (Proc.devRef .tc main_v45)) = vec (V (Proc.devRef .tc main_arg12)) := by
  have e : StableHlo.after hostOps3 V (Proc.devRef .tc main_v45) = shapeCast S1x64 (V (Proc.devRef .tc main_arg12)) shapeCasts_S64_S1x64 := by
    dsimp only [hostOps3]; after_results <;> rfl
  rewrite [e]
  exact row_reshape _

/-- The second layer's second bias as a row. -/
theorem ops3_v46 : row (StableHlo.after hostOps3 V (Proc.devRef .tc main_v46)) = vec (V (Proc.devRef .tc main_arg14)) := by
  have e : StableHlo.after hostOps3 V (Proc.devRef .tc main_v46) = shapeCast S1x64 (V (Proc.devRef .tc main_arg14)) shapeCasts_S64_S1x64 := by
    dsimp only [hostOps3]; after_results <;> rfl
  rewrite [e]
  exact row_reshape _

/-! ### The last stretch: the closing weights cut in two, the closing bias as a row -/

theorem ops4_v48 (k q : Fin 64) : (StableHlo.after hostOps4 V (Proc.devRef .tc main_v48) : Mat 64 64) (ix2 k q)
    = (V (Proc.devRef .tc main_arg15) : Mat (64 + 64) 64) (ix2 (Fin.castAdd 64 k) q) := by
  have e : StableHlo.after hostOps4 V (Proc.devRef .tc main_v48)
      = extractStridedSlice S64x64 ![0, 0] (V (Proc.devRef .tc main_arg15)) slices_S128x64_S64x64_0_0 := by
    dsimp only [hostOps4]; after_results <;> rfl
  rewrite [e]
  exact upper_apply _ k q

theorem ops4_v49 (k q : Fin 64) : (StableHlo.after hostOps4 V (Proc.devRef .tc main_v49) : Mat 64 64) (ix2 k q)
    = (V (Proc.devRef .tc main_arg15) : Mat (64 + 64) 64) (ix2 (Fin.natAdd 64 k) q) := by
  have e : StableHlo.after hostOps4 V (Proc.devRef .tc main_v49)
      = extractStridedSlice S64x64 ![64, 0] (V (Proc.devRef .tc main_arg15)) slices_S128x64_S64x64_64_0 := by
    dsimp only [hostOps4]; after_results <;> rfl
  rewrite [e]
  exact lower_apply _ k q

/-- The closing bias as a row. -/
theorem ops4_v50 : row (StableHlo.after hostOps4 V (Proc.devRef .tc main_v50)) = vec (V (Proc.devRef .tc main_arg16)) := by
  have e : StableHlo.after hostOps4 V (Proc.devRef .tc main_v50) = shapeCast S1x64 (V (Proc.devRef .tc main_arg16)) shapeCasts_S64_S1x64 := by
    dsimp only [hostOps4]; after_results <;> rfl
  rewrite [e]
  exact row_reshape _

end Stretch

/-! ## Following a buffer back through the run

The buffers' contents at the boundaries between stretches and regions are a fold from the launch memory. A stretch leaves
a buffer none of its operations writes; a region leaves every buffer that is not one of its arrays. -/

section Walk

variable (m : (ℓ : Loc nD τ sig) → Buf (Elt Ideal) ℓ) (ρ : Dev nD → PrngReg) (c : Dev nD) (b : Ref sig .tc)

theorem step1 (h : ∀ op ∈ (hostOps0 : List (HloOp τ sig (Elt Ideal))), Proc.devRef .tc b ∉ op.writes) :
    W1 m ρ c (Proc.devRef .tc b) = W0 m ρ c (Proc.devRef .tc b) := StableHlo.after_of_forall_not_mem _ _ h
theorem step2 (r : ∀ w, Pipeline.arrRef spec0 w ≠ b) :
    W2 m ρ c (Proc.devRef .tc b) = W1 m ρ c (Proc.devRef .tc b) := W2_of_ne m ρ c b r
theorem step3 (h : ∀ op ∈ (hostOps1 : List (HloOp τ sig (Elt Ideal))), Proc.devRef .tc b ∉ op.writes) :
    W3 m ρ c (Proc.devRef .tc b) = W2 m ρ c (Proc.devRef .tc b) := StableHlo.after_of_forall_not_mem _ _ h
theorem step4 (r : ∀ w, Pipeline.arrRef spec1 w ≠ b) :
    W4 m ρ c (Proc.devRef .tc b) = W3 m ρ c (Proc.devRef .tc b) := W4_of_ne m ρ c b r
theorem step5 (h : ∀ op ∈ (hostOps2 : List (HloOp τ sig (Elt Ideal))), Proc.devRef .tc b ∉ op.writes) :
    W5 m ρ c (Proc.devRef .tc b) = W4 m ρ c (Proc.devRef .tc b) := StableHlo.after_of_forall_not_mem _ _ h
theorem step6 (r : ∀ w, Pipeline.arrRef spec2 w ≠ b) :
    W6 m ρ c (Proc.devRef .tc b) = W5 m ρ c (Proc.devRef .tc b) := W6_of_ne m ρ c b r
theorem step7 (h : ∀ op ∈ (hostOps3 : List (HloOp τ sig (Elt Ideal))), Proc.devRef .tc b ∉ op.writes) :
    W7 m ρ c (Proc.devRef .tc b) = W6 m ρ c (Proc.devRef .tc b) := StableHlo.after_of_forall_not_mem _ _ h
theorem step8 (r : ∀ w, Pipeline.arrRef spec3 w ≠ b) :
    W8 m ρ c (Proc.devRef .tc b) = W7 m ρ c (Proc.devRef .tc b) := W8_of_ne m ρ c b r
theorem step9 (h : ∀ op ∈ (hostOps4 : List (HloOp τ sig (Elt Ideal))), Proc.devRef .tc b ∉ op.writes) :
    W9 m ρ c (Proc.devRef .tc b) = W8 m ρ c (Proc.devRef .tc b) := StableHlo.after_of_forall_not_mem _ _ h

/-- A buffer nothing writes before the first region's exit holds its launch contents there … -/
theorem W2_launch (h0 : ∀ op ∈ (hostOps0 : List (HloOp τ sig (Elt Ideal))), Proc.devRef .tc b ∉ op.writes)
    (r0 : ∀ w, Pipeline.arrRef spec0 w ≠ b) :
    W2 m ρ c (Proc.devRef .tc b) = m ((c.tc : Thread nD τ).loc b) :=
  (step2 m ρ c b r0).trans ((step1 m ρ c b h0).trans rfl)
/-- … at the second region's exit … -/
theorem W4_launch (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b) :
    W4 m ρ c (Proc.devRef .tc b) = m ((c.tc : Thread nD τ).loc b) :=
  (step4 m ρ c b r1).trans ((step3 m ρ c b h1).trans (W2_launch m ρ c b h0 r0))
/-- … at the third region's exit … -/
theorem W6_launch (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b) :
    W6 m ρ c (Proc.devRef .tc b) = m ((c.tc : Thread nD τ).loc b) :=
  (step6 m ρ c b r2).trans ((step5 m ρ c b h2).trans (W4_launch m ρ c b h0 r0 h1 r1))
/-- … and at the fourth region's exit. -/
theorem W8_launch (h0 : ∀ op ∈ (hostOps0 : List (HloOp τ sig (Elt Ideal))), Proc.devRef .tc b ∉ op.writes)
    (r0 : ∀ w, Pipeline.arrRef spec0 w ≠ b)
    (h1 : ∀ op ∈ (hostOps1 : List (HloOp τ sig (Elt Ideal))), Proc.devRef .tc b ∉ op.writes)
    (r1 : ∀ w, Pipeline.arrRef spec1 w ≠ b)
    (h2 : ∀ op ∈ (hostOps2 : List (HloOp τ sig (Elt Ideal))), Proc.devRef .tc b ∉ op.writes)
    (r2 : ∀ w, Pipeline.arrRef spec2 w ≠ b)
    (h3 : ∀ op ∈ (hostOps3 : List (HloOp τ sig (Elt Ideal))), Proc.devRef .tc b ∉ op.writes)
    (r3 : ∀ w, Pipeline.arrRef spec3 w ≠ b) :
    W8 m ρ c (Proc.devRef .tc b) = m ((c.tc : Thread nD τ).loc b) :=
  (step8 m ρ c b r3).trans ((step7 m ρ c b h3).trans (W6_launch m ρ c b h0 r0 h1 r1 h2 r2))

end Walk

/-- No operation of a stretch writes the buffer: the stretch's result references, one by one, are other references. -/
local macro "unwritten" ops:ident : tactic => `(tactic| (
  refine List.forall_iff_forall_mem.mp ?_
  simp only [$ops:ident, List.Forall, StableHlo.nullary_writes, StableHlo.unary_writes, StableHlo.binary_writes,
    StableHlo.ternary_writes, StableHlo.reshape_writes, Finset.mem_singleton]
  repeat' apply And.intro
  all_goals exact StableHlo.devRef_ne_of_ne (by decide)))

/-! ## The buffers at each region's entry -/

section Stages

variable (m : (ℓ : Loc nD τ sig) → Buf (Elt Ideal) ℓ) (ρ : Dev nD → PrngReg) (c : Dev nD)

/-! ### The first region's entry -/

theorem s1_arg0 : V1 m ρ c main_arg0 = (m ((c.tc : Thread nD τ).loc main_arg0)) :=
  (step1 m ρ c main_arg0 (by unwritten hostOps0)).trans rfl
theorem s1_arg3 : V1 m ρ c main_arg3 = (m ((c.tc : Thread nD τ).loc main_arg3)) :=
  (step1 m ρ c main_arg3 (by unwritten hostOps0)).trans rfl
theorem s1_v13 : V1 m ρ c main_v13 = aggK (m ((c.tc : Thread nD τ).loc main_arg0)) (srcK (m ((c.tc : Thread nD τ).loc main_arg1))) (dstK (m ((c.tc : Thread nD τ).loc main_arg1))) :=
  ops0_v13 (W0 m ρ c)
theorem s1_v14 : row (V1 m ρ c main_v14) = vec (m ((c.tc : Thread nD τ).loc main_arg4)) :=
  ops0_v14 (W0 m ρ c)
/-- The edge list's two rows, as the first stretch leaves them. -/
theorem W1_v1 : W1 m ρ c (Proc.devRef .tc main_v1) = srcK (m ((c.tc : Thread nD τ).loc main_arg1)) := ops0_v1 (W0 m ρ c)
theorem W1_v3 : W1 m ρ c (Proc.devRef .tc main_v3) = dstK (m ((c.tc : Thread nD τ).loc main_arg1)) := ops0_v3 (W0 m ρ c)

/-! ### The second region's entry, from the first region's exit -/

theorem s3_v15_0 : V3 m ρ c main_v15_0 = W2 m ρ c (Proc.devRef .tc main_v15_0) :=
  step3 m ρ c main_v15_0 (by unwritten hostOps1)
theorem s3_v17 : row (V3 m ρ c main_v17) = fun j => Ideal.div (row (W2 m ρ c (Proc.devRef .tc main_v15_1)) j) cntW :=
  ops1_mean (W2 m ρ c)
theorem s3_v21 : row (V3 m ρ c main_v21)
    = fun j => Ideal.div (row (W2 m ρ c (Proc.devRef .tc main_v15_2)) j) cntW
        - Ideal.div (row (W2 m ρ c (Proc.devRef .tc main_v15_1)) j) cntW * Ideal.div (row (W2 m ρ c (Proc.devRef .tc main_v15_1)) j) cntW :=
  ops1_var (W2 m ρ c)
theorem s3_v22 : row (V3 m ρ c main_v22) = vec (m ((c.tc : Thread nD τ).loc main_arg5)) :=
  (ops1_v22 (W2 m ρ c)).trans (congrArg vec (W2_launch m ρ c main_arg5 (by unwritten hostOps0) (by decide)))
theorem s3_v23 : row (V3 m ρ c main_v23) = vec (m ((c.tc : Thread nD τ).loc main_arg6)) :=
  (ops1_v23 (W2 m ρ c)).trans (congrArg vec (W2_launch m ρ c main_arg6 (by unwritten hostOps0) (by decide)))
theorem s3_arg7 : V3 m ρ c main_arg7 = (m ((c.tc : Thread nD τ).loc main_arg7)) :=
  (step3 m ρ c main_arg7 (by unwritten hostOps1)).trans (W2_launch m ρ c main_arg7 (by unwritten hostOps0) (by decide))
theorem s3_v24 : row (V3 m ρ c main_v24) = vec (m ((c.tc : Thread nD τ).loc main_arg8)) :=
  (ops1_v24 (W2 m ρ c)).trans (congrArg vec (W2_launch m ρ c main_arg8 (by unwritten hostOps0) (by decide)))

/-! ### The third region's entry, from the second region's exit -/

/-- The edge list's two rows are still there. -/
theorem W4_v1 : W4 m ρ c (Proc.devRef .tc main_v1) = srcK (m ((c.tc : Thread nD τ).loc main_arg1)) :=
  (step4 m ρ c main_v1 (by decide)).trans ((step3 m ρ c main_v1 (by unwritten hostOps1)).trans
    ((step2 m ρ c main_v1 (by decide)).trans (W1_v1 m ρ c)))
theorem W4_v3 : W4 m ρ c (Proc.devRef .tc main_v3) = dstK (m ((c.tc : Thread nD τ).loc main_arg1)) :=
  (step4 m ρ c main_v3 (by decide)).trans ((step3 m ρ c main_v3 (by unwritten hostOps1)).trans
    ((step2 m ρ c main_v3 (by decide)).trans (W1_v3 m ρ c)))

theorem s5_v25 : V5 m ρ c main_v25 = W4 m ρ c (Proc.devRef .tc main_v25) :=
  step5 m ρ c main_v25 (by unwritten hostOps2)
theorem s5_v35 : V5 m ρ c main_v35 = aggK (W4 m ρ c (Proc.devRef .tc main_v25)) (srcK (m ((c.tc : Thread nD τ).loc main_arg1))) (dstK (m ((c.tc : Thread nD τ).loc main_arg1))) :=
  (ops2_v35 (W4 m ρ c)).trans (congrArg₂ (aggK (W4 m ρ c (Proc.devRef .tc main_v25))) (W4_v1 m ρ c) (W4_v3 m ρ c))
theorem s5_arg9 : V5 m ρ c main_arg9 = (m ((c.tc : Thread nD τ).loc main_arg9)) :=
  (step5 m ρ c main_arg9 (by unwritten hostOps2)).trans (W4_launch m ρ c main_arg9 (by unwritten hostOps0) (by decide) (by unwritten hostOps1) (by decide))
theorem s5_v36 : row (V5 m ρ c main_v36) = vec (m ((c.tc : Thread nD τ).loc main_arg10)) :=
  (ops2_v36 (W4 m ρ c)).trans (congrArg vec (W4_launch m ρ c main_arg10 (by unwritten hostOps0) (by decide) (by unwritten hostOps1) (by decide)))

/-! ### The fourth region's entry, from the third region's exit -/

theorem s7_v37_0 : V7 m ρ c main_v37_0 = W6 m ρ c (Proc.devRef .tc main_v37_0) :=
  step7 m ρ c main_v37_0 (by unwritten hostOps3)
theorem s7_v39 : row (V7 m ρ c main_v39) = fun j => Ideal.div (row (W6 m ρ c (Proc.devRef .tc main_v37_1)) j) cntW :=
  ops3_mean (W6 m ρ c)
theorem s7_v43 : row (V7 m ρ c main_v43)
    = fun j => Ideal.div (row (W6 m ρ c (Proc.devRef .tc main_v37_2)) j) cntW
        - Ideal.div (row (W6 m ρ c (Proc.devRef .tc main_v37_1)) j) cntW * Ideal.div (row (W6 m ρ c (Proc.devRef .tc main_v37_1)) j) cntW :=
  ops3_var (W6 m ρ c)
theorem s7_v44 : row (V7 m ρ c main_v44) = vec (m ((c.tc : Thread nD τ).loc main_arg11)) :=
  (ops3_v44 (W6 m ρ c)).trans (congrArg vec (W6_launch m ρ c main_arg11 (by unwritten hostOps0) (by decide) (by unwritten hostOps1) (by decide) (by unwritten hostOps2) (by decide)))
theorem s7_v45 : row (V7 m ρ c main_v45) = vec (m ((c.tc : Thread nD τ).loc main_arg12)) :=
  (ops3_v45 (W6 m ρ c)).trans (congrArg vec (W6_launch m ρ c main_arg12 (by unwritten hostOps0) (by decide) (by unwritten hostOps1) (by decide) (by unwritten hostOps2) (by decide)))
theorem s7_arg13 : V7 m ρ c main_arg13 = (m ((c.tc : Thread nD τ).loc main_arg13)) :=
  (step7 m ρ c main_arg13 (by unwritten hostOps3)).trans (W6_launch m ρ c main_arg13 (by unwritten hostOps0) (by decide) (by unwritten hostOps1) (by decide) (by unwritten hostOps2) (by decide))
theorem s7_v46 : row (V7 m ρ c main_v46) = vec (m ((c.tc : Thread nD τ).loc main_arg14)) :=
  (ops3_v46 (W6 m ρ c)).trans (congrArg vec (W6_launch m ρ c main_arg14 (by unwritten hostOps0) (by decide) (by unwritten hostOps1) (by decide) (by unwritten hostOps2) (by decide)))

/-! ### The last region's entry, from the fourth region's exit -/

theorem s9_v47 : V9 m ρ c main_v47 = W8 m ρ c (Proc.devRef .tc main_v47) :=
  step9 m ρ c main_v47 (by unwritten hostOps4)
theorem s9_arg2 : V9 m ρ c main_arg2 = (m ((c.tc : Thread nD τ).loc main_arg2)) :=
  (step9 m ρ c main_arg2 (by unwritten hostOps4)).trans (W8_launch m ρ c main_arg2 (by unwritten hostOps0) (by decide) (by unwritten hostOps1) (by decide) (by unwritten hostOps2) (by decide) (by unwritten hostOps3) (by decide))
theorem s9_v50 : row (V9 m ρ c main_v50) = vec (m ((c.tc : Thread nD τ).loc main_arg16)) :=
  (ops4_v50 (W8 m ρ c)).trans (congrArg vec (W8_launch m ρ c main_arg16 (by unwritten hostOps0) (by decide) (by unwritten hostOps1) (by decide) (by unwritten hostOps2) (by decide) (by unwritten hostOps3) (by decide)))
/-- The closing weights as launched, at the fourth region's exit. -/
theorem W8_arg15 : W8 m ρ c (Proc.devRef .tc main_arg15) = (m ((c.tc : Thread nD τ).loc main_arg15)) :=
  (W8_launch m ρ c main_arg15 (by unwritten hostOps0) (by decide) (by unwritten hostOps1) (by decide) (by unwritten hostOps2) (by decide) (by unwritten hostOps3) (by decide))
theorem s9_v48 (k q : Fin 64) : (V9 m ρ c main_v48 : Mat 64 64) (ix2 k q)
    = ((m ((c.tc : Thread nD τ).loc main_arg15)) : Mat (64 + 64) 64) (ix2 (Fin.castAdd 64 k) q) :=
  (ops4_v48 (W8 m ρ c) k q).trans (congrFun (W8_arg15 m ρ c) _)
theorem s9_v49 (k q : Fin 64) : (V9 m ρ c main_v49 : Mat 64 64) (ix2 k q)
    = ((m ((c.tc : Thread nD τ).loc main_arg15)) : Mat (64 + 64) 64) (ix2 (Fin.natAdd 64 k) q) :=
  (ops4_v49 (W8 m ρ c) k q).trans (congrFun (W8_arg15 m ρ c) _)

end Stages

end Cert.KernelIdeal.HostValue

end
-- ==== Proof.AggEq.lean ====
/-
  The neighbour sums of the two programs are one function, and it keeps real entries real.

  The kernel program forms the neighbour sums on the host by the same operations, in the same order, as the reference:
  row 0 and row 1 of the edge list, a negative source moved up by the node count, rows gathered by source, and the
  gathered rows added, from zeros, into the rows named by destination. Every entry of the result is a zero plus a finite
  sum of entries of the gathered array or zeros, so real entries in give real entries out.
-/
import proofs.«123288_j69320772157914_1_alg».proof.Proof.KHost
import proofs.«123288_j69320772157914_1_alg».proof.Proof.RefValue
import proofs.«123288_j69320772157914_1_alg».proof.Proof.Reals

set_option maxRecDepth 16384

noncomputable section

namespace Cert.KernelIdeal.HostValue

open Cert.KernelIdeal Cert.KernelIdeal.Gen Cert.Gin
open Idealize.ShloMosaic Idealize.SL.Sem
open Idealize.ShloMosaic.ValueIdx

/-- The neighbour sums the kernel program forms are the reference's. -/
theorem aggK_eq_ref (x : Mat 100000 64) (e : Edges) :
    aggK x (srcK e) (dstK e) = Cert.ReferenceIdeal.Read.val_main_v13 (F := Ideal) x e := rfl

/-- The array of zeros the sums start from is real. -/
theorem zeros_real :
    IsReal (broadcastInDim S100000x64 ![] bcast_S_S100000x64 (constant (F := Ideal) S_ .f32 0x00000000#32)) :=
  fun i => ⟨0, (splat_apply _ _ i).trans (Ideal.ofBits_zero_f32.trans EReal.coe_zero.symm)⟩

/-- Neighbour sums of a real array, along any edge list, are real. -/
theorem aggK_real (x : Mat 100000 64) (src dst : Nodes) (hx : IsReal x) : IsReal (aggK x src dst) := by
  unfold aggK
  exact neighbour_real (N := 100000) (C := 64) (E := 1600000) (by decide)
    gather_S100000x64_S1600000x1_S1600000x64_1_0_n_n_0_1_164_wf scatter_S100000x64_S1600000x1_S1600000x64_1_0_0_1_wf
    x _ _ _ hx zeros_real

end Cert.KernelIdeal.HostValue

end
-- ==== Proof.KStages.lean ====
/-
  The kernel program's host stretches, handed to the boundary-by-boundary reading of its result.

  Before each of the five regions the host has prepared what the region reads: an argument as launched, a vector laid out
  as a row, the neighbour sums of a node array along the launched edge list, a mean and a one-pass variance from the rows of
  sums the region before left, or the two halves of the closing weights. These are the five premises the result's reading
  takes; with them the result is the closing step of two layers with the one-pass variance.
-/
import proofs.«123288_j69320772157914_1_alg».proof.Proof.KHost
import proofs.«123288_j69320772157914_1_alg».proof.Proof.KValue

set_option maxRecDepth 16384

noncomputable section

namespace Cert.KernelIdeal.KStages

open Cert.KernelIdeal Cert.KernelIdeal.Gen Cert.KernelIdeal.GenP Cert.Gin
open Cert.KernelIdeal.HostValue Cert.KernelIdeal.KValue
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The neighbour sums along the launched edge list, as a function of the node array. -/
abbrev AGK : Mat 100000 64 → Mat 100000 64 := fun X => aggK X (srcK (m ((c.tc : Thread nD τ).loc main_arg1))) (dstK (m ((c.tc : Thread nD τ).loc main_arg1)))

/-- Before the first region: the features, the first weights, the features' neighbour sums, the first bias. -/
theorem stage1 : Stage1 m ρ c (AGK m c) :=
  ⟨s1_arg0 m ρ c, s1_arg3 m ρ c, s1_v13 m ρ c, s1_v14 m ρ c⟩

/-- Before the first normalising region: the hidden values, their mean and one-pass variance, scale, shift, weights, bias. -/
theorem stage3 : Stage3 m ρ c :=
  ⟨s3_v15_0 m ρ c, s3_v17 m ρ c, s3_v21 m ρ c, s3_v22 m ρ c, s3_v23 m ρ c, s3_arg7 m ρ c, s3_v24 m ρ c⟩

/-- Before the third region: the first layer's output, its neighbour sums, the weights, the bias. -/
theorem stage5 : Stage5 m ρ c (AGK m c) :=
  ⟨s5_v25 m ρ c, s5_v35 m ρ c, s5_arg9 m ρ c, s5_v36 m ρ c⟩

/-- Before the second normalising region. -/
theorem stage7 : Stage7 m ρ c :=
  ⟨s7_v37_0 m ρ c, s7_v39 m ρ c, s7_v43 m ρ c, s7_v44 m ρ c, s7_v45 m ρ c, s7_arg13 m ρ c, s7_v46 m ρ c⟩

/-- Before the last region: the second layer's output, the pooled rows, the bias, the two halves of the closing weights. -/
theorem stage9 : Stage9 m ρ c :=
  ⟨s9_v47 m ρ c, s9_arg2 m ρ c, s9_v50 m ρ c, s9_v48 m ρ c, s9_v49 m ρ c⟩

/-- The kernel program's result: the closing step of two layers, each with the one-pass variance, the neighbour sums
    taken along the launched edge list. -/
theorem kernel_value' :
    W10 m ρ c (Proc.devRef .tc main_v51)
      = fin (K := 64) (layer1 epsW zeroW cntW (relu zeroW (layer1 epsW zeroW cntW (a0 m c) (aggK (a0 m c) (srcK (m ((c.tc : Thread nD τ).loc main_arg1))) (dstK (m ((c.tc : Thread nD τ).loc main_arg1)))) (a3 m c) (vec (a4 m c)) (vec (a5 m c)) (vec (a6 m c)) (a7 m c) (vec (a8 m c)))) (aggK (relu zeroW (layer1 epsW zeroW cntW (a0 m c) (aggK (a0 m c) (srcK (m ((c.tc : Thread nD τ).loc main_arg1))) (dstK (m ((c.tc : Thread nD τ).loc main_arg1)))) (a3 m c) (vec (a4 m c)) (vec (a5 m c)) (vec (a6 m c)) (a7 m c) (vec (a8 m c)))) (srcK (m ((c.tc : Thread nD τ).loc main_arg1))) (dstK (m ((c.tc : Thread nD τ).loc main_arg1)))) (a9 m c) (vec (a10 m c)) (vec (a11 m c)) (vec (a12 m c)) (a13 m c) (vec (a14 m c))) (a2 m c) (a15 m c) (vec (a16 m c)) :=
  kernel_value (AG := AGK m c) (stage1 m ρ c) (stage3 m ρ c) (stage5 m ρ c) (stage7 m ρ c) (stage9 m ρ c)

end Cert.KernelIdeal.KStages

end
-- ==== Proof.lean ====
/-
  A two-layer graph-isomorphism network on 100000 nodes with 64 features, and a closing linear map.

  Both programs compute, for node features x, an edge list, pooled rows and the weights: the neighbour sums of x added to x,
  a linear map, a normalisation of each column by its mean and variance over the 100000 rows (with a guard ε under the
  reciprocal square root), scale, shift and rectifier, a second linear map — twice, the first layer's output rectified
  and fed to the second — and last the product of the second layer's output and the pooled rows, laid side by side, with
  one [128, 64] weight matrix, plus a bias.

  The kernel program walks the rows in ten blocks of 10000: one region forms a block of hidden values and adds its column
  sums and column sums of squares into two carried rows; the host turns the totals into the mean and the ONE-PASS variance
  (mean of squares less squared mean); a second region normalises block by block. The reference forms the TWO-PASS variance
  (mean of squared deviations). Over the extended reals the two variances differ at infinite entries, and agree when every
  hidden value is a real number. Under the precondition every float argument is real; sums, products, maxima, quotients by
  the count, and the reciprocal square root of a nonnegative variance plus a positive guard keep reals real, and so do the
  neighbour sums; hence both layers' hidden values are real and the two programs' layers are one function. The closing
  product of the rows laid side by side is the sum over the first 64 contracted positions plus the sum over the last 64:
  the kernel's two products with the upper and lower halves of the weight matrix.
-/
import proofs.«123288_j69320772157914_1_alg».proof.Defs
import proofs.«123288_j69320772157914_1_alg».proof.Proof.Gen.Kernel
import proofs.«123288_j69320772157914_1_alg».proof.Proof.Gen.Kernel.Skeleton
import proofs.«123288_j69320772157914_1_alg».proof.Proof.Gen.Kernel.Points
import proofs.«123288_j69320772157914_1_alg».proof.Proof.KernelFrameP
import proofs.«123288_j69320772157914_1_alg».proof.Proof.Gen.KernelIdeal
import proofs.«123288_j69320772157914_1_alg».proof.Proof.Gen.KernelIdeal.Skeleton
import proofs.«123288_j69320772157914_1_alg».proof.Proof.Gen.KernelIdeal.Points
import proofs.«123288_j69320772157914_1_alg».proof.Proof.KernelIdealFrameP
import proofs.«123288_j69320772157914_1_alg».proof.Proof.Gen.ReferenceIdeal
import proofs.«123288_j69320772157914_1_alg».proof.Proof.Gen.Pre_finite_inputs
import proofs.«123288_j69320772157914_1_alg».proof.Proof.Gen.ReferenceIdeal.Run
import proofs.«123288_j69320772157914_1_alg».proof.Proof.Gen.ReferenceIdeal.Read
import Idealize.ShloMosaic.Adequacy
import Idealize.ShloMosaic.Init
import proofs.«123288_j69320772157914_1_alg».proof.Proof.KRun
import proofs.«123288_j69320772157914_1_alg».proof.Proof.KValue
import proofs.«123288_j69320772157914_1_alg».proof.Proof.RefValue
import proofs.«123288_j69320772157914_1_alg».proof.Proof.Bridge
import proofs.«123288_j69320772157914_1_alg».proof.Proof.PreReal
import proofs.«123288_j69320772157914_1_alg».proof.Proof.KHost
import proofs.«123288_j69320772157914_1_alg».proof.Proof.AggEq
import proofs.«123288_j69320772157914_1_alg».proof.Proof.KStages

set_option maxRecDepth 16384

noncomputable section

namespace Cert.Proof

open Idealize.ShloMosaic Idealize.SL.Sem Cert.Gin
open Idealize.ShloMosaic.ValueIdx
open Cert.KernelIdeal.KValue (Stage1 Stage3 Stage5 Stage7 Stage9 kernel_value)

/-- An edge list: the [2, 1600000] array of node indices. -/
abbrev Edges : Type := Cert.ReferenceIdeal.RefValue.Edges

theorem frame_k : Cert.frame_Kernel := fun m ρ _ => Cert.Kernel.GenP.frame m ρ

theorem frame_ki : Cert.frame_KernelIdeal := fun m ρ _ => Cert.KernelIdeal.GenP.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- A vector of reals read by its coordinate is a family of reals. -/
theorem isReal_vec {v : FVec Ideal ⟨1, ![64]⟩ .f32} (h : ∀ i, ∃ r : ℝ, v i = (r : EReal)) : IsReal (vec v) :=
  fun q => h (ix1 q)

/-- The two programs end with one result, given: the neighbour-sum function `AG` of an edge list, which the reference's
    neighbour sums are (`hagg`) and which keeps real features real (`hreal`), and the kernel program's host stretches read
    at their entries (`hstages`). The kernel's result is the closing step of two layers with the one-pass variance, the
    reference's of two layers with the two-pass variance; every float argument is real under the precondition, so the two
    agree. -/
theorem algebraic_of (AG : Edges → Mat 100000 64 → Mat 100000 64)
    (hagg : ∀ (X : Mat 100000 64) (e : Edges), Cert.ReferenceIdeal.Read.val_main_v13 (F := Ideal) X e = AG e X)
    (hreal : ∀ (e : Edges) (X : Mat 100000 64), IsReal X → IsReal (AG e X))
    (hstages : ∀ (m : (ℓ : Loc Cert.KernelIdeal.nD Cert.KernelIdeal.τ Cert.KernelIdeal.sig) → Buf (Elt Ideal) ℓ)
      (ρ : Dev Cert.KernelIdeal.nD → PrngReg) (c : Dev Cert.KernelIdeal.nD),
      Stage1 m ρ c (AG (m ((c.tc : Thread Cert.KernelIdeal.nD Cert.KernelIdeal.τ).loc Cert.KernelIdeal.main_arg1))) ∧ Stage3 m ρ c ∧ Stage5 m ρ c (AG (m ((c.tc : Thread Cert.KernelIdeal.nD Cert.KernelIdeal.τ).loc Cert.KernelIdeal.main_arg1))) ∧ Stage7 m ρ c ∧ Stage9 m ρ c) :
    Cert.algebraic_KernelIdeal_ReferenceIdeal := by
  intro m ρ m' ρ' hpre hagree
  refine ⟨fun c => Cert.KernelIdeal.GenP.W10 m ρ c (Proc.devRef .tc Cert.KernelIdeal.main_v51),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14, e15, e16⟩ := hagree c
  obtain ⟨s1, s3, s5, s7, s9⟩ := hstages m ρ c
  have hP := Cert.Pre_finite_inputs.Gen.facts
  show Cert.ReferenceIdeal.Value.res_main_v99 (F := Ideal) m' c
    = Cert.KernelIdeal.GenP.W10 m ρ c (Proc.devRef .tc Cert.KernelIdeal.main_v51)
  rw [Cert.ReferenceIdeal.RefValue.ref_value m' c, e0, e1, e2, e3, e4, e5, e6, e7, e8, e9, e10, e11, e12, e13, e14, e15, e16, kernel_value s1 s3 s5 s7 s9]
  simp only [hagg]
  exact (gin_eq (AG (m ((c.tc : Thread Cert.KernelIdeal.nD Cert.KernelIdeal.τ).loc Cert.KernelIdeal.main_arg1))) (hreal _) (m ((c.tc : Thread Cert.KernelIdeal.nD Cert.KernelIdeal.τ).loc Cert.KernelIdeal.main_arg0)) (Cert.PreReal.real_arg0 hP m hpre c)
    (m ((c.tc : Thread Cert.KernelIdeal.nD Cert.KernelIdeal.τ).loc Cert.KernelIdeal.main_arg3)) (vec (m ((c.tc : Thread Cert.KernelIdeal.nD Cert.KernelIdeal.τ).loc Cert.KernelIdeal.main_arg4))) (vec (m ((c.tc : Thread Cert.KernelIdeal.nD Cert.KernelIdeal.τ).loc Cert.KernelIdeal.main_arg5))) (vec (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (vec (m ((c.tc : Thread Cert.KernelIdeal.nD Cert.KernelIdeal.τ).loc Cert.KernelIdeal.main_arg8)))
    (m ((c.tc : Thread Cert.KernelIdeal.nD Cert.KernelIdeal.τ).loc Cert.KernelIdeal.main_arg9)) (vec (m ((c.tc : Thread Cert.KernelIdeal.nD Cert.KernelIdeal.τ).loc Cert.KernelIdeal.main_arg10))) (vec (m ((c.tc : Thread Cert.KernelIdeal.nD Cert.KernelIdeal.τ).loc Cert.KernelIdeal.main_arg11))) (vec (m ((c.tc : Thread Cert.KernelIdeal.nD Cert.KernelIdeal.τ).loc Cert.KernelIdeal.main_arg12))) (m ((c.tc : Thread Cert.KernelIdeal.nD Cert.KernelIdeal.τ).loc Cert.KernelIdeal.main_arg13)) (vec (m ((c.tc : Thread Cert.KernelIdeal.nD Cert.KernelIdeal.τ).loc Cert.KernelIdeal.main_arg14)))
    (Cert.PreReal.real_arg3 hP m hpre c) (isReal_vec (Cert.PreReal.real_arg4 hP m hpre c))
    (isReal_vec (Cert.PreReal.real_arg5 hP m hpre c)) (isReal_vec (Cert.PreReal.real_arg6 hP m hpre c))
    (Cert.PreReal.real_arg7 hP m hpre c) (isReal_vec (Cert.PreReal.real_arg8 hP m hpre c))
    (Cert.PreReal.real_arg9 hP m hpre c) (isReal_vec (Cert.PreReal.real_arg10 hP m hpre c))
    (m ((c.tc : Thread Cert.KernelIdeal.nD Cert.KernelIdeal.τ).loc Cert.KernelIdeal.main_arg2)) (m ((c.tc : Thread Cert.KernelIdeal.nD Cert.KernelIdeal.τ).loc Cert.KernelIdeal.main_arg15)) (vec (m ((c.tc : Thread Cert.KernelIdeal.nD Cert.KernelIdeal.τ).loc Cert.KernelIdeal.main_arg16)))).symm

/-- The neighbour sums of an edge list: gather the source rows, add them into the destination rows. -/
abbrev AG : Edges → Mat 100000 64 → Mat 100000 64 := fun e X =>
  Cert.KernelIdeal.HostValue.aggK X (Cert.KernelIdeal.HostValue.srcK e) (Cert.KernelIdeal.HostValue.dstK e)

theorem algebraic : Cert.algebraic_KernelIdeal_ReferenceIdeal :=
  algebraic_of AG (fun X e => (Cert.KernelIdeal.HostValue.aggK_eq_ref X e).symm)
    (fun e X hX => Cert.KernelIdeal.HostValue.aggK_real X _ _ hX)
    (fun m ρ c => ⟨Cert.KernelIdeal.KStages.stage1 m ρ c, Cert.KernelIdeal.KStages.stage3 m ρ c,
      Cert.KernelIdeal.KStages.stage5 m ρ c, Cert.KernelIdeal.KStages.stage7 m ρ c, Cert.KernelIdeal.KStages.stage9 m ρ c⟩)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
